-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v297)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v297) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S512x1 .f32) (main_v50 : FVec F S512x1 .f32) : IVec S_ 1 :=
  let main_v51 : IVec S512x1 1 := cmpf .olt main_v49 main_v50
  let main_c_19 : IVec S_ 1 := constantI S_ 1 1#1
  let main_v52 : IVec S_ 1 := (fun x v => Host.reduce IntOp.andi x v reducesTo_S512x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S512 .f32) (main_arg10 : FVec F S1024x512 .f32) (main_arg11 : FVec F S512 .f32) (main_arg12 : FVec F S512x1 .f32) (main_arg13 : FVec F S1 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1024x512 .f32 := Host.absf main_arg10
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1 .f32 := Host.absf main_arg12
  let main_cst_18 : FVec F S_ .f32 := constant S_ .f32 0x7F800000#32
  let main_v50 : FVec F S512x1 .f32 := broadcastInDim S512x1 ![] bcast_S_S512x1 main_cst_18
  fn_part3 (F := F) main_arg13 main_v48 main_v49 main_v50

def fn_part1 {F : FTy → Type} [FloatOps F] (main_arg6 : FVec F S512x512 .f32) (main_arg7 : FVec F S512 .f32) (main_arg8 : FVec F S512 .f32) (main_arg9 : FVec F S512 .f32) (main_arg10 : FVec F S1024x512 .f32) (main_arg11 : FVec F S512 .f32) (main_arg12 : FVec F S512x1 .f32) (main_arg13 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S10000x512 .f32) (main_arg1 : FVec F S10000x512 .f32) (main_arg2 : IVec S2x160000 32) (main_arg3 : IVec S2x160000 32) (main_arg4 : FVec F S512x512 .f32) (main_arg5 : FVec F S512x512 .f32) (main_arg6 : FVec F S512x512 .f32) (main_arg7 : FVec F S512 .f32) (main_arg8 : FVec F S512 .f32) (main_arg9 : FVec F S512 .f32) (main_arg10 : FVec F S1024x512 .f32) (main_arg11 : FVec F S512 .f32) (main_arg12 : FVec F S512x1 .f32) (main_arg13 : FVec F S1 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_arg13 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x160000 : Shape := ⟨2, ![1, 160000]⟩
abbrev S160000 : Shape := ⟨1, ![160000]⟩
abbrev S20000x512 : Shape := ⟨2, ![20000, 512]⟩
abbrev S2000x512 : Shape := ⟨2, ![2000, 512]⟩
abbrev S10000 : Shape := ⟨1, ![10000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩
abbrev S1x1024 : Shape := ⟨2, ![1, 1024]⟩
abbrev S1x1 : Shape := ⟨2, ![1, 1]⟩

abbrev nBuf : Space → Nat
  | .hbm => 406
  | .vmem => 15
  | .smem => 0
  | _ => 0

abbrev hbmTy0_0 (i : Nat) : BufTy := match i % 128 with
  | 0 => ⟨S10000x512, .f32⟩
  | 1 => ⟨S10000x512, .f32⟩
  | 2 => ⟨S2x160000, .i32⟩
  | 3 => ⟨S2x160000, .i32⟩
  | 4 => ⟨S512x512, .f32⟩
  | 5 => ⟨S512x512, .f32⟩
  | 6 => ⟨S512x512, .f32⟩
  | 7 => ⟨S512, .f32⟩
  | 8 => ⟨S512, .f32⟩
  | 9 => ⟨S512, .f32⟩
  | 10 => ⟨S1024x512, .f32⟩
  | 11 => ⟨S512, .f32⟩
  | 12 => ⟨S512x1, .f32⟩
  | 13 => ⟨S1, .f32⟩
  | 14 => ⟨S1x160000, .i32⟩
  | 15 => ⟨S160000, .i32⟩
  | 16 => ⟨S1x160000, .i32⟩
  | 17 => ⟨S160000, .i32⟩
  | 18 => ⟨S1x160000, .i32⟩
  | 19 => ⟨S160000, .i32⟩
  | 20 => ⟨S1x160000, .i32⟩
  | 21 => ⟨S160000, .i32⟩
  | 22 => ⟨S20000x512, .f32⟩
  | 23 => ⟨S20000x512, .f32⟩
  | 24 => ⟨S10000x512, .f32⟩
  | 25 => ⟨S10000x512, .f32⟩
  | 26 => ⟨S10000, .i32⟩
  | 27 => ⟨S170000, .i32⟩
  | 28 => ⟨S170000, .i32⟩
  | 29 => ⟨S_, .f32⟩
  | 30 => ⟨S170000, .f32⟩
  | 31 => ⟨S_, .f32⟩
  | 32 => ⟨S10000, .f32⟩
  | 33 => ⟨S170000x1, .i32⟩
  | 34 => ⟨S10000, .f32⟩
  | 35 => ⟨S_, .f32⟩
  | 36 => ⟨S10000, .f32⟩
  | 37 => ⟨S10000, .i1⟩
  | 38 => ⟨S10000, .f32⟩
  | 39 => ⟨S_, .f32⟩
  | 40 => ⟨S_, .f32⟩
  | 41 => ⟨S10000, .f32⟩
  | 42 => ⟨S10000, .f32⟩
  | 43 => ⟨S_, .i32⟩
  | 44 => ⟨S170000, .i32⟩
  | 45 => ⟨S170000, .i1⟩
  | 46 => ⟨S_, .i32⟩
  | 47 => ⟨S170000, .i32⟩
  | 48 => ⟨S170000, .i32⟩
  | 49 => ⟨S170000, .i32⟩
  | 50 => ⟨S170000x1, .i32⟩
  | 51 => ⟨S170000, .f32⟩
  | 52 => ⟨S_, .i32⟩
  | 53 => ⟨S170000, .i32⟩
  | 54 => ⟨S170000, .i1⟩
  | 55 => ⟨S_, .i32⟩
  | 56 => ⟨S170000, .i32⟩
  | 57 => ⟨S170000, .i32⟩
  | 58 => ⟨S170000, .i32⟩
  | 59 => ⟨S170000x1, .i32⟩
  | 60 => ⟨S170000, .f32⟩
  | 61 => ⟨S170000, .f32⟩
  | 62 => ⟨S_, .i32⟩
  | 63 => ⟨S170000, .i32⟩
  | 64 => ⟨S170000, .i1⟩
  | 65 => ⟨S_, .i32⟩
  | 66 => ⟨S170000, .i32⟩
  | 67 => ⟨S170000, .i32⟩
  | 68 => ⟨S170000, .i32⟩
  | 69 => ⟨S170000x1, .i32⟩
  | 70 => ⟨S170000x512, .f32⟩
  | 71 => ⟨S170000x1, .f32⟩
  | 72 => ⟨S170000x512, .f32⟩
  | 73 => ⟨S170000x512, .f32⟩
  | 74 => ⟨S_, .f32⟩
  | 75 => ⟨S10000x512, .f32⟩
  | 76 => ⟨S170000x1, .i32⟩
  | 77 => ⟨S10000x512, .f32⟩
  | 78 => ⟨S1x512, .f32⟩
  | 79 => ⟨S10000x512, .f32⟩
  | 80 => ⟨S10000x512, .f32⟩
  | 81 => ⟨S10000, .i32⟩
  | 82 => ⟨S170000, .i32⟩
  | 83 => ⟨S170000, .i32⟩
  | 84 => ⟨S_, .f32⟩
  | 85 => ⟨S170000, .f32⟩
  | 86 => ⟨S_, .f32⟩
  | 87 => ⟨S10000, .f32⟩
  | 88 => ⟨S170000x1, .i32⟩
  | 89 => ⟨S10000, .f32⟩
  | 90 => ⟨S_, .f32⟩
  | 91 => ⟨S10000, .f32⟩
  | 92 => ⟨S10000, .i1⟩
  | 93 => ⟨S10000, .f32⟩
  | 94 => ⟨S_, .f32⟩
  | 95 => ⟨S_, .f32⟩
  | 96 => ⟨S10000, .f32⟩
  | 97 => ⟨S10000, .f32⟩
  | 98 => ⟨S_, .i32⟩
  | 99 => ⟨S170000, .i32⟩
  | 100 => ⟨S170000, .i1⟩
  | 101 => ⟨S_, .i32⟩
  | 102 => ⟨S170000, .i32⟩
  | 103 => ⟨S170000, .i32⟩
  | 104 => ⟨S170000, .i32⟩
  | 105 => ⟨S170000x1, .i32⟩
  | 106 => ⟨S170000, .f32⟩
  | 107 => ⟨S_, .i32⟩
  | 108 => ⟨S170000, .i32⟩
  | 109 => ⟨S170000, .i1⟩
  | 110 => ⟨S_, .i32⟩
  | 111 => ⟨S170000, .i32⟩
  | 112 => ⟨S170000, .i32⟩
  | 113 => ⟨S170000, .i32⟩
  | 114 => ⟨S170000x1, .i32⟩
  | 115 => ⟨S170000, .f32⟩
  | 116 => ⟨S170000, .f32⟩
  | 117 => ⟨S_, .i32⟩
  | 118 => ⟨S170000, .i32⟩
  | 119 => ⟨S170000, .i1⟩
  | 120 => ⟨S_, .i32⟩
  | 121 => ⟨S170000, .i32⟩
  | 122 => ⟨S170000, .i32⟩
  | 123 => ⟨S170000, .i32⟩
  | 124 => ⟨S170000x1, .i32⟩
  | 125 => ⟨S170000x512, .f32⟩
  | 126 => ⟨S170000x1, .f32⟩
  | 127 => ⟨S170000x512, .f32⟩
  | _ => ⟨S10000x512, .f32⟩

abbrev hbmTy0_1 (i : Nat) : BufTy := match i % 128 with
  | 0 => ⟨S170000x512, .f32⟩
  | 1 => ⟨S_, .f32⟩
  | 2 => ⟨S10000x512, .f32⟩
  | 3 => ⟨S170000x1, .i32⟩
  | 4 => ⟨S10000x512, .f32⟩
  | 5 => ⟨S1x512, .f32⟩
  | 6 => ⟨S10000x512, .f32⟩
  | 7 => ⟨S10000x512, .f32⟩
  | 8 => ⟨S_, .f32⟩
  | 9 => ⟨S10000x512, .f32⟩
  | 10 => ⟨S10000x512, .f32⟩
  | 11 => ⟨S_, .f32⟩
  | 12 => ⟨S10000x512, .f32⟩
  | 13 => ⟨S10000x512, .f32⟩
  | 14 => ⟨S20000x512, .f32⟩
  | 15 => ⟨S20000x512, .f32⟩
  | 16 => ⟨S10000x512, .f32⟩
  | 17 => ⟨S10000x512, .f32⟩
  | 18 => ⟨S10000, .i32⟩
  | 19 => ⟨S170000, .i32⟩
  | 20 => ⟨S170000, .i32⟩
  | 21 => ⟨S_, .f32⟩
  | 22 => ⟨S170000, .f32⟩
  | 23 => ⟨S_, .f32⟩
  | 24 => ⟨S10000, .f32⟩
  | 25 => ⟨S170000x1, .i32⟩
  | 26 => ⟨S10000, .f32⟩
  | 27 => ⟨S_, .f32⟩
  | 28 => ⟨S10000, .f32⟩
  | 29 => ⟨S10000, .i1⟩
  | 30 => ⟨S10000, .f32⟩
  | 31 => ⟨S_, .f32⟩
  | 32 => ⟨S_, .f32⟩
  | 33 => ⟨S10000, .f32⟩
  | 34 => ⟨S10000, .f32⟩
  | 35 => ⟨S_, .i32⟩
  | 36 => ⟨S170000, .i32⟩
  | 37 => ⟨S170000, .i1⟩
  | 38 => ⟨S_, .i32⟩
  | 39 => ⟨S170000, .i32⟩
  | 40 => ⟨S170000, .i32⟩
  | 41 => ⟨S170000, .i32⟩
  | 42 => ⟨S170000x1, .i32⟩
  | 43 => ⟨S170000, .f32⟩
  | 44 => ⟨S_, .i32⟩
  | 45 => ⟨S170000, .i32⟩
  | 46 => ⟨S170000, .i1⟩
  | 47 => ⟨S_, .i32⟩
  | 48 => ⟨S170000, .i32⟩
  | 49 => ⟨S170000, .i32⟩
  | 50 => ⟨S170000, .i32⟩
  | 51 => ⟨S170000x1, .i32⟩
  | 52 => ⟨S170000, .f32⟩
  | 53 => ⟨S170000, .f32⟩
  | 54 => ⟨S_, .i32⟩
  | 55 => ⟨S170000, .i32⟩
  | 56 => ⟨S170000, .i1⟩
  | 57 => ⟨S_, .i32⟩
  | 58 => ⟨S170000, .i32⟩
  | 59 => ⟨S170000, .i32⟩
  | 60 => ⟨S170000, .i32⟩
  | 61 => ⟨S170000x1, .i32⟩
  | 62 => ⟨S170000x512, .f32⟩
  | 63 => ⟨S170000x1, .f32⟩
  | 64 => ⟨S170000x512, .f32⟩
  | 65 => ⟨S170000x512, .f32⟩
  | 66 => ⟨S_, .f32⟩
  | 67 => ⟨S10000x512, .f32⟩
  | 68 => ⟨S170000x1, .i32⟩
  | 69 => ⟨S10000x512, .f32⟩
  | 70 => ⟨S1x512, .f32⟩
  | 71 => ⟨S10000x512, .f32⟩
  | 72 => ⟨S10000x512, .f32⟩
  | 73 => ⟨S10000, .i32⟩
  | 74 => ⟨S170000, .i32⟩
  | 75 => ⟨S170000, .i32⟩
  | 76 => ⟨S_, .f32⟩
  | 77 => ⟨S170000, .f32⟩
  | 78 => ⟨S_, .f32⟩
  | 79 => ⟨S10000, .f32⟩
  | 80 => ⟨S170000x1, .i32⟩
  | 81 => ⟨S10000, .f32⟩
  | 82 => ⟨S_, .f32⟩
  | 83 => ⟨S10000, .f32⟩
  | 84 => ⟨S10000, .i1⟩
  | 85 => ⟨S10000, .f32⟩
  | 86 => ⟨S_, .f32⟩
  | 87 => ⟨S_, .f32⟩
  | 88 => ⟨S10000, .f32⟩
  | 89 => ⟨S10000, .f32⟩
  | 90 => ⟨S_, .i32⟩
  | 91 => ⟨S170000, .i32⟩
  | 92 => ⟨S170000, .i1⟩
  | 93 => ⟨S_, .i32⟩
  | 94 => ⟨S170000, .i32⟩
  | 95 => ⟨S170000, .i32⟩
  | 96 => ⟨S170000, .i32⟩
  | 97 => ⟨S170000x1, .i32⟩
  | 98 => ⟨S170000, .f32⟩
  | 99 => ⟨S_, .i32⟩
  | 100 => ⟨S170000, .i32⟩
  | 101 => ⟨S170000, .i1⟩
  | 102 => ⟨S_, .i32⟩
  | 103 => ⟨S170000, .i32⟩
  | 104 => ⟨S170000, .i32⟩
  | 105 => ⟨S170000, .i32⟩
  | 106 => ⟨S170000x1, .i32⟩
  | 107 => ⟨S170000, .f32⟩
  | 108 => ⟨S170000, .f32⟩
  | 109 => ⟨S_, .i32⟩
  | 110 => ⟨S170000, .i32⟩
  | 111 => ⟨S170000, .i1⟩
  | 112 => ⟨S_, .i32⟩
  | 113 => ⟨S170000, .i32⟩
  | 114 => ⟨S170000, .i32⟩
  | 115 => ⟨S170000, .i32⟩
  | 116 => ⟨S170000x1, .i32⟩
  | 117 => ⟨S170000x512, .f32⟩
  | 118 => ⟨S170000x1, .f32⟩
  | 119 => ⟨S170000x512, .f32⟩
  | 120 => ⟨S170000x512, .f32⟩
  | 121 => ⟨S_, .f32⟩
  | 122 => ⟨S10000x512, .f32⟩
  | 123 => ⟨S170000x1, .i32⟩
  | 124 => ⟨S10000x512, .f32⟩
  | 125 => ⟨S1x512, .f32⟩
  | 126 => ⟨S10000x512, .f32⟩
  | 127 => ⟨S10000x512, .f32⟩
  | _ => ⟨S10000x512, .f32⟩

abbrev hbmTy0_2 (i : Nat) : BufTy := match i % 128 with
  | 0 => ⟨S_, .f32⟩
  | 1 => ⟨S10000x512, .f32⟩
  | 2 => ⟨S10000x512, .f32⟩
  | 3 => ⟨S_, .f32⟩
  | 4 => ⟨S10000x512, .f32⟩
  | 5 => ⟨S10000x512, .f32⟩
  | 6 => ⟨S20000x512, .f32⟩
  | 7 => ⟨S20000x512, .f32⟩
  | 8 => ⟨S10000x512, .f32⟩
  | 9 => ⟨S10000x512, .f32⟩
  | 10 => ⟨S10000, .i32⟩
  | 11 => ⟨S170000, .i32⟩
  | 12 => ⟨S170000, .i32⟩
  | 13 => ⟨S_, .f32⟩
  | 14 => ⟨S170000, .f32⟩
  | 15 => ⟨S_, .f32⟩
  | 16 => ⟨S10000, .f32⟩
  | 17 => ⟨S170000x1, .i32⟩
  | 18 => ⟨S10000, .f32⟩
  | 19 => ⟨S_, .f32⟩
  | 20 => ⟨S10000, .f32⟩
  | 21 => ⟨S10000, .i1⟩
  | 22 => ⟨S10000, .f32⟩
  | 23 => ⟨S_, .f32⟩
  | 24 => ⟨S_, .f32⟩
  | 25 => ⟨S10000, .f32⟩
  | 26 => ⟨S10000, .f32⟩
  | 27 => ⟨S_, .i32⟩
  | 28 => ⟨S170000, .i32⟩
  | 29 => ⟨S170000, .i1⟩
  | 30 => ⟨S_, .i32⟩
  | 31 => ⟨S170000, .i32⟩
  | 32 => ⟨S170000, .i32⟩
  | 33 => ⟨S170000, .i32⟩
  | 34 => ⟨S170000x1, .i32⟩
  | 35 => ⟨S170000, .f32⟩
  | 36 => ⟨S_, .i32⟩
  | 37 => ⟨S170000, .i32⟩
  | 38 => ⟨S170000, .i1⟩
  | 39 => ⟨S_, .i32⟩
  | 40 => ⟨S170000, .i32⟩
  | 41 => ⟨S170000, .i32⟩
  | 42 => ⟨S170000, .i32⟩
  | 43 => ⟨S170000x1, .i32⟩
  | 44 => ⟨S170000, .f32⟩
  | 45 => ⟨S170000, .f32⟩
  | 46 => ⟨S_, .i32⟩
  | 47 => ⟨S170000, .i32⟩
  | 48 => ⟨S170000, .i1⟩
  | 49 => ⟨S_, .i32⟩
  | 50 => ⟨S170000, .i32⟩
  | 51 => ⟨S170000, .i32⟩
  | 52 => ⟨S170000, .i32⟩
  | 53 => ⟨S170000x1, .i32⟩
  | 54 => ⟨S170000x512, .f32⟩
  | 55 => ⟨S170000x1, .f32⟩
  | 56 => ⟨S170000x512, .f32⟩
  | 57 => ⟨S170000x512, .f32⟩
  | 58 => ⟨S_, .f32⟩
  | 59 => ⟨S10000x512, .f32⟩
  | 60 => ⟨S170000x1, .i32⟩
  | 61 => ⟨S10000x512, .f32⟩
  | 62 => ⟨S1x512, .f32⟩
  | 63 => ⟨S10000x512, .f32⟩
  | 64 => ⟨S10000x512, .f32⟩
  | 65 => ⟨S10000, .i32⟩
  | 66 => ⟨S170000, .i32⟩
  | 67 => ⟨S170000, .i32⟩
  | 68 => ⟨S_, .f32⟩
  | 69 => ⟨S170000, .f32⟩
  | 70 => ⟨S_, .f32⟩
  | 71 => ⟨S10000, .f32⟩
  | 72 => ⟨S170000x1, .i32⟩
  | 73 => ⟨S10000, .f32⟩
  | 74 => ⟨S_, .f32⟩
  | 75 => ⟨S10000, .f32⟩
  | 76 => ⟨S10000, .i1⟩
  | 77 => ⟨S10000, .f32⟩
  | 78 => ⟨S_, .f32⟩
  | 79 => ⟨S_, .f32⟩
  | 80 => ⟨S10000, .f32⟩
  | 81 => ⟨S10000, .f32⟩
  | 82 => ⟨S_, .i32⟩
  | 83 => ⟨S170000, .i32⟩
  | 84 => ⟨S170000, .i1⟩
  | 85 => ⟨S_, .i32⟩
  | 86 => ⟨S170000, .i32⟩
  | 87 => ⟨S170000, .i32⟩
  | 88 => ⟨S170000, .i32⟩
  | 89 => ⟨S170000x1, .i32⟩
  | 90 => ⟨S170000, .f32⟩
  | 91 => ⟨S_, .i32⟩
  | 92 => ⟨S170000, .i32⟩
  | 93 => ⟨S170000, .i1⟩
  | 94 => ⟨S_, .i32⟩
  | 95 => ⟨S170000, .i32⟩
  | 96 => ⟨S170000, .i32⟩
  | 97 => ⟨S170000, .i32⟩
  | 98 => ⟨S170000x1, .i32⟩
  | 99 => ⟨S170000, .f32⟩
  | 100 => ⟨S170000, .f32⟩
  | 101 => ⟨S_, .i32⟩
  | 102 => ⟨S170000, .i32⟩
  | 103 => ⟨S170000, .i1⟩
  | 104 => ⟨S_, .i32⟩
  | 105 => ⟨S170000, .i32⟩
  | 106 => ⟨S170000, .i32⟩
  | 107 => ⟨S170000, .i32⟩
  | 108 => ⟨S170000x1, .i32⟩
  | 109 => ⟨S170000x512, .f32⟩
  | 110 => ⟨S170000x1, .f32⟩
  | 111 => ⟨S170000x512, .f32⟩
  | 112 => ⟨S170000x512, .f32⟩
  | 113 => ⟨S_, .f32⟩
  | 114 => ⟨S10000x512, .f32⟩
  | 115 => ⟨S170000x1, .i32⟩
  | 116 => ⟨S10000x512, .f32⟩
  | 117 => ⟨S1x512, .f32⟩
  | 118 => ⟨S10000x512, .f32⟩
  | 119 => ⟨S10000x512, .f32⟩
  | 120 => ⟨S_, .f32⟩
  | 121 => ⟨S512, .f32⟩
  | 122 => ⟨S_, .f32⟩
  | 123 => ⟨S512, .f32⟩
  | 124 => ⟨S512, .f32⟩
  | 125 => ⟨S1x512, .f32⟩
  | 126 => ⟨S_, .f32⟩
  | 127 => ⟨S512, .f32⟩
  | _ => ⟨S10000x512, .f32⟩

abbrev hbmTy0_3 (i : Nat) : BufTy := match i % 128 with
  | 0 => ⟨S_, .f32⟩
  | 1 => ⟨S512, .f32⟩
  | 2 => ⟨S512, .f32⟩
  | 3 => ⟨S1x512, .f32⟩
  | 4 => ⟨S1x1024, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S1x1, .f32⟩
  | 12 => ⟨S1x1, .f32⟩
  | 13 => ⟨S1x1, .f32⟩
  | 14 => ⟨S1x1, .f32⟩
  | 15 => ⟨S1x1, .f32⟩
  | 16 => ⟨S_, .f32⟩
  | 17 => ⟨S1x1, .f32⟩
  | 18 => ⟨S1x1, .f32⟩
  | 19 => ⟨S_, .f32⟩
  | 20 => ⟨S1x1, .f32⟩
  | 21 => ⟨S1x1, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | _ => ⟨S10000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .f32⟩
  | .local _ .vmem, ⟨13, _⟩ => ⟨S2000x512, .f32⟩
  | .local _ .vmem, ⟨14, _⟩ => ⟨S2000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_12 : Ref sig .tc := ⟨.hbm, 94, rfl⟩
abbrev main_call1_v0 : Ref sig .tc := ⟨.hbm, 95, rfl⟩
abbrev main_call1_v1 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_17 : Ref sig .tc := ⟨.hbm, 117, rfl⟩
abbrev main_v80 : Ref sig .tc := ⟨.hbm, 118, rfl⟩
abbrev main_v81 : Ref sig .tc := ⟨.hbm, 119, rfl⟩
abbrev main_c_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call2_cst : Ref sig .tc := ⟨.hbm, 136, rfl⟩
abbrev main_call2_v0 : Ref sig .tc := ⟨.hbm, 137, rfl⟩
abbrev main_v96 : Ref sig .tc := ⟨.hbm, 138, rfl⟩
abbrev main_call3_cst : Ref sig .tc := ⟨.hbm, 139, rfl⟩
abbrev main_call3_v0 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_20 : Ref sig .tc := ⟨.hbm, 149, rfl⟩
abbrev main_v105 : Ref sig .tc := ⟨.hbm, 150, rfl⟩
abbrev main_cst_21 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_22 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_23 : Ref sig .tc := ⟨.hbm, 159, rfl⟩
abbrev main_call4_v0 : Ref sig .tc := ⟨.hbm, 160, rfl⟩
abbrev main_call4_v1 : Ref sig .tc := ⟨.hbm, 161, rfl⟩
abbrev main_v112 : Ref sig .tc := ⟨.hbm, 162, rfl⟩
abbrev main_c_24 : Ref sig .tc := ⟨.hbm, 163, rfl⟩
abbrev main_v113 : Ref sig .tc := ⟨.hbm, 164, rfl⟩
abbrev main_v114 : Ref sig .tc := ⟨.hbm, 165, rfl⟩
abbrev main_c_25 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_c_26 : Ref sig .tc := ⟨.hbm, 172, rfl⟩
abbrev main_v120 : Ref sig .tc := ⟨.hbm, 173, rfl⟩
abbrev main_v121 : Ref sig .tc := ⟨.hbm, 174, rfl⟩
abbrev main_c_27 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_28 : Ref sig .tc := ⟨.hbm, 182, rfl⟩
abbrev main_v128 : Ref sig .tc := ⟨.hbm, 183, rfl⟩
abbrev main_v129 : Ref sig .tc := ⟨.hbm, 184, rfl⟩
abbrev main_c_29 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_30 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_31 : Ref sig .tc := ⟨.hbm, 204, rfl⟩
abbrev main_v147 : Ref sig .tc := ⟨.hbm, 205, rfl⟩
abbrev main_cst_32 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_33 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_34 : Ref sig .tc := ⟨.hbm, 214, rfl⟩
abbrev main_call5_v0 : Ref sig .tc := ⟨.hbm, 215, rfl⟩
abbrev main_call5_v1 : Ref sig .tc := ⟨.hbm, 216, rfl⟩
abbrev main_v154 : Ref sig .tc := ⟨.hbm, 217, rfl⟩
abbrev main_c_35 : Ref sig .tc := ⟨.hbm, 218, rfl⟩
abbrev main_v155 : Ref sig .tc := ⟨.hbm, 219, rfl⟩
abbrev main_v156 : Ref sig .tc := ⟨.hbm, 220, rfl⟩
abbrev main_c_36 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_c_37 : Ref sig .tc := ⟨.hbm, 227, rfl⟩
abbrev main_v162 : Ref sig .tc := ⟨.hbm, 228, rfl⟩
abbrev main_v163 : Ref sig .tc := ⟨.hbm, 229, rfl⟩
abbrev main_c_38 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_c_39 : Ref sig .tc := ⟨.hbm, 237, rfl⟩
abbrev main_v170 : Ref sig .tc := ⟨.hbm, 238, rfl⟩
abbrev main_v171 : Ref sig .tc := ⟨.hbm, 239, rfl⟩
abbrev main_c_40 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_41 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_call6_cst : Ref sig .tc := ⟨.hbm, 256, rfl⟩
abbrev main_call6_v0 : Ref sig .tc := ⟨.hbm, 257, rfl⟩
abbrev main_v186 : Ref sig .tc := ⟨.hbm, 258, rfl⟩
abbrev main_call7_cst : Ref sig .tc := ⟨.hbm, 259, rfl⟩
abbrev main_call7_v0 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_cst_42 : Ref sig .tc := ⟨.hbm, 269, rfl⟩
abbrev main_v195 : Ref sig .tc := ⟨.hbm, 270, rfl⟩
abbrev main_cst_43 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_cst_44 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_cst_45 : Ref sig .tc := ⟨.hbm, 279, rfl⟩
abbrev main_call8_v0 : Ref sig .tc := ⟨.hbm, 280, rfl⟩
abbrev main_call8_v1 : Ref sig .tc := ⟨.hbm, 281, rfl⟩
abbrev main_v202 : Ref sig .tc := ⟨.hbm, 282, rfl⟩
abbrev main_c_46 : Ref sig .tc := ⟨.hbm, 283, rfl⟩
abbrev main_v203 : Ref sig .tc := ⟨.hbm, 284, rfl⟩
abbrev main_v204 : Ref sig .tc := ⟨.hbm, 285, rfl⟩
abbrev main_c_47 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_c_48 : Ref sig .tc := ⟨.hbm, 292, rfl⟩
abbrev main_v210 : Ref sig .tc := ⟨.hbm, 293, rfl⟩
abbrev main_v211 : Ref sig .tc := ⟨.hbm, 294, rfl⟩
abbrev main_c_49 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_c_50 : Ref sig .tc := ⟨.hbm, 302, rfl⟩
abbrev main_v218 : Ref sig .tc := ⟨.hbm, 303, rfl⟩
abbrev main_v219 : Ref sig .tc := ⟨.hbm, 304, rfl⟩
abbrev main_c_51 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_cst_52 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_cst_53 : Ref sig .tc := ⟨.hbm, 324, rfl⟩
abbrev main_v237 : Ref sig .tc := ⟨.hbm, 325, rfl⟩
abbrev main_cst_54 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_cst_55 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_cst_56 : Ref sig .tc := ⟨.hbm, 334, rfl⟩
abbrev main_call9_v0 : Ref sig .tc := ⟨.hbm, 335, rfl⟩
abbrev main_call9_v1 : Ref sig .tc := ⟨.hbm, 336, rfl⟩
abbrev main_v244 : Ref sig .tc := ⟨.hbm, 337, rfl⟩
abbrev main_c_57 : Ref sig .tc := ⟨.hbm, 338, rfl⟩
abbrev main_v245 : Ref sig .tc := ⟨.hbm, 339, rfl⟩
abbrev main_v246 : Ref sig .tc := ⟨.hbm, 340, rfl⟩
abbrev main_c_58 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_c_59 : Ref sig .tc := ⟨.hbm, 347, rfl⟩
abbrev main_v252 : Ref sig .tc := ⟨.hbm, 348, rfl⟩
abbrev main_v253 : Ref sig .tc := ⟨.hbm, 349, rfl⟩
abbrev main_c_60 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_c_61 : Ref sig .tc := ⟨.hbm, 357, rfl⟩
abbrev main_v260 : Ref sig .tc := ⟨.hbm, 358, rfl⟩
abbrev main_v261 : Ref sig .tc := ⟨.hbm, 359, rfl⟩
abbrev main_c_62 : Ref sig .tc := ⟨.hbm, 360, rfl⟩
abbrev main_v262 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_cst_63 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_cst_64 : Ref sig .tc := ⟨.hbm, 376, rfl⟩
abbrev main_v276 : Ref sig .tc := ⟨.hbm, 377, rfl⟩
abbrev main_cst_65 : Ref sig .tc := ⟨.hbm, 378, rfl⟩
abbrev main_v277 : Ref sig .tc := ⟨.hbm, 379, rfl⟩
abbrev main_v278 : Ref sig .tc := ⟨.hbm, 380, rfl⟩
abbrev main_v279 : Ref sig .tc := ⟨.hbm, 381, rfl⟩
abbrev main_cst_66 : Ref sig .tc := ⟨.hbm, 382, rfl⟩
abbrev main_v280 : Ref sig .tc := ⟨.hbm, 383, rfl⟩
abbrev main_cst_67 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_v285 : Ref sig .tc := ⟨.hbm, 389, rfl⟩
abbrev main_v286 : Ref sig .tc := ⟨.hbm, 390, rfl⟩
abbrev main_v287 : Ref sig .tc := ⟨.hbm, 391, rfl⟩
abbrev main_call10_cst : Ref sig .tc := ⟨.hbm, 392, rfl⟩
abbrev main_call10_v0 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_cst_68 : Ref sig .tc := ⟨.hbm, 400, rfl⟩
abbrev main_v294 : Ref sig .tc := ⟨.hbm, 401, rfl⟩
abbrev main_v295 : Ref sig .tc := ⟨.hbm, 402, rfl⟩
abbrev main_cst_69 : Ref sig .tc := ⟨.hbm, 403, rfl⟩
abbrev main_v296 : Ref sig .tc := ⟨.hbm, 404, rfl⟩
abbrev main_v297 : Ref sig .tc := ⟨.hbm, 405, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S10000x512_S10000x512_S20000x512_d0 : Shape.Concatenates [S10000x512, S10000x512] S20000x512 0
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  slices_S20000x512_S10000x512_0_0 : S20000x512.Slices ![0, 0] S10000x512
  slices_S20000x512_S10000x512_10000_0 : S20000x512.Slices ![10000, 0] S10000x512
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  reducesTo_S10000x512_S512_d0 : S10000x512.ReducesTo [0] S512
  h_S_ : 0 < S_.numel
  bcast_S_S512 : S_.BroadcastsInDim S512 (![] : Fin 0 → Fin S512.rank)
  shapeCasts_S512_S1x512 : S512.ShapeCasts S1x512
  concatenates_S1x512_S1x512_S1x1024_d1 : Shape.Concatenates [S1x512, S1x512] S1x1024 1
  bcast_S_S1x512 : S_.BroadcastsInDim S1x512 (![] : Fin 0 → Fin S1x512.rank)
  bcast_S1_S1x1_1 : S1.BroadcastsInDim S1x1 (![1] : Fin 1 → Fin S1x1.rank)
  bcast_S_S1x1 : S_.BroadcastsInDim S1x1 (![] : Fin 0 → Fin S1x1.rank)
  dot_S2000x512_S512x512_S2000x512_1_0_0_1_n_n_wf : DotDims.WF S2000x512 S512x512 S2000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S1x1024_S1024x512_S1x512_1_0_0_1_n_n_wf : DotDims.WF S1x1024 S1024x512 S1x512 [1] [0] [0] [1] [] []
  dot_S1x512_S512x1_S1x1_1_0_0_1_n_n_wf : DotDims.WF S1x512 S512x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S20000x512.size a
  hwx1_2 : ∀ i : grid1.Coords, EltTy.bits .f32 = 32 ∨ (Rect.block (s := S20000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S20000x512.size a
  hwx2_2 : ∀ i : grid2.Coords, EltTy.bits .f32 = 32 ∨ (Rect.block (s := S20000x512) S2000x512.size (cc2_transform_2 i) (hinb2_2 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x512_S512x1_S1x1_1_0_0_1_n_n : DotDims S1x512 S512x1 S1x1 where
  lhsContracting := [1]
  rhsContracting := [0]
  lhsNonContracting := [0]
  rhsNonContracting := [1]
  lhsBatch := []
  rhsBatch := []
  wf := dot_S1x512_S512x1_S1x1_1_0_0_1_n_n_wf

abbrev win0_0 : Pipeline.Window sig grid0 :=
  Pipeline.Window.ofSpec (Memref.whole main_v8) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v98) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v99) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v188) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v189) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩
abbrev S1x1024 : Shape := ⟨2, ![1, 1024]⟩
abbrev S1x1 : Shape := ⟨2, ![1, 1]⟩

abbrev nBuf : Space → Nat
  | .hbm => 400
  | .vmem => 0
  | .smem => 0
  | _ => 0

abbrev hbmTy0_0 (i : Nat) : BufTy := match i % 128 with
  | 0 => ⟨S10000x512, .f32⟩
  | 1 => ⟨S10000x512, .f32⟩
  | 2 => ⟨S2x160000, .i32⟩
  | 3 => ⟨S2x160000, .i32⟩
  | 4 => ⟨S512x512, .f32⟩
  | 5 => ⟨S512x512, .f32⟩
  | 6 => ⟨S512x512, .f32⟩
  | 7 => ⟨S512, .f32⟩
  | 8 => ⟨S512, .f32⟩
  | 9 => ⟨S512, .f32⟩
  | 10 => ⟨S1024x512, .f32⟩
  | 11 => ⟨S512, .f32⟩
  | 12 => ⟨S512x1, .f32⟩
  | 13 => ⟨S1, .f32⟩
  | 14 => ⟨S1x160000, .i32⟩
  | 15 => ⟨S160000, .i32⟩
  | 16 => ⟨S1x160000, .i32⟩
  | 17 => ⟨S160000, .i32⟩
  | 18 => ⟨S10000x512, .f32⟩
  | 19 => ⟨S10000, .i32⟩
  | 20 => ⟨S170000, .i32⟩
  | 21 => ⟨S170000, .i32⟩
  | 22 => ⟨S_, .f32⟩
  | 23 => ⟨S170000, .f32⟩
  | 24 => ⟨S_, .f32⟩
  | 25 => ⟨S10000, .f32⟩
  | 26 => ⟨S170000x1, .i32⟩
  | 27 => ⟨S10000, .f32⟩
  | 28 => ⟨S_, .f32⟩
  | 29 => ⟨S10000, .f32⟩
  | 30 => ⟨S10000, .i1⟩
  | 31 => ⟨S10000, .f32⟩
  | 32 => ⟨S_, .f32⟩
  | 33 => ⟨S_, .f32⟩
  | 34 => ⟨S10000, .f32⟩
  | 35 => ⟨S10000, .f32⟩
  | 36 => ⟨S_, .i32⟩
  | 37 => ⟨S170000, .i32⟩
  | 38 => ⟨S170000, .i1⟩
  | 39 => ⟨S_, .i32⟩
  | 40 => ⟨S170000, .i32⟩
  | 41 => ⟨S170000, .i32⟩
  | 42 => ⟨S170000, .i32⟩
  | 43 => ⟨S170000x1, .i32⟩
  | 44 => ⟨S170000, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000, .f32⟩
  | 54 => ⟨S170000, .f32⟩
  | 55 => ⟨S_, .i32⟩
  | 56 => ⟨S170000, .i32⟩
  | 57 => ⟨S170000, .i1⟩
  | 58 => ⟨S_, .i32⟩
  | 59 => ⟨S170000, .i32⟩
  | 60 => ⟨S170000, .i32⟩
  | 61 => ⟨S170000, .i32⟩
  | 62 => ⟨S170000x1, .i32⟩
  | 63 => ⟨S170000x512, .f32⟩
  | 64 => ⟨S170000x1, .f32⟩
  | 65 => ⟨S170000x512, .f32⟩
  | 66 => ⟨S170000x512, .f32⟩
  | 67 => ⟨S_, .f32⟩
  | 68 => ⟨S10000x512, .f32⟩
  | 69 => ⟨S170000x1, .i32⟩
  | 70 => ⟨S10000x512, .f32⟩
  | 71 => ⟨S1x512, .f32⟩
  | 72 => ⟨S10000x512, .f32⟩
  | 73 => ⟨S10000x512, .f32⟩
  | 74 => ⟨S_, .f32⟩
  | 75 => ⟨S10000x512, .f32⟩
  | 76 => ⟨S10000x512, .f32⟩
  | 77 => ⟨S10000x512, .f32⟩
  | 78 => ⟨S10000, .i32⟩
  | 79 => ⟨S170000, .i32⟩
  | 80 => ⟨S170000, .i32⟩
  | 81 => ⟨S_, .f32⟩
  | 82 => ⟨S170000, .f32⟩
  | 83 => ⟨S_, .f32⟩
  | 84 => ⟨S10000, .f32⟩
  | 85 => ⟨S170000x1, .i32⟩
  | 86 => ⟨S10000, .f32⟩
  | 87 => ⟨S_, .f32⟩
  | 88 => ⟨S10000, .f32⟩
  | 89 => ⟨S10000, .i1⟩
  | 90 => ⟨S10000, .f32⟩
  | 91 => ⟨S_, .f32⟩
  | 92 => ⟨S_, .f32⟩
  | 93 => ⟨S10000, .f32⟩
  | 94 => ⟨S10000, .f32⟩
  | 95 => ⟨S_, .i32⟩
  | 96 => ⟨S170000, .i32⟩
  | 97 => ⟨S170000, .i1⟩
  | 98 => ⟨S_, .i32⟩
  | 99 => ⟨S170000, .i32⟩
  | 100 => ⟨S170000, .i32⟩
  | 101 => ⟨S170000, .i32⟩
  | 102 => ⟨S170000x1, .i32⟩
  | 103 => ⟨S170000, .f32⟩
  | 104 => ⟨S_, .i32⟩
  | 105 => ⟨S170000, .i32⟩
  | 106 => ⟨S170000, .i1⟩
  | 107 => ⟨S_, .i32⟩
  | 108 => ⟨S170000, .i32⟩
  | 109 => ⟨S170000, .i32⟩
  | 110 => ⟨S170000, .i32⟩
  | 111 => ⟨S170000x1, .i32⟩
  | 112 => ⟨S170000, .f32⟩
  | 113 => ⟨S170000, .f32⟩
  | 114 => ⟨S_, .i32⟩
  | 115 => ⟨S170000, .i32⟩
  | 116 => ⟨S170000, .i1⟩
  | 117 => ⟨S_, .i32⟩
  | 118 => ⟨S170000, .i32⟩
  | 119 => ⟨S170000, .i32⟩
  | 120 => ⟨S170000, .i32⟩
  | 121 => ⟨S170000x1, .i32⟩
  | 122 => ⟨S170000x512, .f32⟩
  | 123 => ⟨S170000x1, .f32⟩
  | 124 => ⟨S170000x512, .f32⟩
  | 125 => ⟨S170000x512, .f32⟩
  | 126 => ⟨S_, .f32⟩
  | 127 => ⟨S10000x512, .f32⟩
  | _ => ⟨S10000x512, .f32⟩

abbrev hbmTy0_1 (i : Nat) : BufTy := match i % 128 with
  | 0 => ⟨S170000x1, .i32⟩
  | 1 => ⟨S10000x512, .f32⟩
  | 2 => ⟨S1x512, .f32⟩
  | 3 => ⟨S10000x512, .f32⟩
  | 4 => ⟨S10000x512, .f32⟩
  | 5 => ⟨S_, .f32⟩
  | 6 => ⟨S10000x512, .f32⟩
  | 7 => ⟨S10000x512, .f32⟩
  | 8 => ⟨S10000x512, .f32⟩
  | 9 => ⟨S10000, .i32⟩
  | 10 => ⟨S170000, .i32⟩
  | 11 => ⟨S170000, .i32⟩
  | 12 => ⟨S_, .f32⟩
  | 13 => ⟨S170000, .f32⟩
  | 14 => ⟨S_, .f32⟩
  | 15 => ⟨S10000, .f32⟩
  | 16 => ⟨S170000x1, .i32⟩
  | 17 => ⟨S10000, .f32⟩
  | 18 => ⟨S_, .f32⟩
  | 19 => ⟨S10000, .f32⟩
  | 20 => ⟨S10000, .i1⟩
  | 21 => ⟨S10000, .f32⟩
  | 22 => ⟨S_, .f32⟩
  | 23 => ⟨S_, .f32⟩
  | 24 => ⟨S10000, .f32⟩
  | 25 => ⟨S10000, .f32⟩
  | 26 => ⟨S_, .i32⟩
  | 27 => ⟨S170000, .i32⟩
  | 28 => ⟨S170000, .i1⟩
  | 29 => ⟨S_, .i32⟩
  | 30 => ⟨S170000, .i32⟩
  | 31 => ⟨S170000, .i32⟩
  | 32 => ⟨S170000, .i32⟩
  | 33 => ⟨S170000x1, .i32⟩
  | 34 => ⟨S170000, .f32⟩
  | 35 => ⟨S_, .i32⟩
  | 36 => ⟨S170000, .i32⟩
  | 37 => ⟨S170000, .i1⟩
  | 38 => ⟨S_, .i32⟩
  | 39 => ⟨S170000, .i32⟩
  | 40 => ⟨S170000, .i32⟩
  | 41 => ⟨S170000, .i32⟩
  | 42 => ⟨S170000x1, .i32⟩
  | 43 => ⟨S170000, .f32⟩
  | 44 => ⟨S170000, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000x512, .f32⟩
  | 54 => ⟨S170000x1, .f32⟩
  | 55 => ⟨S170000x512, .f32⟩
  | 56 => ⟨S170000x512, .f32⟩
  | 57 => ⟨S_, .f32⟩
  | 58 => ⟨S10000x512, .f32⟩
  | 59 => ⟨S170000x1, .i32⟩
  | 60 => ⟨S10000x512, .f32⟩
  | 61 => ⟨S1x512, .f32⟩
  | 62 => ⟨S10000x512, .f32⟩
  | 63 => ⟨S10000x512, .f32⟩
  | 64 => ⟨S_, .f32⟩
  | 65 => ⟨S512, .f32⟩
  | 66 => ⟨S_, .f32⟩
  | 67 => ⟨S512, .f32⟩
  | 68 => ⟨S512, .f32⟩
  | 69 => ⟨S1x512, .f32⟩
  | 70 => ⟨S1x160000, .i32⟩
  | 71 => ⟨S160000, .i32⟩
  | 72 => ⟨S1x160000, .i32⟩
  | 73 => ⟨S160000, .i32⟩
  | 74 => ⟨S10000x512, .f32⟩
  | 75 => ⟨S10000, .i32⟩
  | 76 => ⟨S170000, .i32⟩
  | 77 => ⟨S170000, .i32⟩
  | 78 => ⟨S_, .f32⟩
  | 79 => ⟨S170000, .f32⟩
  | 80 => ⟨S_, .f32⟩
  | 81 => ⟨S10000, .f32⟩
  | 82 => ⟨S170000x1, .i32⟩
  | 83 => ⟨S10000, .f32⟩
  | 84 => ⟨S_, .f32⟩
  | 85 => ⟨S10000, .f32⟩
  | 86 => ⟨S10000, .i1⟩
  | 87 => ⟨S10000, .f32⟩
  | 88 => ⟨S_, .f32⟩
  | 89 => ⟨S_, .f32⟩
  | 90 => ⟨S10000, .f32⟩
  | 91 => ⟨S10000, .f32⟩
  | 92 => ⟨S_, .i32⟩
  | 93 => ⟨S170000, .i32⟩
  | 94 => ⟨S170000, .i1⟩
  | 95 => ⟨S_, .i32⟩
  | 96 => ⟨S170000, .i32⟩
  | 97 => ⟨S170000, .i32⟩
  | 98 => ⟨S170000, .i32⟩
  | 99 => ⟨S170000x1, .i32⟩
  | 100 => ⟨S170000, .f32⟩
  | 101 => ⟨S_, .i32⟩
  | 102 => ⟨S170000, .i32⟩
  | 103 => ⟨S170000, .i1⟩
  | 104 => ⟨S_, .i32⟩
  | 105 => ⟨S170000, .i32⟩
  | 106 => ⟨S170000, .i32⟩
  | 107 => ⟨S170000, .i32⟩
  | 108 => ⟨S170000x1, .i32⟩
  | 109 => ⟨S170000, .f32⟩
  | 110 => ⟨S170000, .f32⟩
  | 111 => ⟨S_, .i32⟩
  | 112 => ⟨S170000, .i32⟩
  | 113 => ⟨S170000, .i1⟩
  | 114 => ⟨S_, .i32⟩
  | 115 => ⟨S170000, .i32⟩
  | 116 => ⟨S170000, .i32⟩
  | 117 => ⟨S170000, .i32⟩
  | 118 => ⟨S170000x1, .i32⟩
  | 119 => ⟨S170000x512, .f32⟩
  | 120 => ⟨S170000x1, .f32⟩
  | 121 => ⟨S170000x512, .f32⟩
  | 122 => ⟨S170000x512, .f32⟩
  | 123 => ⟨S_, .f32⟩
  | 124 => ⟨S10000x512, .f32⟩
  | 125 => ⟨S170000x1, .i32⟩
  | 126 => ⟨S10000x512, .f32⟩
  | 127 => ⟨S1x512, .f32⟩
  | _ => ⟨S10000x512, .f32⟩

abbrev hbmTy0_2 (i : Nat) : BufTy := match i % 128 with
  | 0 => ⟨S10000x512, .f32⟩
  | 1 => ⟨S10000x512, .f32⟩
  | 2 => ⟨S_, .f32⟩
  | 3 => ⟨S10000x512, .f32⟩
  | 4 => ⟨S10000x512, .f32⟩
  | 5 => ⟨S10000x512, .f32⟩
  | 6 => ⟨S10000, .i32⟩
  | 7 => ⟨S170000, .i32⟩
  | 8 => ⟨S170000, .i32⟩
  | 9 => ⟨S_, .f32⟩
  | 10 => ⟨S170000, .f32⟩
  | 11 => ⟨S_, .f32⟩
  | 12 => ⟨S10000, .f32⟩
  | 13 => ⟨S170000x1, .i32⟩
  | 14 => ⟨S10000, .f32⟩
  | 15 => ⟨S_, .f32⟩
  | 16 => ⟨S10000, .f32⟩
  | 17 => ⟨S10000, .i1⟩
  | 18 => ⟨S10000, .f32⟩
  | 19 => ⟨S_, .f32⟩
  | 20 => ⟨S_, .f32⟩
  | 21 => ⟨S10000, .f32⟩
  | 22 => ⟨S10000, .f32⟩
  | 23 => ⟨S_, .i32⟩
  | 24 => ⟨S170000, .i32⟩
  | 25 => ⟨S170000, .i1⟩
  | 26 => ⟨S_, .i32⟩
  | 27 => ⟨S170000, .i32⟩
  | 28 => ⟨S170000, .i32⟩
  | 29 => ⟨S170000, .i32⟩
  | 30 => ⟨S170000x1, .i32⟩
  | 31 => ⟨S170000, .f32⟩
  | 32 => ⟨S_, .i32⟩
  | 33 => ⟨S170000, .i32⟩
  | 34 => ⟨S170000, .i1⟩
  | 35 => ⟨S_, .i32⟩
  | 36 => ⟨S170000, .i32⟩
  | 37 => ⟨S170000, .i32⟩
  | 38 => ⟨S170000, .i32⟩
  | 39 => ⟨S170000x1, .i32⟩
  | 40 => ⟨S170000, .f32⟩
  | 41 => ⟨S170000, .f32⟩
  | 42 => ⟨S_, .i32⟩
  | 43 => ⟨S170000, .i32⟩
  | 44 => ⟨S170000, .i1⟩
  | 45 => ⟨S_, .i32⟩
  | 46 => ⟨S170000, .i32⟩
  | 47 => ⟨S170000, .i32⟩
  | 48 => ⟨S170000, .i32⟩
  | 49 => ⟨S170000x1, .i32⟩
  | 50 => ⟨S170000x512, .f32⟩
  | 51 => ⟨S170000x1, .f32⟩
  | 52 => ⟨S170000x512, .f32⟩
  | 53 => ⟨S170000x512, .f32⟩
  | 54 => ⟨S_, .f32⟩
  | 55 => ⟨S10000x512, .f32⟩
  | 56 => ⟨S170000x1, .i32⟩
  | 57 => ⟨S10000x512, .f32⟩
  | 58 => ⟨S1x512, .f32⟩
  | 59 => ⟨S10000x512, .f32⟩
  | 60 => ⟨S10000x512, .f32⟩
  | 61 => ⟨S_, .f32⟩
  | 62 => ⟨S10000x512, .f32⟩
  | 63 => ⟨S10000x512, .f32⟩
  | 64 => ⟨S10000x512, .f32⟩
  | 65 => ⟨S10000, .i32⟩
  | 66 => ⟨S170000, .i32⟩
  | 67 => ⟨S170000, .i32⟩
  | 68 => ⟨S_, .f32⟩
  | 69 => ⟨S170000, .f32⟩
  | 70 => ⟨S_, .f32⟩
  | 71 => ⟨S10000, .f32⟩
  | 72 => ⟨S170000x1, .i32⟩
  | 73 => ⟨S10000, .f32⟩
  | 74 => ⟨S_, .f32⟩
  | 75 => ⟨S10000, .f32⟩
  | 76 => ⟨S10000, .i1⟩
  | 77 => ⟨S10000, .f32⟩
  | 78 => ⟨S_, .f32⟩
  | 79 => ⟨S_, .f32⟩
  | 80 => ⟨S10000, .f32⟩
  | 81 => ⟨S10000, .f32⟩
  | 82 => ⟨S_, .i32⟩
  | 83 => ⟨S170000, .i32⟩
  | 84 => ⟨S170000, .i1⟩
  | 85 => ⟨S_, .i32⟩
  | 86 => ⟨S170000, .i32⟩
  | 87 => ⟨S170000, .i32⟩
  | 88 => ⟨S170000, .i32⟩
  | 89 => ⟨S170000x1, .i32⟩
  | 90 => ⟨S170000, .f32⟩
  | 91 => ⟨S_, .i32⟩
  | 92 => ⟨S170000, .i32⟩
  | 93 => ⟨S170000, .i1⟩
  | 94 => ⟨S_, .i32⟩
  | 95 => ⟨S170000, .i32⟩
  | 96 => ⟨S170000, .i32⟩
  | 97 => ⟨S170000, .i32⟩
  | 98 => ⟨S170000x1, .i32⟩
  | 99 => ⟨S170000, .f32⟩
  | 100 => ⟨S170000, .f32⟩
  | 101 => ⟨S_, .i32⟩
  | 102 => ⟨S170000, .i32⟩
  | 103 => ⟨S170000, .i1⟩
  | 104 => ⟨S_, .i32⟩
  | 105 => ⟨S170000, .i32⟩
  | 106 => ⟨S170000, .i32⟩
  | 107 => ⟨S170000, .i32⟩
  | 108 => ⟨S170000x1, .i32⟩
  | 109 => ⟨S170000x512, .f32⟩
  | 110 => ⟨S170000x1, .f32⟩
  | 111 => ⟨S170000x512, .f32⟩
  | 112 => ⟨S170000x512, .f32⟩
  | 113 => ⟨S_, .f32⟩
  | 114 => ⟨S10000x512, .f32⟩
  | 115 => ⟨S170000x1, .i32⟩
  | 116 => ⟨S10000x512, .f32⟩
  | 117 => ⟨S1x512, .f32⟩
  | 118 => ⟨S10000x512, .f32⟩
  | 119 => ⟨S10000x512, .f32⟩
  | 120 => ⟨S_, .f32⟩
  | 121 => ⟨S512, .f32⟩
  | 122 => ⟨S_, .f32⟩
  | 123 => ⟨S512, .f32⟩
  | 124 => ⟨S512, .f32⟩
  | 125 => ⟨S1x512, .f32⟩
  | 126 => ⟨S1x1024, .f32⟩
  | 127 => ⟨S1x512, .f32⟩
  | _ => ⟨S10000x512, .f32⟩

abbrev hbmTy0_3 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S1x1, .f32⟩
  | 6 => ⟨S1x1, .f32⟩
  | 7 => ⟨S1x1, .f32⟩
  | 8 => ⟨S1x1, .f32⟩
  | 9 => ⟨S1x1, .f32⟩
  | 10 => ⟨S_, .f32⟩
  | 11 => ⟨S1x1, .f32⟩
  | 12 => ⟨S1x1, .f32⟩
  | 13 => ⟨S_, .f32⟩
  | 14 => ⟨S1x1, .f32⟩
  | 15 => ⟨S1x1, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v59 : Ref sig .tc := ⟨.hbm, 94, rfl⟩
abbrev main_c_13 : Ref sig .tc := ⟨.hbm, 95, rfl⟩
abbrev main_v60 : Ref sig .tc := ⟨.hbm, 96, rfl⟩
abbrev main_v61 : Ref sig .tc := ⟨.hbm, 97, rfl⟩
abbrev main_c_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_15 : Ref sig .tc := ⟨.hbm, 104, rfl⟩
abbrev main_v67 : Ref sig .tc := ⟨.hbm, 105, rfl⟩
abbrev main_v68 : Ref sig .tc := ⟨.hbm, 106, rfl⟩
abbrev main_c_16 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_c_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_call3_cst : Ref sig .tc := ⟨.hbm, 133, rfl⟩
abbrev main_call3_v0 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_cst_21 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_22 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_23 : Ref sig .tc := ⟨.hbm, 150, rfl⟩
abbrev main_call4_v0 : Ref sig .tc := ⟨.hbm, 151, rfl⟩
abbrev main_call4_v1 : Ref sig .tc := ⟨.hbm, 152, rfl⟩
abbrev main_v103 : Ref sig .tc := ⟨.hbm, 153, rfl⟩
abbrev main_c_24 : Ref sig .tc := ⟨.hbm, 154, rfl⟩
abbrev main_v104 : Ref sig .tc := ⟨.hbm, 155, rfl⟩
abbrev main_v105 : Ref sig .tc := ⟨.hbm, 156, rfl⟩
abbrev main_c_25 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_c_26 : Ref sig .tc := ⟨.hbm, 163, rfl⟩
abbrev main_v111 : Ref sig .tc := ⟨.hbm, 164, rfl⟩
abbrev main_v112 : Ref sig .tc := ⟨.hbm, 165, rfl⟩
abbrev main_c_27 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_28 : Ref sig .tc := ⟨.hbm, 173, rfl⟩
abbrev main_v119 : Ref sig .tc := ⟨.hbm, 174, rfl⟩
abbrev main_v120 : Ref sig .tc := ⟨.hbm, 175, rfl⟩
abbrev main_c_29 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_30 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_31 : Ref sig .tc := ⟨.hbm, 192, rfl⟩
abbrev main_v135 : Ref sig .tc := ⟨.hbm, 193, rfl⟩
abbrev main_cst_32 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_33 : Ref sig .tc := ⟨.hbm, 206, rfl⟩
abbrev main_v147 : Ref sig .tc := ⟨.hbm, 207, rfl⟩
abbrev main_cst_34 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_35 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_36 : Ref sig .tc := ⟨.hbm, 216, rfl⟩
abbrev main_call5_v0 : Ref sig .tc := ⟨.hbm, 217, rfl⟩
abbrev main_call5_v1 : Ref sig .tc := ⟨.hbm, 218, rfl⟩
abbrev main_v154 : Ref sig .tc := ⟨.hbm, 219, rfl⟩
abbrev main_c_37 : Ref sig .tc := ⟨.hbm, 220, rfl⟩
abbrev main_v155 : Ref sig .tc := ⟨.hbm, 221, rfl⟩
abbrev main_v156 : Ref sig .tc := ⟨.hbm, 222, rfl⟩
abbrev main_c_38 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_c_39 : Ref sig .tc := ⟨.hbm, 229, rfl⟩
abbrev main_v162 : Ref sig .tc := ⟨.hbm, 230, rfl⟩
abbrev main_v163 : Ref sig .tc := ⟨.hbm, 231, rfl⟩
abbrev main_c_40 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_c_41 : Ref sig .tc := ⟨.hbm, 239, rfl⟩
abbrev main_v170 : Ref sig .tc := ⟨.hbm, 240, rfl⟩
abbrev main_v171 : Ref sig .tc := ⟨.hbm, 241, rfl⟩
abbrev main_c_42 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_cst_43 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_call6_cst : Ref sig .tc := ⟨.hbm, 258, rfl⟩
abbrev main_call6_v0 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_cst_44 : Ref sig .tc := ⟨.hbm, 265, rfl⟩
abbrev main_v191 : Ref sig .tc := ⟨.hbm, 266, rfl⟩
abbrev main_cst_45 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_cst_46 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_cst_47 : Ref sig .tc := ⟨.hbm, 275, rfl⟩
abbrev main_call7_v0 : Ref sig .tc := ⟨.hbm, 276, rfl⟩
abbrev main_call7_v1 : Ref sig .tc := ⟨.hbm, 277, rfl⟩
abbrev main_v198 : Ref sig .tc := ⟨.hbm, 278, rfl⟩
abbrev main_c_48 : Ref sig .tc := ⟨.hbm, 279, rfl⟩
abbrev main_v199 : Ref sig .tc := ⟨.hbm, 280, rfl⟩
abbrev main_v200 : Ref sig .tc := ⟨.hbm, 281, rfl⟩
abbrev main_c_49 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_c_50 : Ref sig .tc := ⟨.hbm, 288, rfl⟩
abbrev main_v206 : Ref sig .tc := ⟨.hbm, 289, rfl⟩
abbrev main_v207 : Ref sig .tc := ⟨.hbm, 290, rfl⟩
abbrev main_c_51 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_c_52 : Ref sig .tc := ⟨.hbm, 298, rfl⟩
abbrev main_v214 : Ref sig .tc := ⟨.hbm, 299, rfl⟩
abbrev main_v215 : Ref sig .tc := ⟨.hbm, 300, rfl⟩
abbrev main_c_53 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_cst_54 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_call8_cst : Ref sig .tc := ⟨.hbm, 317, rfl⟩
abbrev main_call8_v0 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_cst_55 : Ref sig .tc := ⟨.hbm, 324, rfl⟩
abbrev main_v235 : Ref sig .tc := ⟨.hbm, 325, rfl⟩
abbrev main_cst_56 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_cst_57 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_cst_58 : Ref sig .tc := ⟨.hbm, 334, rfl⟩
abbrev main_call9_v0 : Ref sig .tc := ⟨.hbm, 335, rfl⟩
abbrev main_call9_v1 : Ref sig .tc := ⟨.hbm, 336, rfl⟩
abbrev main_v242 : Ref sig .tc := ⟨.hbm, 337, rfl⟩
abbrev main_c_59 : Ref sig .tc := ⟨.hbm, 338, rfl⟩
abbrev main_v243 : Ref sig .tc := ⟨.hbm, 339, rfl⟩
abbrev main_v244 : Ref sig .tc := ⟨.hbm, 340, rfl⟩
abbrev main_c_60 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_c_61 : Ref sig .tc := ⟨.hbm, 347, rfl⟩
abbrev main_v250 : Ref sig .tc := ⟨.hbm, 348, rfl⟩
abbrev main_v251 : Ref sig .tc := ⟨.hbm, 349, rfl⟩
abbrev main_c_62 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_v256 : Ref sig .tc := ⟨.hbm, 355, rfl⟩
abbrev main_v257 : Ref sig .tc := ⟨.hbm, 356, rfl⟩
abbrev main_c_63 : Ref sig .tc := ⟨.hbm, 357, rfl⟩
abbrev main_v258 : Ref sig .tc := ⟨.hbm, 358, rfl⟩
abbrev main_v259 : Ref sig .tc := ⟨.hbm, 359, rfl⟩
abbrev main_c_64 : Ref sig .tc := ⟨.hbm, 360, rfl⟩
abbrev main_v260 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_cst_65 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_cst_66 : Ref sig .tc := ⟨.hbm, 376, rfl⟩
abbrev main_v274 : Ref sig .tc := ⟨.hbm, 377, rfl⟩
abbrev main_cst_67 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_call10_cst : Ref sig .tc := ⟨.hbm, 386, rfl⟩
abbrev main_call10_v0 : Ref sig .tc := ⟨.hbm, 387, rfl⟩
abbrev main_v282 : Ref sig .tc := ⟨.hbm, 388, rfl⟩
abbrev main_v283 : Ref sig .tc := ⟨.hbm, 389, rfl⟩
abbrev main_v284 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_cst_68 : Ref sig .tc := ⟨.hbm, 394, rfl⟩
abbrev main_v288 : Ref sig .tc := ⟨.hbm, 395, rfl⟩
abbrev main_v289 : Ref sig .tc := ⟨.hbm, 396, rfl⟩
abbrev main_cst_69 : Ref sig .tc := ⟨.hbm, 397, rfl⟩
abbrev main_v290 : Ref sig .tc := ⟨.hbm, 398, rfl⟩
abbrev main_v291 : Ref sig .tc := ⟨.hbm, 399, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  reducesTo_S10000x512_S512_d0 : S10000x512.ReducesTo [0] S512
  h_S_ : 0 < S_.numel
  bcast_S_S512 : S_.BroadcastsInDim S512 (![] : Fin 0 → Fin S512.rank)
  shapeCasts_S512_S1x512 : S512.ShapeCasts S1x512
  concatenates_S1x512_S1x512_S1x1024_d1 : Shape.Concatenates [S1x512, S1x512] S1x1024 1
  bcast_S_S1x512 : S_.BroadcastsInDim S1x512 (![] : Fin 0 → Fin S1x512.rank)
  bcast_S1_S1x1_1 : S1.BroadcastsInDim S1x1 (![1] : Fin 1 → Fin S1x1.rank)
  bcast_S_S1x1 : S_.BroadcastsInDim S1x1 (![] : Fin 0 → Fin S1x1.rank)
  dot_S10000x512_S512x512_S10000x512_1_0_0_1_n_n_wf : DotDims.WF S10000x512 S512x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S1x1024_S1024x512_S1x512_1_0_0_1_n_n_wf : DotDims.WF S1x1024 S1024x512 S1x512 [1] [0] [0] [1] [] []
  dot_S1x512_S512x1_S1x1_1_0_0_1_n_n_wf : DotDims.WF S1x512 S512x1 S1x1 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x512_S512x1_S1x1_1_0_0_1_n_n : DotDims S1x512 S512x1 S1x1 where
  lhsContracting := [1]
  rhsContracting := [0]
  lhsNonContracting := [0]
  rhsNonContracting := [1]
  lhsBatch := []
  rhsBatch := []
  wf := dot_S1x512_S512x1_S1x1_1_0_0_1_n_n_wf

class Facts : Prop extends Facts₀ where

variable [Facts]
-- ==== Proof.KRun.lean ====
/-
  The whole program's run with its result named.

  The program is three regions among stretches of host operations. Its run threads the TensorCore's buffer contents
  through the segments: a stretch of host operations applies its operations in order, a region leaves each of its
  arrays at what its write-backs leave and every other buffer as it was. `W27` is the contents after the last
  segment. Every weakly fair execution terminates, nothing faulting, with every unscoped buffer at `W27`: in
  particular the result buffer, and the arguments, which no segment writes.
-/
import proofs.«130762_j21105469293031_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    arguments as launched. -/
theorem run_result : θ_run defs (onTc (τ := τ) (main (F := F))) ⟨m, fun _ => 0, ρ⟩ (fun r => ∀ c : Dev nD,
      r.2.mem ((c.tc : Thread nD τ).loc main_v297) = W27 m ρ c (Proc.devRef .tc main_v297)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v297 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c),
       (h c _ (mem_uc main_arg13 (by decide))).trans (W27_main_arg13 m ρ c)⟩)

end Cert.KernelIdeal.KRun

end
-- ==== Proof.Product.lean ====
/-
  The product a region computes, read at an index.

  Each of the three regions multiplies a block of 2000 rows of a 20000 × 512 array by a whole 512 × 512 weight on
  the matrix unit, into a zero accumulator; the rounding of both operands to a narrower format on the way in is the
  identity on the extended reals. So the body's stored value at row `r`, column `q` of the block is the plain sum over
  `k` of (block row `r`, entry `k`) · (weight row `k`, column `q`). `mm X W` is the same sum over the whole array:
  row `i 0` of `X` against column `i 1` of `W`.
-/
import proofs.«130762_j21105469293031_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Product

open Cert.KernelIdeal Cert.KernelIdeal.Gen Idealize.ShloMosaic Idealize.ShloMosaic.ValueIdx

variable [Cert.KernelIdeal.Facts]

/-- Row `i 0`, entry `k` of the stacked rows. -/
abbrev rowAt (i : S20000x512.Idx) (k : Fin 512) : S20000x512.Idx := fun a => match a with
  | ⟨0, _⟩ => ⟨(i 0).val, (i 0).isLt⟩
  | ⟨1, _⟩ => ⟨k.val, k.isLt⟩
/-- Row `k`, column `i 1` of the weight. -/
abbrev colAt (i : S20000x512.Idx) (k : Fin 512) : S512x512.Idx := fun a => match a with
  | ⟨0, _⟩ => ⟨k.val, k.isLt⟩
  | ⟨1, _⟩ => ⟨(i 1).val, (i 1).isLt⟩

/-- The product of the stacked rows `X` with the weight `W`, entry by entry: the sum over the 512 shared indices. -/
def mm (X : S20000x512.Idx → Elt Ideal .f32) (W : S512x512.Idx → Elt Ideal .f32) : S20000x512.Idx → Elt Ideal .f32 :=
  fun i => ∑ k : Fin 512, X (rowAt i k) * W (colAt i k)

/-- Row `j 0`, entry `k` of a block of 2000 rows. -/
abbrev browAt (j : S2000x512.Idx) (k : Fin 512) : S2000x512.Idx := fun a => match a with
  | ⟨0, _⟩ => ⟨(j 0).val, (j 0).isLt⟩
  | ⟨1, _⟩ => ⟨k.val, k.isLt⟩
/-- Row `k`, column `j 1` of the weight, for an index of the block. -/
abbrev bcolAt (j : S2000x512.Idx) (k : Fin 512) : S512x512.Idx := fun a => match a with
  | ⟨0, _⟩ => ⟨k.val, k.isLt⟩
  | ⟨1, _⟩ => ⟨(j 1).val, (j 1).isLt⟩

theorem lhs_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The matrix unit's product into a zero accumulator, read at an index of the block: the sum over the shared index. -/
theorem matmul_zero_apply (l : FVec Ideal S2000x512 .bf16) (r : FVec Ideal S512x512 .bf16) (j : S2000x512.Idx) :
    matmul dot_S2000x512_S512x512_S2000x512_1_0_0_1_n_n none l r (constant S2000x512 .f32 0x00000000#32) j
      = ∑ k : Fin 512, l (browAt j k) * r (bcolAt j k) := by
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx j ((ValueIdx.contrEquiv1 dot_S2000x512_S512x512_S2000x512_1_0_0_1_n_n 512 rfl rfl).symm k) = browAt j k := funext fun a => Fin.ext (by
    match a with
    | ⟨0, _⟩ => exact lhs_0 _ _
    | ⟨1, _⟩ => exact (lhs_1 _ _).trans hk)
  have er : dot_S2000x512_S512x512_S2000x512_1_0_0_1_n_n.rhsIdx j ((ValueIdx.contrEquiv1 dot_S2000x512_S512x512_S2000x512_1_0_0_1_n_n 512 rfl rfl).symm k) = bcolAt j k := funext fun a => Fin.ext (by
    match a with
    | ⟨0, _⟩ => exact (rhs_0 _ _).trans hk
    | ⟨1, _⟩ => exact rhs_1 _ _)
  rw [el, er]

/-- The body's stored value at an index of the block (the three regions' bodies are one function). -/
theorem pay_apply (x0 : Vec Ideal S2000x512 .f32) (x1 : Vec Ideal S512x512 .f32) (j : S2000x512.Idx) :
    k0_pay1 (F := Ideal) x0 x1 j = ∑ k : Fin 512, x0 (browAt j k) * x1 (bcolAt j k) := by
  unfold k0_pay1
  refine (matmul_zero_apply _ _ j).trans ?_
  refine Finset.sum_congr rfl fun k _ => ?_
  rw [shapeCast_self]
  rfl

theorem pay1_eq (x0 : Vec Ideal S2000x512 .f32) (x1 : Vec Ideal S512x512 .f32) : k1_pay1 (F := Ideal) x0 x1 = k0_pay1 x0 x1 := rfl
theorem pay2_eq (x0 : Vec Ideal S2000x512 .f32) (x1 : Vec Ideal S512x512 .f32) : k2_pay1 (F := Ideal) x0 x1 = k0_pay1 x0 x1 := rfl

end Cert.KernelIdeal.Product

end
-- ==== Proof.Region.lean ====
/-
  What each region leaves in its output array.

  A region walks ten grid points; at point `t` it fetches rows 2000·t … 2000·t+1999 of its first operand and the whole
  weight, and writes back the block's product into the same rows of its output. Point `t`'s written block is therefore
  the rows 2000·t … of `mm X W`, the product of the whole stacked operand with the weight, and the ten blocks tile the
  20000 rows: the output array ends at `mm X W`.
-/
import proofs.«130762_j21105469293031_1_alg».proof.Proof.Gen.KernelIdeal.Frame
import proofs.«130762_j21105469293031_1_alg».proof.Proof.Product

set_option maxRecDepth 16384

noncomputable section

namespace Cert.KernelIdeal.Region

open Cert.KernelIdeal Cert.KernelIdeal.Gen Cert.KernelIdeal.Product
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the operand's and the output's row blocks move together, one block per
    point; the weight's block and every column block stay at zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region finds. -/
theorem flushed0_eq (c : Dev nD) (t : Fin cfg0.N) :
    (dat0 (F := Ideal) V c).flushed 2 t
      = ((cfg0.win 2).blk t).view.read (Elt Ideal) (mm (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x512) hz]
  obtain ⟨e0, e1, e2, e3, e4, e5⟩ := idx_facts0 t
  funext j
  show k0_pay1 (iblk0 V c 0 t) (iblk0 V c 1 t) j
    = mm (V c (Pipeline.arrRef spec0 0)) (V c (Pipeline.arrRef spec0 1)) (((cfg0.win 2).blk t).view.emb j)
  refine (pay_apply _ _ j).trans ?_
  unfold mm
  refine Finset.sum_congr rfl fun k _ => ?_
  have h0 : iblk0 V c 0 t (browAt j k) = V c (Pipeline.arrRef spec0 0) (rowAt (((cfg0.win 2).blk t).view.emb j) k) := by
    show V c (Pipeline.arrRef spec0 0) (((cfg0.win 0).blk t).view.emb (browAt j k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : iblk0 V c 1 t (bcolAt j k) = V c (Pipeline.arrRef spec0 1) (colAt (((cfg0.win 2).blk t).view.emb j) k) := by
    show V c (Pipeline.arrRef spec0 1) (((cfg0.win 1).blk t).view.emb (bcolAt j k)) = _
    refine congrArg _ (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  rw [h0, h1]

/-- An index of the output array is in point `t`'s block iff each coordinate is in the block's range on its axis. -/
theorem mem_blk0 (t : Fin cfg0.N) (i : S20000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v9).slice (win0_2.rect t)).set ↔ _
  rw [View.set_slice_whole, Rect.mem_set_unit]
  exact Iff.rfl

/-- The ten blocks tile the output array: row `r` is in the block of point `r / 2000`. -/
theorem cover0 (i : S20000x512.Idx) : ∃ t : Fin cfg0.N, (cfg0.win 2).flush t = true ∧ i ∈ ((cfg0.win 2).blk t).view.set := by
  have hi0 : (i 0).val < 20000 := (i 0).isLt
  have hi1 : (i 1).val < 512 := (i 1).isLt
  have hN : cfg0.N = 10 := rfl
  refine ⟨⟨(i 0).val / 2000, by rw [hN]; omega⟩, flush0_2 _, ?_⟩
  rw [mem_blk0]
  obtain ⟨e0, e1, e2, e3, e4, e5⟩ := idx_facts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 512 ≤ (i 1).val ∧ (i 1).val < win0_2.index _ (1 : Fin 2) * 512 + 512
    rw [e5]; omega

/-- Region 0's output array after the region: the product of the stacked operand with the weight. -/
theorem final0 (c : Dev nD) :
    (dat0 (F := Ideal) V c).arrAt 2 cfg0.N = mm (V c (Pipeline.arrRef spec0 0)) (V c (Pipeline.arrRef spec0 1)) :=
  (dat0 V c).arrAt_eq_of_cover 2 _ (fun t _ => flushed0_eq V c t) (cover0)

/-! ## Region 1 -/

/-- The printed index maps over the grid: the operand's and the output's row blocks move together, one block per
    point; the weight's block and every column block stay at zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays the region finds. -/
theorem flushed1_eq (c : Dev nD) (t : Fin cfg1.N) :
    (dat1 (F := Ideal) V c).flushed 2 t
      = ((cfg1.win 2).blk t).view.read (Elt Ideal) (mm (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S2000x512) hz, View.ld_unit_zero (S := S512x512) hz]
  obtain ⟨e0, e1, e2, e3, e4, e5⟩ := idx_facts1 t
  funext j
  show k0_pay1 (iblk1 V c 0 t) (iblk1 V c 1 t) j
    = mm (V c (Pipeline.arrRef spec1 0)) (V c (Pipeline.arrRef spec1 1)) (((cfg1.win 2).blk t).view.emb j)
  refine (pay_apply _ _ j).trans ?_
  unfold mm
  refine Finset.sum_congr rfl fun k _ => ?_
  have h0 : iblk1 V c 0 t (browAt j k) = V c (Pipeline.arrRef spec1 0) (rowAt (((cfg1.win 2).blk t).view.emb j) k) := by
    show V c (Pipeline.arrRef spec1 0) (((cfg1.win 0).blk t).view.emb (browAt j k)) = _
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * k.val = k.val; omega
  have h1 : iblk1 V c 1 t (bcolAt j k) = V c (Pipeline.arrRef spec1 1) (colAt (((cfg1.win 2).blk t).view.emb j) k) := by
    show V c (Pipeline.arrRef spec1 1) (((cfg1.win 1).blk t).view.emb (bcolAt j k)) = _
    refine congrArg _ (funext fun a => Fin.ext ?_)
    match a with
    | ⟨0, _⟩ => show win1_1.index t (0 : Fin 2) * 512 + 1 * k.val = k.val; omega
    | ⟨1, _⟩ => show win1_1.index t (1 : Fin 2) * 512 + 1 * (j 1).val = win1_2.index t (1 : Fin 2) * 512 + 1 * (j 1).val; omega
  rw [h0, h1]

/-- An index of the output array is in point `t`'s block iff each coordinate is in the block's range on its axis. -/
theorem mem_blk1 (t : Fin cfg1.N) (i : S20000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v99).slice (win1_2.rect t)).set ↔ _
  rw [View.set_slice_whole, Rect.mem_set_unit]
  exact Iff.rfl

/-- The ten blocks tile the output array: row `r` is in the block of point `r / 2000`. -/
theorem cover1 (i : S20000x512.Idx) : ∃ t : Fin cfg1.N, (cfg1.win 2).flush t = true ∧ i ∈ ((cfg1.win 2).blk t).view.set := by
  have hi0 : (i 0).val < 20000 := (i 0).isLt
  have hi1 : (i 1).val < 512 := (i 1).isLt
  have hN : cfg1.N = 10 := rfl
  refine ⟨⟨(i 0).val / 2000, by rw [hN]; omega⟩, flush1_2 _, ?_⟩
  rw [mem_blk1]
  obtain ⟨e0, e1, e2, e3, e4, e5⟩ := idx_facts1 ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 512 ≤ (i 1).val ∧ (i 1).val < win1_2.index _ (1 : Fin 2) * 512 + 512
    rw [e5]; omega

/-- Region 1's output array after the region: the product of the stacked operand with the weight. -/
theorem final1 (c : Dev nD) :
    (dat1 (F := Ideal) V c).arrAt 2 cfg1.N = mm (V c (Pipeline.arrRef spec1 0)) (V c (Pipeline.arrRef spec1 1)) :=
  (dat1 V c).arrAt_eq_of_cover 2 _ (fun t _ => flushed1_eq V c t) (cover1)

/-! ## Region 2 -/

/-- The printed index maps over the grid: the operand's and the output's row blocks move together, one block per
    point; the weight's block and every column block stay at zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the arrays the region finds. -/
theorem flushed2_eq (c : Dev nD) (t : Fin cfg2.N) :
    (dat2 (F := Ideal) V c).flushed 2 t
      = ((cfg2.win 2).blk t).view.read (Elt Ideal) (mm (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x512) hz, View.ld_unit_zero (S := S512x512) hz]
  obtain ⟨e0, e1, e2, e3, e4, e5⟩ := idx_facts2 t
  funext j
  show k0_pay1 (iblk2 V c 0 t) (iblk2 V c 1 t) j
    = mm (V c (Pipeline.arrRef spec2 0)) (V c (Pipeline.arrRef spec2 1)) (((cfg2.win 2).blk t).view.emb j)
  refine (pay_apply _ _ j).trans ?_
  unfold mm
  refine Finset.sum_congr rfl fun k _ => ?_
  have h0 : iblk2 V c 0 t (browAt j k) = V c (Pipeline.arrRef spec2 0) (rowAt (((cfg2.win 2).blk t).view.emb j) k) := by
    show V c (Pipeline.arrRef spec2 0) (((cfg2.win 0).blk t).view.emb (browAt j k)) = _
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 512 + 1 * k.val = k.val; omega
  have h1 : iblk2 V c 1 t (bcolAt j k) = V c (Pipeline.arrRef spec2 1) (colAt (((cfg2.win 2).blk t).view.emb j) k) := by
    show V c (Pipeline.arrRef spec2 1) (((cfg2.win 1).blk t).view.emb (bcolAt j k)) = _
    refine congrArg _ (funext fun a => Fin.ext ?_)
    match a with
    | ⟨0, _⟩ => show win2_1.index t (0 : Fin 2) * 512 + 1 * k.val = k.val; omega
    | ⟨1, _⟩ => show win2_1.index t (1 : Fin 2) * 512 + 1 * (j 1).val = win2_2.index t (1 : Fin 2) * 512 + 1 * (j 1).val; omega
  rw [h0, h1]

/-- An index of the output array is in point `t`'s block iff each coordinate is in the block's range on its axis. -/
theorem mem_blk2 (t : Fin cfg2.N) (i : S20000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v189).slice (win2_2.rect t)).set ↔ _
  rw [View.set_slice_whole, Rect.mem_set_unit]
  exact Iff.rfl

/-- The ten blocks tile the output array: row `r` is in the block of point `r / 2000`. -/
theorem cover2 (i : S20000x512.Idx) : ∃ t : Fin cfg2.N, (cfg2.win 2).flush t = true ∧ i ∈ ((cfg2.win 2).blk t).view.set := by
  have hi0 : (i 0).val < 20000 := (i 0).isLt
  have hi1 : (i 1).val < 512 := (i 1).isLt
  have hN : cfg2.N = 10 := rfl
  refine ⟨⟨(i 0).val / 2000, by rw [hN]; omega⟩, flush2_2 _, ?_⟩
  rw [mem_blk2]
  obtain ⟨e0, e1, e2, e3, e4, e5⟩ := idx_facts2 ⟨(i 0).val / 2000, by rw [hN]; omega⟩
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 512 ≤ (i 1).val ∧ (i 1).val < win2_2.index _ (1 : Fin 2) * 512 + 512
    rw [e5]; omega

/-- Region 2's output array after the region: the product of the stacked operand with the weight. -/
theorem final2 (c : Dev nD) :
    (dat2 (F := Ideal) V c).arrAt 2 cfg2.N = mm (V c (Pipeline.arrRef spec2 0)) (V c (Pipeline.arrRef spec2 1)) :=
  (dat2 V c).arrAt_eq_of_cover 2 _ (fun t _ => flushed2_eq V c t) (cover2)

end Cert.KernelIdeal.Region

end
-- ==== Proof.Spec.lean ====
/-
  The graph-convolution layer and the comparison head as functions of arrays.

  One layer sends a node table `h` (10000 nodes, 512 features), already multiplied by the layer's weight, to
      out[v] = Σ over edges (s → v), the self loops included, of h[s] · dinv[s] · dinv[v]  +  b,
  where the degree of a node counts the edges into it (self loop included) and `dinv` is its inverse square root, zero
  where the degree is not positive. An edge list is the 160000 given sources (targets) followed by the 10000 loop indices
  0 … 9999; a negative index is wrapped by adding 10000 before a row is looked up. The head averages each graph's last
  table over its nodes, joins the two averages, and applies two dense layers with a rectifier between them and a
  logistic function at the end. Both programs apply exactly these operations; they differ only in how the product with
  the layer's weight is formed.
-/
import proofs.«130762_j21105469293031_1_alg».proof.Proof.Gen.ReferenceIdeal
import Idealize.ShloMosaic.PureOps.Ideal

noncomputable section

namespace Cert.Spec

open Cert.ReferenceIdeal Cert.ReferenceIdeal.Gen Idealize.ShloMosaic

/-- A float array of a given shape at the ideal instance. -/
abbrev FV (S : Shape) : Type := FVec Ideal S .f32
/-- An index array of a given shape. -/
abbrev IV (S : Shape) : Type := IVec S 32

/-- Row 0 of an edge table: the sources. -/
def srcs (e : IV S2x160000) : IV S160000 :=
  shapeCast _ (extractStridedSlice S1x160000 ![0, 0] e slices_S2x160000_S1x160000_0_0) shapeCasts_S1x160000_S160000
/-- Row 1 of an edge table: the targets. -/
def dsts (e : IV S2x160000) : IV S160000 :=
  shapeCast _ (extractStridedSlice S1x160000 ![1, 0] e slices_S2x160000_S1x160000_1_0) shapeCasts_S1x160000_S160000

/-- Two index lists, one after the other. -/
def catIdx (a : IV S160000) (b : IV S10000) : IV S170000 :=
  concatenate S170000 0 [⟨S160000, a⟩, ⟨S10000, b⟩] concatenates_S160000_S10000_S170000_d0
theorem catIdx_fold (a : IV S160000) (b : IV S10000) :
    concatenate S170000 0 [⟨S160000, a⟩, ⟨S10000, b⟩] concatenates_S160000_S10000_S170000_d0 = catIdx a b := rfl

/-- An index list with the 10000 loop indices appended. -/
def withLoops (e : IV S160000) : IV S170000 := catIdx e (iotaInDim S10000 32 0)

/-- The index column a row lookup takes: negative indices wrapped by 10000. -/
def wrapped (s : IV S170000) : IV S170000x1 :=
  broadcastInDim S170000x1 ![0] bcast_S170000_S170000x1_0
    (select (cmpi .slt s (broadcastInDim S170000 ![] bcast_S_S170000 (constantI S_ 32 0#32)))
      (addi s (broadcastInDim S170000 ![] bcast_S_S170000 (constantI S_ 32 10000#32))) s)

/-- The number of edges into each node. -/
def deg (d : IV S170000) : FV S10000 :=
  Host.scatterAdd (F := Ideal) scatter_S10000_S170000x1_S170000_n_0_0_1
    (broadcastInDim S10000 ![] bcast_S_S10000 (constant (F := Ideal) S_ .f32 0x00000000#32))
    (broadcastInDim S170000x1 ![0] bcast_S170000_S170000x1_0 d)
    (broadcastInDim S170000 ![] bcast_S_S170000 (constant (F := Ideal) S_ .f32 0x3F800000#32))

/-- The inverse square root of the degree, zero where the degree is not positive. -/
def dinv (d : IV S170000) : FV S10000 :=
  select (cmpf (F := Ideal) .ogt (deg d) (broadcastInDim S10000 ![] bcast_S_S10000 (constant (F := Ideal) S_ .f32 0x00000000#32)))
    (Host.rsqrt (F := Ideal) (deg d))
    (broadcastInDim S10000 ![] bcast_S_S10000 (id (constant (F := Ideal) S_ .f32 0x00000000#32)))

/-- Each edge's weight: `dinv` at its source times `dinv` at its target. -/
def norm (s d : IV S170000) : FV S170000 :=
  mulf (F := Ideal) (Host.gather gather_S10000_S170000x1_S170000_n_0_n_n_0_1_1 (dinv d) (wrapped s))
    (Host.gather gather_S10000_S170000x1_S170000_n_0_n_n_0_1_1 (dinv d) (wrapped d))

/-- The weighted sum of the source rows into each target row, plus the bias row. -/
def agg (h : FV S10000x512) (s d : IV S170000) (b : FV S512) : FV S10000x512 :=
  addf (F := Ideal)
    (Host.scatterAdd (F := Ideal) scatter_S10000x512_S170000x1_S170000x512_1_0_0_1
      (broadcastInDim S10000x512 ![] bcast_S_S10000x512 (constant (F := Ideal) S_ .f32 0x00000000#32))
      (broadcastInDim S170000x1 ![0] bcast_S170000_S170000x1_0 d)
      (mulf (F := Ideal) (Host.gather gather_S10000x512_S170000x1_S170000x512_1_0_n_n_0_1_1512 h (wrapped s))
        (broadcastInDim S170000x512 ![0, 1] bcast_S170000x1_S170000x512_0_1
          (broadcastInDim S170000x1 ![0] bcast_S170000_S170000x1_0 (norm s d)))))
    (broadcastInDim S10000x512 ![0, 1] bcast_S1x512_S10000x512_0_1 (broadcastInDim S1x512 ![1] bcast_S512_S1x512_1 b))

/-- One layer after the product with its weight: over the edges with the loops appended. -/
def layer (h : FV S10000x512) (src dst : IV S160000) (b : FV S512) : FV S10000x512 :=
  agg h (withLoops src) (withLoops dst) b

/-- The rectifier on a node table. -/
def relu (x : FV S10000x512) : FV S10000x512 :=
  maximumf (F := Ideal) x (broadcastInDim S10000x512 ![] bcast_S_S10000x512 (constant (F := Ideal) S_ .f32 0x00000000#32))

/-- The product of a node table with a layer's weight, as the host forms it. -/
def dense (x : FV S10000x512) (w : FV S512x512) : FV S10000x512 :=
  Host.dotGeneral (F := Ideal) dot_S10000x512_S512x512_S10000x512_1_0_0_1_n_n none x w

/-- The average of a node table over its nodes, as a row. -/
def meanRow (h : FV S10000x512) : FV S1x512 :=
  shapeCast _ (Host.divf (F := Ideal) (Host.reduceAdd (F := Ideal) h (constant (F := Ideal) S_ .f32 0x00000000#32) reducesTo_S10000x512_S512_d0 h_S_)
    (broadcastInDim S512 ![] bcast_S_S512 (constant (F := Ideal) S_ .f32 0x461C4000#32))) shapeCasts_S512_S1x512

/-- Two rows side by side. -/
def catRows (u1 u2 : FV S1x512) : FV S1x1024 :=
  concatenate S1x1024 1 [⟨S1x512, u1⟩, ⟨S1x512, u2⟩] concatenates_S1x512_S1x512_S1x1024_d1
theorem catRows_fold (u1 u2 : FV S1x512) :
    concatenate S1x1024 1 [⟨S1x512, u1⟩, ⟨S1x512, u2⟩] concatenates_S1x512_S1x512_S1x1024_d1 = catRows u1 u2 := rfl

/-- The comparison head on the two averaged rows. -/
def head (u1 u2 : FV S1x512) (wf1 : FV S1024x512) (bf1 : FV S512) (wf2 : FV S512x1) (bf2 : FV S1) : FV S1x1 :=
  Host.divf (F := Ideal) (broadcastInDim S1x1 ![] bcast_S_S1x1 (constant (F := Ideal) S_ .f32 0x3F800000#32))
    (addf (F := Ideal) (broadcastInDim S1x1 ![] bcast_S_S1x1 (constant (F := Ideal) S_ .f32 0x3F800000#32))
      (Host.exp (F := Ideal) (Host.negf (F := Ideal)
        (addf (F := Ideal)
          (Host.dotGeneral (F := Ideal) dot_S1x512_S512x1_S1x1_1_0_0_1_n_n none
            (maximumf (F := Ideal)
              (addf (F := Ideal)
                (Host.dotGeneral (F := Ideal) dot_S1x1024_S1024x512_S1x512_1_0_0_1_n_n none
                  (catRows u1 u2) wf1)
                (broadcastInDim S1x512 ![1] bcast_S512_S1x512_1 bf1))
              (broadcastInDim S1x512 ![] bcast_S_S1x512 (constant (F := Ideal) S_ .f32 0x00000000#32)))
            wf2)
          (broadcastInDim S1x1 ![1] bcast_S1_S1x1_1 bf2)))))

/-- One graph's three layers on the host's products: the last table, before averaging. -/
def embed (x : FV S10000x512) (e : IV S2x160000) (w1 w2 w3 : FV S512x512) (b1 b2 b3 : FV S512) : FV S10000x512 :=
  layer (dense (relu (layer (dense (relu (layer (dense x w1) (srcs e) (dsts e) b1)) w2) (srcs e) (dsts e) b2)) w3) (srcs e) (dsts e) b3

end Cert.Spec

end
-- ==== Proof.KSpec.lean ====
/-
  The three layout operations only the kernel's program has: the two node tables stacked into one of 20000 rows, and the
  top and bottom halves of such a table.
-/
import proofs.«130762_j21105469293031_1_alg».proof.Proof.Gen.KernelIdeal
import proofs.«130762_j21105469293031_1_alg».proof.Proof.Spec

noncomputable section

namespace Cert.KernelIdeal.KSpec

open Cert.KernelIdeal Cert.KernelIdeal.Gen Cert.Spec Idealize.ShloMosaic

/-- Graph 1's table on top of graph 2's. -/
def stack (a b : FV S10000x512) : FV S20000x512 :=
  concatenate S20000x512 0 [⟨S10000x512, a⟩, ⟨S10000x512, b⟩] concatenates_S10000x512_S10000x512_S20000x512_d0
/-- Rows 0 … 9999 of a stacked table. -/
def top (x : FV S20000x512) : FV S10000x512 :=
  extractStridedSlice S10000x512 ![0, 0] x slices_S20000x512_S10000x512_0_0
/-- Rows 10000 … 19999 of a stacked table. -/
def bottom (x : FV S20000x512) : FV S10000x512 :=
  extractStridedSlice S10000x512 ![10000, 0] x slices_S20000x512_S10000x512_10000_0

theorem stack_fold (a b : FV S10000x512) :
    concatenate S20000x512 0 [⟨S10000x512, a⟩, ⟨S10000x512, b⟩] concatenates_S10000x512_S10000x512_S20000x512_d0 = stack a b := rfl
/-- The same folds as the reference's, at this program's spelling of the shapes. -/
theorem catIdx_foldK (a : IV S160000) (b : IV S10000) :
    concatenate S170000 0 [⟨S160000, a⟩, ⟨S10000, b⟩] concatenates_S160000_S10000_S170000_d0 = catIdx a b := rfl
theorem catRows_foldK (u1 u2 : FV S1x512) :
    concatenate S1x1024 1 [⟨S1x512, u1⟩, ⟨S1x512, u2⟩] concatenates_S1x512_S1x512_S1x1024_d1 = catRows u1 u2 := rfl

end Cert.KernelIdeal.KSpec

end
-- ==== Proof.Bridge.lean ====
/-
  The one place the two programs differ: how a layer's product with its weight is formed.

  The kernel's program stacks the two graphs' tables `A` over `B`, multiplies the 20000 rows by the weight in one
  region, and cuts the result back into its top and bottom halves; the reference multiplies each table by the weight on
  the host. A row of the stacked product depends on that row of the stacked table alone, so the top half of
  `mm (stack A B) W` is the product of `A` with `W` and the bottom half the product of `B` with `W`: entry by entry both
  are the sum over the 512 shared indices of (row entry) · (weight entry), with no reordering.
-/
import proofs.«130762_j21105469293031_1_alg».proof.Proof.Product
import proofs.«130762_j21105469293031_1_alg».proof.Proof.KSpec
import Idealize.ShloMosaic.Lib.ValueIdx
import Idealize.ShloMosaic.Lib.Pipeline.Value
import Idealize.ShloMosaic.PureOps.Ideal.Laws

noncomputable section

namespace Cert.Bridge

open Cert.KernelIdeal Cert.KernelIdeal.Gen Cert.KernelIdeal.Product Cert.KernelIdeal.KSpec Cert.Spec
open Idealize.ShloMosaic Idealize.ShloMosaic.ValueIdx

/-- Row `j 0`, entry `k` of a node table. -/
abbrev drow (j : S10000x512.Idx) (k : Fin 512) : S10000x512.Idx := fun a => match a with
  | ⟨0, _⟩ => ⟨(j 0).val, (j 0).isLt⟩
  | ⟨1, _⟩ => ⟨k.val, k.isLt⟩
/-- Row `k`, column `j 1` of the weight. -/
abbrev dcol (j : S10000x512.Idx) (k : Fin 512) : S512x512.Idx := fun a => match a with
  | ⟨0, _⟩ => ⟨k.val, k.isLt⟩
  | ⟨1, _⟩ => ⟨(j 1).val, (j 1).isLt⟩

theorem dl_0 (i : S10000x512.Idx) (q : Cert.ReferenceIdeal.dot_S10000x512_S512x512_S10000x512_1_0_0_1_n_n.contr.Idx) :
    (Cert.ReferenceIdeal.dot_S10000x512_S512x512_S10000x512_1_0_0_1_n_n.lhsIdx i q 0).val = (i 0).val := by
  unfold DotDims.lhsIdx
  rw [dif_neg (show ¬(0 : Fin Cert.ReferenceIdeal.S10000x512.rank) ∈ Cert.ReferenceIdeal.dot_S10000x512_S512x512_S10000x512_1_0_0_1_n_n.lhsBatch by decide), dif_pos (show (0 : Fin Cert.ReferenceIdeal.S10000x512.rank) ∈ Cert.ReferenceIdeal.dot_S10000x512_S512x512_S10000x512_1_0_0_1_n_n.lhsNonContracting by decide)]
  rfl
theorem dl_1 (i : S10000x512.Idx) (q : Cert.ReferenceIdeal.dot_S10000x512_S512x512_S10000x512_1_0_0_1_n_n.contr.Idx) :
    (Cert.ReferenceIdeal.dot_S10000x512_S512x512_S10000x512_1_0_0_1_n_n.lhsIdx i q 1).val = (q ⟨0, by decide⟩).val :=
  Cert.ReferenceIdeal.dot_S10000x512_S512x512_S10000x512_1_0_0_1_n_n.lhsIdx_val_of_single rfl i q
theorem dr_0 (i : S10000x512.Idx) (q : Cert.ReferenceIdeal.dot_S10000x512_S512x512_S10000x512_1_0_0_1_n_n.contr.Idx) :
    (Cert.ReferenceIdeal.dot_S10000x512_S512x512_S10000x512_1_0_0_1_n_n.rhsIdx i q 0).val = (q ⟨0, by decide⟩).val :=
  Cert.ReferenceIdeal.dot_S10000x512_S512x512_S10000x512_1_0_0_1_n_n.rhsIdx_val_of_single rfl i q
theorem dr_1 (i : S10000x512.Idx) (q : Cert.ReferenceIdeal.dot_S10000x512_S512x512_S10000x512_1_0_0_1_n_n.contr.Idx) :
    (Cert.ReferenceIdeal.dot_S10000x512_S512x512_S10000x512_1_0_0_1_n_n.rhsIdx i q 1).val = (i 1).val := by
  unfold DotDims.rhsIdx
  rw [dif_neg (show ¬(1 : Fin Cert.ReferenceIdeal.S512x512.rank) ∈ Cert.ReferenceIdeal.dot_S10000x512_S512x512_S10000x512_1_0_0_1_n_n.rhsBatch by decide), dif_pos (show (1 : Fin Cert.ReferenceIdeal.S512x512.rank) ∈ Cert.ReferenceIdeal.dot_S10000x512_S512x512_S10000x512_1_0_0_1_n_n.rhsNonContracting by decide)]
  rfl

/-- The host's product read at an index: the sum over the shared index. -/
theorem dense_apply (A : FV S10000x512) (W : FV S512x512) (j : S10000x512.Idx) :
    dense A W j = ∑ k : Fin 512, A (drow j k) * W (dcol j k) := by
  unfold dense
  simp only [Host.dotGeneral]
  rw [Ideal.dotGeneral_apply, ← Equiv.sum_comp (ValueIdx.contrEquiv1 Cert.ReferenceIdeal.dot_S10000x512_S512x512_S10000x512_1_0_0_1_n_n 512 rfl rfl).symm]
  refine Finset.sum_congr rfl fun k _ => ?_
  have hk := ValueIdx.contrEquiv1_symm_val Cert.ReferenceIdeal.dot_S10000x512_S512x512_S10000x512_1_0_0_1_n_n 512 rfl rfl k
  have el : Cert.ReferenceIdeal.dot_S10000x512_S512x512_S10000x512_1_0_0_1_n_n.lhsIdx j ((ValueIdx.contrEquiv1 Cert.ReferenceIdeal.dot_S10000x512_S512x512_S10000x512_1_0_0_1_n_n 512 rfl rfl).symm k) = drow j k := funext fun a => Fin.ext (by
    match a with
    | ⟨0, _⟩ => exact dl_0 _ _
    | ⟨1, _⟩ => exact (dl_1 _ _).trans hk)
  have er : Cert.ReferenceIdeal.dot_S10000x512_S512x512_S10000x512_1_0_0_1_n_n.rhsIdx j ((ValueIdx.contrEquiv1 Cert.ReferenceIdeal.dot_S10000x512_S512x512_S10000x512_1_0_0_1_n_n 512 rfl rfl).symm k) = dcol j k := funext fun a => Fin.ext (by
    match a with
    | ⟨0, _⟩ => exact (dr_0 _ _).trans hk
    | ⟨1, _⟩ => exact dr_1 _ _)
  rw [el, er]

/-- Row `j 0` of the top half, as an index of the stacked table. -/
abbrev upTop (j : S10000x512.Idx) : S20000x512.Idx := fun a => match a with
  | ⟨0, _⟩ => ⟨(j 0).val, by have h : (j 0).val < 10000 := (j 0).isLt; show (j 0).val < 20000; omega⟩
  | ⟨1, _⟩ => ⟨(j 1).val, (j 1).isLt⟩
/-- Row `j 0` of the bottom half, as an index of the stacked table. -/
abbrev upBot (j : S10000x512.Idx) : S20000x512.Idx := fun a => match a with
  | ⟨0, _⟩ => ⟨10000 + (j 0).val, by have h : (j 0).val < 10000 := (j 0).isLt; show 10000 + (j 0).val < 20000; omega⟩
  | ⟨1, _⟩ => ⟨(j 1).val, (j 1).isLt⟩

/-- The top half read at an index. -/
theorem top_apply (X : FV S20000x512) (j : S10000x512.Idx) : top X j = X (upTop j) := by
  unfold top
  refine extractStridedSlice_apply ![0, 0] X slices_S20000x512_S10000x512_0_0 j (upTop j) fun a => ?_
  match a with
  | ⟨0, _⟩ => exact (Nat.zero_add _).symm
  | ⟨1, _⟩ => exact (Nat.zero_add _).symm

/-- The bottom half read at an index. -/
theorem bottom_apply (X : FV S20000x512) (j : S10000x512.Idx) : bottom X j = X (upBot j) := by
  unfold bottom
  refine extractStridedSlice_apply ![10000, 0] X slices_S20000x512_S10000x512_10000_0 j (upBot j) fun a => ?_
  match a with
  | ⟨0, _⟩ => rfl
  | ⟨1, _⟩ => exact (Nat.zero_add _).symm

/-- The stacked table read in its top half. -/
theorem stack_top (A B : FV S10000x512) (j : S10000x512.Idx) (k : Fin 512) :
    stack A B (rowAt (upTop j) k) = A (drow j k) := by
  unfold stack
  refine concatenate_pair_apply_left (t := S20000x512) (s₁ := S10000x512) (s₂ := S10000x512) 0 A B
    concatenates_S10000x512_S10000x512_S20000x512_d0 (rowAt (upTop j) k) rfl (drow j k) fun b => ?_
  match b with
  | ⟨0, _⟩ => rfl
  | ⟨1, _⟩ => rfl

/-- The stacked table read in its bottom half. -/
theorem stack_bottom (A B : FV S10000x512) (j : S10000x512.Idx) (k : Fin 512) :
    stack A B (rowAt (upBot j) k) = B (drow j k) := by
  unfold stack
  refine concatenate_pair_apply_right (t := S20000x512) (s₁ := S10000x512) (s₂ := S10000x512) 0 A B
    concatenates_S10000x512_S10000x512_S20000x512_d0 (rowAt (upBot j) k) rfl rfl (drow j k) (fun b hb => ?_) ?_
  · match b with
    | ⟨0, _⟩ => exact absurd rfl hb
    | ⟨1, _⟩ => rfl
  · show (j 0).val + 10000 = 10000 + (j 0).val
    omega

theorem col_top (j : S10000x512.Idx) (k : Fin 512) : colAt (upTop j) k = dcol j k := funext fun a => Fin.ext (by
  match a with
  | ⟨0, _⟩ => rfl
  | ⟨1, _⟩ => rfl)
theorem col_bottom (j : S10000x512.Idx) (k : Fin 512) : colAt (upBot j) k = dcol j k := funext fun a => Fin.ext (by
  match a with
  | ⟨0, _⟩ => rfl
  | ⟨1, _⟩ => rfl)

/-- The top half of the stacked product is the product of the top table. -/
theorem top_mm_stack (A B : FV S10000x512) (W : FV S512x512) : top (mm (stack A B) W) = dense A W := by
  funext j
  refine (top_apply _ j).trans ?_
  refine Eq.trans ?_ (dense_apply A W j).symm
  unfold mm
  refine Finset.sum_congr rfl fun k _ => ?_
  rw [stack_top, col_top]

/-- The bottom half of the stacked product is the product of the bottom table. -/
theorem bottom_mm_stack (A B : FV S10000x512) (W : FV S512x512) : bottom (mm (stack A B) W) = dense B W := by
  funext j
  refine (bottom_apply _ j).trans ?_
  refine Eq.trans ?_ (dense_apply B W j).symm
  unfold mm
  refine Finset.sum_congr rfl fun k _ => ?_
  rw [stack_bottom, col_bottom]

end Cert.Bridge

end
-- ==== Proof.KStageA.lean ====
/-
  The kernel's program before its first region: the two graphs' edge lists and the two input tables stacked.
-/
import proofs.«130762_j21105469293031_1_alg».proof.Proof.Gen.KernelIdeal.Launch
import proofs.«130762_j21105469293031_1_alg».proof.Proof.KSpec
import Idealize.ShloMosaic.Lib.Tactic

set_option maxRecDepth 16384

noncomputable section

namespace Cert.KernelIdeal.KStage

open Cert.KernelIdeal Cert.KernelIdeal.Gen Cert.KernelIdeal.KSpec Cert.Spec
open Idealize.ShloMosaic Idealize.ShloMosaic.TcCoe Idealize.ShloMosaic.StableHlo Idealize.ShloMosaic.Tactic

variable (V : Valuation τ sig (Elt Ideal))

set_option maxHeartbeats 4000000 in
/-- The sources of graph 1. -/
theorem stageA_v1 : after (hostOps0 (F := Ideal)) V (Proc.devRef .tc main_v1)
    = srcs (V (Proc.devRef .tc main_arg2)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_foldK, catRows_foldK, stack_fold]
  <;> sl_kernel_rfl
set_option maxHeartbeats 4000000 in
/-- The targets of graph 1. -/
theorem stageA_v3 : after (hostOps0 (F := Ideal)) V (Proc.devRef .tc main_v3)
    = dsts (V (Proc.devRef .tc main_arg2)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_foldK, catRows_foldK, stack_fold]
  <;> sl_kernel_rfl
set_option maxHeartbeats 4000000 in
/-- The sources of graph 2. -/
theorem stageA_v5 : after (hostOps0 (F := Ideal)) V (Proc.devRef .tc main_v5)
    = srcs (V (Proc.devRef .tc main_arg3)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_foldK, catRows_foldK, stack_fold]
  <;> sl_kernel_rfl
set_option maxHeartbeats 4000000 in
/-- The targets of graph 2. -/
theorem stageA_v7 : after (hostOps0 (F := Ideal)) V (Proc.devRef .tc main_v7)
    = dsts (V (Proc.devRef .tc main_arg3)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_foldK, catRows_foldK, stack_fold]
  <;> sl_kernel_rfl
set_option maxHeartbeats 4000000 in
/-- The stacked input tables. -/
theorem stageA_v8 : after (hostOps0 (F := Ideal)) V (Proc.devRef .tc main_v8)
    = stack (V (Proc.devRef .tc main_arg0)) (V (Proc.devRef .tc main_arg1)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_foldK, catRows_foldK, stack_fold]
  <;> sl_kernel_rfl
set_option maxHeartbeats 4000000 in
/-- None of these operations writes `main_arg0`. -/
theorem stageA_keeps_arg0 : after (hostOps0 (F := Ideal)) V (Proc.devRef .tc main_arg0) = V (Proc.devRef .tc main_arg0) := by
  after_results_simp
set_option maxHeartbeats 4000000 in
/-- None of these operations writes `main_arg1`. -/
theorem stageA_keeps_arg1 : after (hostOps0 (F := Ideal)) V (Proc.devRef .tc main_arg1) = V (Proc.devRef .tc main_arg1) := by
  after_results_simp
set_option maxHeartbeats 4000000 in
/-- None of these operations writes `main_arg2`. -/
theorem stageA_keeps_arg2 : after (hostOps0 (F := Ideal)) V (Proc.devRef .tc main_arg2) = V (Proc.devRef .tc main_arg2) := by
  after_results_simp
set_option maxHeartbeats 4000000 in
/-- None of these operations writes `main_arg3`. -/
theorem stageA_keeps_arg3 : after (hostOps0 (F := Ideal)) V (Proc.devRef .tc main_arg3) = V (Proc.devRef .tc main_arg3) := by
  after_results_simp
set_option maxHeartbeats 4000000 in
/-- None of these operations writes `main_arg4`. -/
theorem stageA_keeps_arg4 : after (hostOps0 (F := Ideal)) V (Proc.devRef .tc main_arg4) = V (Proc.devRef .tc main_arg4) := by
  after_results_simp
set_option maxHeartbeats 4000000 in
/-- None of these operations writes `main_arg5`. -/
theorem stageA_keeps_arg5 : after (hostOps0 (F := Ideal)) V (Proc.devRef .tc main_arg5) = V (Proc.devRef .tc main_arg5) := by
  after_results_simp
set_option maxHeartbeats 4000000 in
/-- None of these operations writes `main_arg6`. -/
theorem stageA_keeps_arg6 : after (hostOps0 (F := Ideal)) V (Proc.devRef .tc main_arg6) = V (Proc.devRef .tc main_arg6) := by
  after_results_simp
set_option maxHeartbeats 4000000 in
/-- None of these operations writes `main_arg7`. -/
theorem stageA_keeps_arg7 : after (hostOps0 (F := Ideal)) V (Proc.devRef .tc main_arg7) = V (Proc.devRef .tc main_arg7) := by
  after_results_simp
set_option maxHeartbeats 4000000 in
/-- None of these operations writes `main_arg8`. -/
theorem stageA_keeps_arg8 : after (hostOps0 (F := Ideal)) V (Proc.devRef .tc main_arg8) = V (Proc.devRef .tc main_arg8) := by
  after_results_simp
set_option maxHeartbeats 4000000 in
/-- None of these operations writes `main_arg9`. -/
theorem stageA_keeps_arg9 : after (hostOps0 (F := Ideal)) V (Proc.devRef .tc main_arg9) = V (Proc.devRef .tc main_arg9) := by
  after_results_simp
set_option maxHeartbeats 4000000 in
/-- None of these operations writes `main_arg10`. -/
theorem stageA_keeps_arg10 : after (hostOps0 (F := Ideal)) V (Proc.devRef .tc main_arg10) = V (Proc.devRef .tc main_arg10) := by
  after_results_simp
set_option maxHeartbeats 4000000 in
/-- None of these operations writes `main_arg11`. -/
theorem stageA_keeps_arg11 : after (hostOps0 (F := Ideal)) V (Proc.devRef .tc main_arg11) = V (Proc.devRef .tc main_arg11) := by
  after_results_simp
set_option maxHeartbeats 4000000 in
/-- None of these operations writes `main_arg12`. -/
theorem stageA_keeps_arg12 : after (hostOps0 (F := Ideal)) V (Proc.devRef .tc main_arg12) = V (Proc.devRef .tc main_arg12) := by
  after_results_simp
set_option maxHeartbeats 4000000 in
/-- None of these operations writes `main_arg13`. -/
theorem stageA_keeps_arg13 : after (hostOps0 (F := Ideal)) V (Proc.devRef .tc main_arg13) = V (Proc.devRef .tc main_arg13) := by
  after_results_simp
end Cert.KernelIdeal.KStage

end
-- ==== Proof.KStageB.lean ====
/-
  The kernel's program between its first and second regions: both graphs' first layer on the halves of the first
  region's output, rectified and stacked again.
-/
import proofs.«130762_j21105469293031_1_alg».proof.Proof.Gen.KernelIdeal.Launch
import proofs.«130762_j21105469293031_1_alg».proof.Proof.KSpec
import Idealize.ShloMosaic.Lib.Tactic

set_option maxRecDepth 16384

noncomputable section

namespace Cert.KernelIdeal.KStage

open Cert.KernelIdeal Cert.KernelIdeal.Gen Cert.KernelIdeal.KSpec Cert.Spec
open Idealize.ShloMosaic Idealize.ShloMosaic.TcCoe Idealize.ShloMosaic.StableHlo Idealize.ShloMosaic.Tactic

variable (V : Valuation τ sig (Elt Ideal))

set_option maxHeartbeats 4000000 in
/-- The second region's stacked operand. -/
theorem stageB_v98 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_v98)
    = stack (relu (layer (top (V (Proc.devRef .tc main_v9))) (V (Proc.devRef .tc main_v1)) (V (Proc.devRef .tc main_v3)) (V (Proc.devRef .tc main_arg7)))) (relu (layer (bottom (V (Proc.devRef .tc main_v9))) (V (Proc.devRef .tc main_v5)) (V (Proc.devRef .tc main_v7)) (V (Proc.devRef .tc main_arg7)))) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_foldK, catRows_foldK, stack_fold]
  <;> sl_kernel_rfl
end Cert.KernelIdeal.KStage

end
-- ==== Proof.KStageBk.lean ====
/-
  What the operations between the first and second regions leave alone.
-/
import proofs.«130762_j21105469293031_1_alg».proof.Proof.Gen.KernelIdeal.Launch
import proofs.«130762_j21105469293031_1_alg».proof.Proof.KSpec
import Idealize.ShloMosaic.Lib.Tactic

set_option maxRecDepth 16384

noncomputable section

namespace Cert.KernelIdeal.KStage

open Cert.KernelIdeal Cert.KernelIdeal.Gen Cert.KernelIdeal.KSpec Cert.Spec
open Idealize.ShloMosaic Idealize.ShloMosaic.TcCoe Idealize.ShloMosaic.StableHlo Idealize.ShloMosaic.Tactic

variable (V : Valuation τ sig (Elt Ideal))

set_option maxHeartbeats 4000000 in
/-- None of these operations writes `main_v1`. -/
theorem stageB_keeps_v1 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_v1) = V (Proc.devRef .tc main_v1) := by
  after_results_simp
set_option maxHeartbeats 4000000 in
/-- None of these operations writes `main_v3`. -/
theorem stageB_keeps_v3 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_v3) = V (Proc.devRef .tc main_v3) := by
  after_results_simp
set_option maxHeartbeats 4000000 in
/-- None of these operations writes `main_v5`. -/
theorem stageB_keeps_v5 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_v5) = V (Proc.devRef .tc main_v5) := by
  after_results_simp
set_option maxHeartbeats 4000000 in
/-- None of these operations writes `main_v7`. -/
theorem stageB_keeps_v7 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_v7) = V (Proc.devRef .tc main_v7) := by
  after_results_simp
set_option maxHeartbeats 4000000 in
/-- None of these operations writes `main_arg5`. -/
theorem stageB_keeps_arg5 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_arg5) = V (Proc.devRef .tc main_arg5) := by
  after_results_simp
set_option maxHeartbeats 4000000 in
/-- None of these operations writes `main_arg6`. -/
theorem stageB_keeps_arg6 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_arg6) = V (Proc.devRef .tc main_arg6) := by
  after_results_simp
set_option maxHeartbeats 4000000 in
/-- None of these operations writes `main_arg8`. -/
theorem stageB_keeps_arg8 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_arg8) = V (Proc.devRef .tc main_arg8) := by
  after_results_simp
set_option maxHeartbeats 4000000 in
/-- None of these operations writes `main_arg9`. -/
theorem stageB_keeps_arg9 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_arg9) = V (Proc.devRef .tc main_arg9) := by
  after_results_simp
set_option maxHeartbeats 4000000 in
/-- None of these operations writes `main_arg10`. -/
theorem stageB_keeps_arg10 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_arg10) = V (Proc.devRef .tc main_arg10) := by
  after_results_simp
set_option maxHeartbeats 4000000 in
/-- None of these operations writes `main_arg11`. -/
theorem stageB_keeps_arg11 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_arg11) = V (Proc.devRef .tc main_arg11) := by
  after_results_simp
set_option maxHeartbeats 4000000 in
/-- None of these operations writes `main_arg12`. -/
theorem stageB_keeps_arg12 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_arg12) = V (Proc.devRef .tc main_arg12) := by
  after_results_simp
set_option maxHeartbeats 4000000 in
/-- None of these operations writes `main_arg13`. -/
theorem stageB_keeps_arg13 : after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) V))))))) (Proc.devRef .tc main_arg13) = V (Proc.devRef .tc main_arg13) := by
  after_results_simp
end Cert.KernelIdeal.KStage

end
-- ==== Proof.KStageC.lean ====
/-
  The kernel's program between its second and third regions: both graphs' second layer on the halves of the second
  region's output, rectified and stacked again.
-/
import proofs.«130762_j21105469293031_1_alg».proof.Proof.Gen.KernelIdeal.Launch
import proofs.«130762_j21105469293031_1_alg».proof.Proof.KSpec
import Idealize.ShloMosaic.Lib.Tactic

set_option maxRecDepth 16384

noncomputable section

namespace Cert.KernelIdeal.KStage

open Cert.KernelIdeal Cert.KernelIdeal.Gen Cert.KernelIdeal.KSpec Cert.Spec
open Idealize.ShloMosaic Idealize.ShloMosaic.TcCoe Idealize.ShloMosaic.StableHlo Idealize.ShloMosaic.Tactic

variable (V : Valuation τ sig (Elt Ideal))

set_option maxHeartbeats 4000000 in
/-- The third region's stacked operand. -/
theorem stageC_v188 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_v188)
    = stack (relu (layer (top (V (Proc.devRef .tc main_v99))) (V (Proc.devRef .tc main_v1)) (V (Proc.devRef .tc main_v3)) (V (Proc.devRef .tc main_arg8)))) (relu (layer (bottom (V (Proc.devRef .tc main_v99))) (V (Proc.devRef .tc main_v5)) (V (Proc.devRef .tc main_v7)) (V (Proc.devRef .tc main_arg8)))) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_foldK, catRows_foldK, stack_fold]
  <;> sl_kernel_rfl
end Cert.KernelIdeal.KStage

end
-- ==== Proof.KStageCk.lean ====
/-
  What the operations between the second and third regions leave alone.
-/
import proofs.«130762_j21105469293031_1_alg».proof.Proof.Gen.KernelIdeal.Launch
import proofs.«130762_j21105469293031_1_alg».proof.Proof.KSpec
import Idealize.ShloMosaic.Lib.Tactic

set_option maxRecDepth 16384

noncomputable section

namespace Cert.KernelIdeal.KStage

open Cert.KernelIdeal Cert.KernelIdeal.Gen Cert.KernelIdeal.KSpec Cert.Spec
open Idealize.ShloMosaic Idealize.ShloMosaic.TcCoe Idealize.ShloMosaic.StableHlo Idealize.ShloMosaic.Tactic

variable (V : Valuation τ sig (Elt Ideal))

set_option maxHeartbeats 4000000 in
/-- None of these operations writes `main_v1`. -/
theorem stageC_keeps_v1 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_v1) = V (Proc.devRef .tc main_v1) := by
  after_results_simp
set_option maxHeartbeats 4000000 in
/-- None of these operations writes `main_v3`. -/
theorem stageC_keeps_v3 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_v3) = V (Proc.devRef .tc main_v3) := by
  after_results_simp
set_option maxHeartbeats 4000000 in
/-- None of these operations writes `main_v5`. -/
theorem stageC_keeps_v5 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_v5) = V (Proc.devRef .tc main_v5) := by
  after_results_simp
set_option maxHeartbeats 4000000 in
/-- None of these operations writes `main_v7`. -/
theorem stageC_keeps_v7 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_v7) = V (Proc.devRef .tc main_v7) := by
  after_results_simp
set_option maxHeartbeats 4000000 in
/-- None of these operations writes `main_arg6`. -/
theorem stageC_keeps_arg6 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_arg6) = V (Proc.devRef .tc main_arg6) := by
  after_results_simp
set_option maxHeartbeats 4000000 in
/-- None of these operations writes `main_arg9`. -/
theorem stageC_keeps_arg9 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_arg9) = V (Proc.devRef .tc main_arg9) := by
  after_results_simp
set_option maxHeartbeats 4000000 in
/-- None of these operations writes `main_arg10`. -/
theorem stageC_keeps_arg10 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_arg10) = V (Proc.devRef .tc main_arg10) := by
  after_results_simp
set_option maxHeartbeats 4000000 in
/-- None of these operations writes `main_arg11`. -/
theorem stageC_keeps_arg11 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_arg11) = V (Proc.devRef .tc main_arg11) := by
  after_results_simp
set_option maxHeartbeats 4000000 in
/-- None of these operations writes `main_arg12`. -/
theorem stageC_keeps_arg12 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_arg12) = V (Proc.devRef .tc main_arg12) := by
  after_results_simp
set_option maxHeartbeats 4000000 in
/-- None of these operations writes `main_arg13`. -/
theorem stageC_keeps_arg13 : after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) V))))))) (Proc.devRef .tc main_arg13) = V (Proc.devRef .tc main_arg13) := by
  after_results_simp
end Cert.KernelIdeal.KStage

end
-- ==== Proof.KStageD.lean ====
/-
  The kernel's program after its third region: both graphs' last layer on the halves of the third region's output,
  the two averages, and the comparison head.
-/
import proofs.«130762_j21105469293031_1_alg».proof.Proof.Gen.KernelIdeal.Launch
import proofs.«130762_j21105469293031_1_alg».proof.Proof.KSpec
import Idealize.ShloMosaic.Lib.Tactic

set_option maxRecDepth 16384

noncomputable section

namespace Cert.KernelIdeal.KStage

open Cert.KernelIdeal Cert.KernelIdeal.Gen Cert.KernelIdeal.KSpec Cert.Spec
open Idealize.ShloMosaic Idealize.ShloMosaic.TcCoe Idealize.ShloMosaic.StableHlo Idealize.ShloMosaic.Tactic

variable (V : Valuation τ sig (Elt Ideal))

set_option maxHeartbeats 4000000 in
/-- The score. -/
theorem stageD_v297 : after (hostOps3_6 (F := Ideal)) (after (hostOps3_5 (F := Ideal)) (after (hostOps3_4 (F := Ideal)) (after (hostOps3_3 (F := Ideal)) (after (hostOps3_2 (F := Ideal)) (after (hostOps3_1 (F := Ideal)) (after (hostOps3 (F := Ideal)) V)))))) (Proc.devRef .tc main_v297)
    = head (meanRow (layer (top (V (Proc.devRef .tc main_v189))) (V (Proc.devRef .tc main_v1)) (V (Proc.devRef .tc main_v3)) (V (Proc.devRef .tc main_arg9)))) (meanRow (layer (bottom (V (Proc.devRef .tc main_v189))) (V (Proc.devRef .tc main_v5)) (V (Proc.devRef .tc main_v7)) (V (Proc.devRef .tc main_arg9)))) (V (Proc.devRef .tc main_arg10)) (V (Proc.devRef .tc main_arg11)) (V (Proc.devRef .tc main_arg12)) (V (Proc.devRef .tc main_arg13)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_foldK, catRows_foldK, stack_fold]
  <;> sl_kernel_rfl
end Cert.KernelIdeal.KStage

end
-- ==== Proof.KValue.lean ====
/-
  The kernel's program's result as a function of its arguments.

  Boundary by boundary: the first stretch of host operations cuts the edge lists and stacks the two input tables; each
  region leaves the stacked table times its weight; each stretch between regions applies one layer to the two halves,
  rectifies and stacks again; the last stretch applies the last layer, averages, and applies the head. With the halves
  of a stacked product rewritten as the host's products of the two tables, the result is the head of the two graphs'
  averaged three-layer embeddings.
-/
import proofs.«130762_j21105469293031_1_alg».proof.Proof.Gen.KernelIdeal.Frame
import proofs.«130762_j21105469293031_1_alg».proof.Proof.Region
import proofs.«130762_j21105469293031_1_alg».proof.Proof.Bridge
import proofs.«130762_j21105469293031_1_alg».proof.Proof.KStageA
import proofs.«130762_j21105469293031_1_alg».proof.Proof.KStageB
import proofs.«130762_j21105469293031_1_alg».proof.Proof.KStageBk
import proofs.«130762_j21105469293031_1_alg».proof.Proof.KStageC
import proofs.«130762_j21105469293031_1_alg».proof.Proof.KStageCk
import proofs.«130762_j21105469293031_1_alg».proof.Proof.KStageD

set_option maxRecDepth 16384

noncomputable section

namespace Cert.KernelIdeal.KValue

open Cert.KernelIdeal Cert.KernelIdeal.Gen Cert.KernelIdeal.Product Cert.KernelIdeal.Region Cert.KernelIdeal.KSpec
open Cert.KernelIdeal.KStage Cert.Spec Cert.Bridge
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

theorem w1_v1 : W1 m ρ c (Proc.devRef .tc main_v1) = srcs (W0 m ρ c (Proc.devRef .tc main_arg2)) := stageA_v1 (W0 m ρ c)
theorem w1_v3 : W1 m ρ c (Proc.devRef .tc main_v3) = dsts (W0 m ρ c (Proc.devRef .tc main_arg2)) := stageA_v3 (W0 m ρ c)
theorem w1_v5 : W1 m ρ c (Proc.devRef .tc main_v5) = srcs (W0 m ρ c (Proc.devRef .tc main_arg3)) := stageA_v5 (W0 m ρ c)
theorem w1_v7 : W1 m ρ c (Proc.devRef .tc main_v7) = dsts (W0 m ρ c (Proc.devRef .tc main_arg3)) := stageA_v7 (W0 m ρ c)
theorem w1_v8 : W1 m ρ c (Proc.devRef .tc main_v8) = stack (W0 m ρ c (Proc.devRef .tc main_arg0)) (W0 m ρ c (Proc.devRef .tc main_arg1)) := stageA_v8 (W0 m ρ c)
theorem w1_arg4 : W1 m ρ c (Proc.devRef .tc main_arg4) = W0 m ρ c (Proc.devRef .tc main_arg4) := stageA_keeps_arg4 (W0 m ρ c)
theorem w1_arg5 : W1 m ρ c (Proc.devRef .tc main_arg5) = W0 m ρ c (Proc.devRef .tc main_arg5) := stageA_keeps_arg5 (W0 m ρ c)
theorem w1_arg6 : W1 m ρ c (Proc.devRef .tc main_arg6) = W0 m ρ c (Proc.devRef .tc main_arg6) := stageA_keeps_arg6 (W0 m ρ c)
theorem w1_arg7 : W1 m ρ c (Proc.devRef .tc main_arg7) = W0 m ρ c (Proc.devRef .tc main_arg7) := stageA_keeps_arg7 (W0 m ρ c)
theorem w1_arg8 : W1 m ρ c (Proc.devRef .tc main_arg8) = W0 m ρ c (Proc.devRef .tc main_arg8) := stageA_keeps_arg8 (W0 m ρ c)
theorem w1_arg9 : W1 m ρ c (Proc.devRef .tc main_arg9) = W0 m ρ c (Proc.devRef .tc main_arg9) := stageA_keeps_arg9 (W0 m ρ c)
theorem w1_arg10 : W1 m ρ c (Proc.devRef .tc main_arg10) = W0 m ρ c (Proc.devRef .tc main_arg10) := stageA_keeps_arg10 (W0 m ρ c)
theorem w1_arg11 : W1 m ρ c (Proc.devRef .tc main_arg11) = W0 m ρ c (Proc.devRef .tc main_arg11) := stageA_keeps_arg11 (W0 m ρ c)
theorem w1_arg12 : W1 m ρ c (Proc.devRef .tc main_arg12) = W0 m ρ c (Proc.devRef .tc main_arg12) := stageA_keeps_arg12 (W0 m ρ c)
theorem w1_arg13 : W1 m ρ c (Proc.devRef .tc main_arg13) = W0 m ρ c (Proc.devRef .tc main_arg13) := stageA_keeps_arg13 (W0 m ρ c)

/-! ## After the first region -/

/-- The first region's output: the stacked input tables times the first weight. -/
theorem w2_v9 : W2 m ρ c (Proc.devRef .tc main_v9) = mm (stack (W0 m ρ c (Proc.devRef .tc main_arg0)) (W0 m ρ c (Proc.devRef .tc main_arg1))) (W0 m ρ c (Proc.devRef .tc main_arg4)) := by
  refine ((W2_arr m ρ c 2).trans (final0 (V1 m ρ) c)).trans ?_
  show mm (W1 m ρ c (Proc.devRef .tc main_v8)) (W1 m ρ c (Proc.devRef .tc main_arg4)) = _
  rw [w1_v8, w1_arg4]
theorem w2_v1 : W2 m ρ c (Proc.devRef .tc main_v1) = W1 m ρ c (Proc.devRef .tc main_v1) := W2_of_ne m ρ c main_v1 (by decide)
theorem w2_v3 : W2 m ρ c (Proc.devRef .tc main_v3) = W1 m ρ c (Proc.devRef .tc main_v3) := W2_of_ne m ρ c main_v3 (by decide)
theorem w2_v5 : W2 m ρ c (Proc.devRef .tc main_v5) = W1 m ρ c (Proc.devRef .tc main_v5) := W2_of_ne m ρ c main_v5 (by decide)
theorem w2_v7 : W2 m ρ c (Proc.devRef .tc main_v7) = W1 m ρ c (Proc.devRef .tc main_v7) := W2_of_ne m ρ c main_v7 (by decide)
theorem w2_arg5 : W2 m ρ c (Proc.devRef .tc main_arg5) = W1 m ρ c (Proc.devRef .tc main_arg5) := W2_of_ne m ρ c main_arg5 (by decide)
theorem w2_arg6 : W2 m ρ c (Proc.devRef .tc main_arg6) = W1 m ρ c (Proc.devRef .tc main_arg6) := W2_of_ne m ρ c main_arg6 (by decide)
theorem w2_arg7 : W2 m ρ c (Proc.devRef .tc main_arg7) = W1 m ρ c (Proc.devRef .tc main_arg7) := W2_of_ne m ρ c main_arg7 (by decide)
theorem w2_arg8 : W2 m ρ c (Proc.devRef .tc main_arg8) = W1 m ρ c (Proc.devRef .tc main_arg8) := W2_of_ne m ρ c main_arg8 (by decide)
theorem w2_arg9 : W2 m ρ c (Proc.devRef .tc main_arg9) = W1 m ρ c (Proc.devRef .tc main_arg9) := W2_of_ne m ρ c main_arg9 (by decide)
theorem w2_arg10 : W2 m ρ c (Proc.devRef .tc main_arg10) = W1 m ρ c (Proc.devRef .tc main_arg10) := W2_of_ne m ρ c main_arg10 (by decide)
theorem w2_arg11 : W2 m ρ c (Proc.devRef .tc main_arg11) = W1 m ρ c (Proc.devRef .tc main_arg11) := W2_of_ne m ρ c main_arg11 (by decide)
theorem w2_arg12 : W2 m ρ c (Proc.devRef .tc main_arg12) = W1 m ρ c (Proc.devRef .tc main_arg12) := W2_of_ne m ρ c main_arg12 (by decide)
theorem w2_arg13 : W2 m ρ c (Proc.devRef .tc main_arg13) = W1 m ρ c (Proc.devRef .tc main_arg13) := W2_of_ne m ρ c main_arg13 (by decide)

/-- Graph 1's table after the first layer. -/
abbrev h1a : FV S10000x512 := layer (dense (W0 m ρ c (Proc.devRef .tc main_arg0)) (W0 m ρ c (Proc.devRef .tc main_arg4))) (srcs (W0 m ρ c (Proc.devRef .tc main_arg2))) (dsts (W0 m ρ c (Proc.devRef .tc main_arg2))) (W0 m ρ c (Proc.devRef .tc main_arg7))
/-- Graph 2's table after the first layer. -/
abbrev h1b : FV S10000x512 := layer (dense (W0 m ρ c (Proc.devRef .tc main_arg1)) (W0 m ρ c (Proc.devRef .tc main_arg4))) (srcs (W0 m ρ c (Proc.devRef .tc main_arg3))) (dsts (W0 m ρ c (Proc.devRef .tc main_arg3))) (W0 m ρ c (Proc.devRef .tc main_arg7))

/-- The second region's stacked operand: both graphs' rectified first-layer tables. -/
theorem w10_v98 : W10 m ρ c (Proc.devRef .tc main_v98) = stack (relu (h1a m ρ c)) (relu (h1b m ρ c)) := by
  refine (stageB_v98 (W2 m ρ c)).trans ?_
  rw [w2_v9, w2_v1, w2_v3, w2_v5, w2_v7, w2_arg7, w1_v1, w1_v3, w1_v5, w1_v7, w1_arg7, top_mm_stack, bottom_mm_stack]
theorem w10_v1 : W10 m ρ c (Proc.devRef .tc main_v1) = W2 m ρ c (Proc.devRef .tc main_v1) := stageB_keeps_v1 (W2 m ρ c)
theorem w10_v3 : W10 m ρ c (Proc.devRef .tc main_v3) = W2 m ρ c (Proc.devRef .tc main_v3) := stageB_keeps_v3 (W2 m ρ c)
theorem w10_v5 : W10 m ρ c (Proc.devRef .tc main_v5) = W2 m ρ c (Proc.devRef .tc main_v5) := stageB_keeps_v5 (W2 m ρ c)
theorem w10_v7 : W10 m ρ c (Proc.devRef .tc main_v7) = W2 m ρ c (Proc.devRef .tc main_v7) := stageB_keeps_v7 (W2 m ρ c)
theorem w10_arg5 : W10 m ρ c (Proc.devRef .tc main_arg5) = W2 m ρ c (Proc.devRef .tc main_arg5) := stageB_keeps_arg5 (W2 m ρ c)
theorem w10_arg6 : W10 m ρ c (Proc.devRef .tc main_arg6) = W2 m ρ c (Proc.devRef .tc main_arg6) := stageB_keeps_arg6 (W2 m ρ c)
theorem w10_arg8 : W10 m ρ c (Proc.devRef .tc main_arg8) = W2 m ρ c (Proc.devRef .tc main_arg8) := stageB_keeps_arg8 (W2 m ρ c)
theorem w10_arg9 : W10 m ρ c (Proc.devRef .tc main_arg9) = W2 m ρ c (Proc.devRef .tc main_arg9) := stageB_keeps_arg9 (W2 m ρ c)
theorem w10_arg10 : W10 m ρ c (Proc.devRef .tc main_arg10) = W2 m ρ c (Proc.devRef .tc main_arg10) := stageB_keeps_arg10 (W2 m ρ c)
theorem w10_arg11 : W10 m ρ c (Proc.devRef .tc main_arg11) = W2 m ρ c (Proc.devRef .tc main_arg11) := stageB_keeps_arg11 (W2 m ρ c)
theorem w10_arg12 : W10 m ρ c (Proc.devRef .tc main_arg12) = W2 m ρ c (Proc.devRef .tc main_arg12) := stageB_keeps_arg12 (W2 m ρ c)
theorem w10_arg13 : W10 m ρ c (Proc.devRef .tc main_arg13) = W2 m ρ c (Proc.devRef .tc main_arg13) := stageB_keeps_arg13 (W2 m ρ c)

/-! ## After the second region -/

theorem w11_v99 : W11 m ρ c (Proc.devRef .tc main_v99) = mm (stack (relu (h1a m ρ c)) (relu (h1b m ρ c))) (W0 m ρ c (Proc.devRef .tc main_arg5)) := by
  refine ((W11_arr m ρ c 2).trans (final1 (V10 m ρ) c)).trans ?_
  show mm (W10 m ρ c (Proc.devRef .tc main_v98)) (W10 m ρ c (Proc.devRef .tc main_arg5)) = _
  rw [w10_v98, w10_arg5, w2_arg5, w1_arg5]
theorem w11_v1 : W11 m ρ c (Proc.devRef .tc main_v1) = W10 m ρ c (Proc.devRef .tc main_v1) := W11_of_ne m ρ c main_v1 (by decide)
theorem w11_v3 : W11 m ρ c (Proc.devRef .tc main_v3) = W10 m ρ c (Proc.devRef .tc main_v3) := W11_of_ne m ρ c main_v3 (by decide)
theorem w11_v5 : W11 m ρ c (Proc.devRef .tc main_v5) = W10 m ρ c (Proc.devRef .tc main_v5) := W11_of_ne m ρ c main_v5 (by decide)
theorem w11_v7 : W11 m ρ c (Proc.devRef .tc main_v7) = W10 m ρ c (Proc.devRef .tc main_v7) := W11_of_ne m ρ c main_v7 (by decide)
theorem w11_arg6 : W11 m ρ c (Proc.devRef .tc main_arg6) = W10 m ρ c (Proc.devRef .tc main_arg6) := W11_of_ne m ρ c main_arg6 (by decide)
theorem w11_arg8 : W11 m ρ c (Proc.devRef .tc main_arg8) = W10 m ρ c (Proc.devRef .tc main_arg8) := W11_of_ne m ρ c main_arg8 (by decide)
theorem w11_arg9 : W11 m ρ c (Proc.devRef .tc main_arg9) = W10 m ρ c (Proc.devRef .tc main_arg9) := W11_of_ne m ρ c main_arg9 (by decide)
theorem w11_arg10 : W11 m ρ c (Proc.devRef .tc main_arg10) = W10 m ρ c (Proc.devRef .tc main_arg10) := W11_of_ne m ρ c main_arg10 (by decide)
theorem w11_arg11 : W11 m ρ c (Proc.devRef .tc main_arg11) = W10 m ρ c (Proc.devRef .tc main_arg11) := W11_of_ne m ρ c main_arg11 (by decide)
theorem w11_arg12 : W11 m ρ c (Proc.devRef .tc main_arg12) = W10 m ρ c (Proc.devRef .tc main_arg12) := W11_of_ne m ρ c main_arg12 (by decide)
theorem w11_arg13 : W11 m ρ c (Proc.devRef .tc main_arg13) = W10 m ρ c (Proc.devRef .tc main_arg13) := W11_of_ne m ρ c main_arg13 (by decide)

/-- Graph 1's table after the second layer. -/
abbrev h2a : FV S10000x512 := layer (dense (relu (h1a m ρ c)) (W0 m ρ c (Proc.devRef .tc main_arg5))) (srcs (W0 m ρ c (Proc.devRef .tc main_arg2))) (dsts (W0 m ρ c (Proc.devRef .tc main_arg2))) (W0 m ρ c (Proc.devRef .tc main_arg8))
/-- Graph 2's table after the second layer. -/
abbrev h2b : FV S10000x512 := layer (dense (relu (h1b m ρ c)) (W0 m ρ c (Proc.devRef .tc main_arg5))) (srcs (W0 m ρ c (Proc.devRef .tc main_arg3))) (dsts (W0 m ρ c (Proc.devRef .tc main_arg3))) (W0 m ρ c (Proc.devRef .tc main_arg8))

theorem w19_v188 : W19 m ρ c (Proc.devRef .tc main_v188) = stack (relu (h2a m ρ c)) (relu (h2b m ρ c)) := by
  refine (stageC_v188 (W11 m ρ c)).trans ?_
  rw [w11_v99, w11_v1, w11_v3, w11_v5, w11_v7, w11_arg8, w10_v1, w10_v3, w10_v5, w10_v7, w10_arg8, w2_v1, w2_v3, w2_v5, w2_v7, w2_arg8,
    w1_v1, w1_v3, w1_v5, w1_v7, w1_arg8, top_mm_stack, bottom_mm_stack]
theorem w19_v1 : W19 m ρ c (Proc.devRef .tc main_v1) = W11 m ρ c (Proc.devRef .tc main_v1) := stageC_keeps_v1 (W11 m ρ c)
theorem w19_v3 : W19 m ρ c (Proc.devRef .tc main_v3) = W11 m ρ c (Proc.devRef .tc main_v3) := stageC_keeps_v3 (W11 m ρ c)
theorem w19_v5 : W19 m ρ c (Proc.devRef .tc main_v5) = W11 m ρ c (Proc.devRef .tc main_v5) := stageC_keeps_v5 (W11 m ρ c)
theorem w19_v7 : W19 m ρ c (Proc.devRef .tc main_v7) = W11 m ρ c (Proc.devRef .tc main_v7) := stageC_keeps_v7 (W11 m ρ c)
theorem w19_arg6 : W19 m ρ c (Proc.devRef .tc main_arg6) = W11 m ρ c (Proc.devRef .tc main_arg6) := stageC_keeps_arg6 (W11 m ρ c)
theorem w19_arg9 : W19 m ρ c (Proc.devRef .tc main_arg9) = W11 m ρ c (Proc.devRef .tc main_arg9) := stageC_keeps_arg9 (W11 m ρ c)
theorem w19_arg10 : W19 m ρ c (Proc.devRef .tc main_arg10) = W11 m ρ c (Proc.devRef .tc main_arg10) := stageC_keeps_arg10 (W11 m ρ c)
theorem w19_arg11 : W19 m ρ c (Proc.devRef .tc main_arg11) = W11 m ρ c (Proc.devRef .tc main_arg11) := stageC_keeps_arg11 (W11 m ρ c)
theorem w19_arg12 : W19 m ρ c (Proc.devRef .tc main_arg12) = W11 m ρ c (Proc.devRef .tc main_arg12) := stageC_keeps_arg12 (W11 m ρ c)
theorem w19_arg13 : W19 m ρ c (Proc.devRef .tc main_arg13) = W11 m ρ c (Proc.devRef .tc main_arg13) := stageC_keeps_arg13 (W11 m ρ c)

/-! ## After the third region -/

theorem w20_v189 : W20 m ρ c (Proc.devRef .tc main_v189) = mm (stack (relu (h2a m ρ c)) (relu (h2b m ρ c))) (W0 m ρ c (Proc.devRef .tc main_arg6)) := by
  refine ((W20_arr m ρ c 2).trans (final2 (V19 m ρ) c)).trans ?_
  show mm (W19 m ρ c (Proc.devRef .tc main_v188)) (W19 m ρ c (Proc.devRef .tc main_arg6)) = _
  rw [w19_v188, w19_arg6, w11_arg6, w10_arg6, w2_arg6, w1_arg6]
theorem w20_v1 : W20 m ρ c (Proc.devRef .tc main_v1) = W19 m ρ c (Proc.devRef .tc main_v1) := W20_of_ne m ρ c main_v1 (by decide)
theorem w20_v3 : W20 m ρ c (Proc.devRef .tc main_v3) = W19 m ρ c (Proc.devRef .tc main_v3) := W20_of_ne m ρ c main_v3 (by decide)
theorem w20_v5 : W20 m ρ c (Proc.devRef .tc main_v5) = W19 m ρ c (Proc.devRef .tc main_v5) := W20_of_ne m ρ c main_v5 (by decide)
theorem w20_v7 : W20 m ρ c (Proc.devRef .tc main_v7) = W19 m ρ c (Proc.devRef .tc main_v7) := W20_of_ne m ρ c main_v7 (by decide)
theorem w20_arg9 : W20 m ρ c (Proc.devRef .tc main_arg9) = W19 m ρ c (Proc.devRef .tc main_arg9) := W20_of_ne m ρ c main_arg9 (by decide)
theorem w20_arg10 : W20 m ρ c (Proc.devRef .tc main_arg10) = W19 m ρ c (Proc.devRef .tc main_arg10) := W20_of_ne m ρ c main_arg10 (by decide)
theorem w20_arg11 : W20 m ρ c (Proc.devRef .tc main_arg11) = W19 m ρ c (Proc.devRef .tc main_arg11) := W20_of_ne m ρ c main_arg11 (by decide)
theorem w20_arg12 : W20 m ρ c (Proc.devRef .tc main_arg12) = W19 m ρ c (Proc.devRef .tc main_arg12) := W20_of_ne m ρ c main_arg12 (by decide)
theorem w20_arg13 : W20 m ρ c (Proc.devRef .tc main_arg13) = W19 m ρ c (Proc.devRef .tc main_arg13) := W20_of_ne m ρ c main_arg13 (by decide)

/-- The kernel's program's result: the head of the two graphs' averaged embeddings of its arguments. -/
theorem result : W27 m ρ c (Proc.devRef .tc main_v297)
    = head (meanRow (embed (W0 m ρ c (Proc.devRef .tc main_arg0)) (W0 m ρ c (Proc.devRef .tc main_arg2)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9))))
        (meanRow (embed (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9))))
        (W0 m ρ c (Proc.devRef .tc main_arg10)) (W0 m ρ c (Proc.devRef .tc main_arg11)) (W0 m ρ c (Proc.devRef .tc main_arg12)) (W0 m ρ c (Proc.devRef .tc main_arg13)) := by
  refine (stageD_v297 (W20 m ρ c)).trans ?_
  rw [w20_v189, w20_v1, w20_v3, w20_v5, w20_v7, w20_arg9, w20_arg10, w20_arg11, w20_arg12, w20_arg13,
    w19_v1, w19_v3, w19_v5, w19_v7, w19_arg9, w19_arg10, w19_arg11, w19_arg12, w19_arg13,
    w11_v1, w11_v3, w11_v5, w11_v7, w11_arg9, w11_arg10, w11_arg11, w11_arg12, w11_arg13,
    w10_v1, w10_v3, w10_v5, w10_v7, w10_arg9, w10_arg10, w10_arg11, w10_arg12, w10_arg13,
    w2_v1, w2_v3, w2_v5, w2_v7, w2_arg9, w2_arg10, w2_arg11, w2_arg12, w2_arg13,
    w1_v1, w1_v3, w1_v5, w1_v7, w1_arg9, w1_arg10, w1_arg11, w1_arg12, w1_arg13, top_mm_stack, bottom_mm_stack]
  rfl

end Cert.KernelIdeal.KValue

end
-- ==== Proof.LibAfterAppend.lean ====
/-
  The contents after a line of host operations, for a line given as two lines one after the other: run the first,
  then the second from what the first leaves.
-/
import Idealize.ShloMosaic.Lib.StableHlo.Run

namespace Cert.Lib

open Idealize.ShloMosaic Idealize.ShloMosaic.StableHlo

/-- The buffer contents after the operations `a ++ b` are those after `b`, started from the contents after `a`. -/
theorem after_append {τ : Topo} {sig : RefSig} {Val : EltTy → Type} (a b : List (HloOp τ sig Val)) (V : Valuation τ sig Val) :
    after (a ++ b) V = after b (after a V) := by
  induction a generalizing V with
  | nil => rfl
  | cons op ops ih =>
    rw [List.cons_append, after_cons, after_cons]
    exact ih _

end Cert.Lib
-- ==== Proof.RefRun.lean ====
/-
  The reference's run.

  The reference is a straight line of 386 host operations. Every weakly fair execution of it terminates, nothing
  faulting, with every TensorCore buffer at the fold of the operations' results over the launch contents. The line is
  kept as nine consecutive pieces, so the fold over the whole line is the nine pieces' folds one after the other.
-/
import proofs.«130762_j21105469293031_1_alg».proof.Proof.RefOps
import proofs.«130762_j21105469293031_1_alg».proof.Proof.LibAfterAppend

set_option maxRecDepth 65536

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- @main is the line of its operations. -/
theorem main_eq (c : Dev nD) : main (F := F) c = seq (ops (F := F)) := rfl

/-- Every operation touches TensorCore references only. -/
theorem ops_sub : (ops : List (HloOp τ sig (Elt F))).Forall fun op => op.bufs ⊆ tcRefs τ sig :=
  List.forall_iff_forall_mem.mpr fun op h => by
    have h' : op ∈ ops0 ++ ops1 ++ ops2 ++ ops3 ++ ops4 ++ ops5 ++ ops6 ++ ops7 ++ ops8 := h
    simp only [List.mem_append] at h'
    rcases h' with ((((((((h | h) | h) | h) | h) | h) | h) | h) | h)
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h
    · exact List.forall_iff_forall_mem.mp ops7_sub op h
    · exact List.forall_iff_forall_mem.mp ops8_sub op h

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor
theorem ops5_fresh : (ops5 : List (HloOp τ sig (Elt F))).Forall fun op => op.fresh = ∅ := by
  simp only [List.Forall]; repeat' constructor
theorem ops6_fresh : (ops6 : List (HloOp τ sig (Elt F))).Forall fun op => op.fresh = ∅ := by
  simp only [List.Forall]; repeat' constructor
theorem ops7_fresh : (ops7 : List (HloOp τ sig (Elt F))).Forall fun op => op.fresh = ∅ := by
  simp only [List.Forall]; repeat' constructor
theorem ops8_fresh : (ops8 : List (HloOp τ sig (Elt F))).Forall fun op => op.fresh = ∅ := by
  simp only [List.Forall]; repeat' constructor

/-- No operation allocates a buffer. -/
theorem ops_fresh : ∀ op ∈ (ops : List (HloOp τ sig (Elt F))), op.fresh = ∅ := fun op h => by
    have h' : op ∈ ops0 ++ ops1 ++ ops2 ++ ops3 ++ ops4 ++ ops5 ++ ops6 ++ ops7 ++ ops8 := h
    simp only [List.mem_append] at h'
    rcases h' with ((((((((h | h) | h) | h) | h) | h) | h) | h) | h)
    · exact List.forall_iff_forall_mem.mp ops0_fresh op h
    · exact List.forall_iff_forall_mem.mp ops1_fresh op h
    · exact List.forall_iff_forall_mem.mp ops2_fresh op h
    · exact List.forall_iff_forall_mem.mp ops3_fresh op h
    · exact List.forall_iff_forall_mem.mp ops4_fresh op h
    · exact List.forall_iff_forall_mem.mp ops5_fresh op h
    · exact List.forall_iff_forall_mem.mp ops6_fresh op h
    · exact List.forall_iff_forall_mem.mp ops7_fresh op h
    · exact List.forall_iff_forall_mem.mp ops8_fresh op h

/-- Every weakly fair execution of the reference terminates with every buffer at the fold of the operations over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold over the whole line is the nine pieces' folds in turn. -/
theorem after_ops (L : Valuation τ sig (Elt F)) :
    after ops L = after ops8 (after ops7 (after ops6 (after ops5 (after ops4 (after ops3 (after ops2 (after ops1 (after ops0 L)))))))) := by
  show after (ops0 ++ ops1 ++ ops2 ++ ops3 ++ ops4 ++ ops5 ++ ops6 ++ ops7 ++ ops8) L = _
  simp only [Cert.Lib.after_append]

end Cert.ReferenceIdeal.RefRun

end
-- ==== Proof.RefS0.lean ====
/-
  The reference's first operations: graph 1's edge lists and its first product.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- The sources of graph 1. -/
theorem ops0_v1 : after (ops0 (F := Ideal)) V (Proc.devRef .tc main_v1)
    = srcs (V (Proc.devRef .tc main_arg2)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
set_option maxHeartbeats 4000000 in
/-- The targets of graph 1. -/
theorem ops0_v3 : after (ops0 (F := Ideal)) V (Proc.devRef .tc main_v3)
    = dsts (V (Proc.devRef .tc main_arg2)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
set_option maxHeartbeats 4000000 in
/-- Graph 1's first product. -/
theorem ops0_v4 : after (ops0 (F := Ideal)) V (Proc.devRef .tc main_v4)
    = dense (V (Proc.devRef .tc main_arg0)) (V (Proc.devRef .tc main_arg4)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
/-- No operation of `ops0` writes `main_arg0`. -/
theorem ops0_keeps_arg0 : after (ops0 (F := Ideal)) V (Proc.devRef .tc main_arg0) = V (Proc.devRef .tc main_arg0) :=
  after_of_forall_not_mem (b := (Proc.devRef .tc main_arg0)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg1`. -/
theorem ops0_keeps_arg1 : after (ops0 (F := Ideal)) V (Proc.devRef .tc main_arg1) = V (Proc.devRef .tc main_arg1) :=
  after_of_forall_not_mem (b := (Proc.devRef .tc main_arg1)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg2`. -/
theorem ops0_keeps_arg2 : after (ops0 (F := Ideal)) V (Proc.devRef .tc main_arg2) = V (Proc.devRef .tc main_arg2) :=
  after_of_forall_not_mem (b := (Proc.devRef .tc main_arg2)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg3`. -/
theorem ops0_keeps_arg3 : after (ops0 (F := Ideal)) V (Proc.devRef .tc main_arg3) = V (Proc.devRef .tc main_arg3) :=
  after_of_forall_not_mem (b := (Proc.devRef .tc main_arg3)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg4`. -/
theorem ops0_keeps_arg4 : after (ops0 (F := Ideal)) V (Proc.devRef .tc main_arg4) = V (Proc.devRef .tc main_arg4) :=
  after_of_forall_not_mem (b := (Proc.devRef .tc main_arg4)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg5`. -/
theorem ops0_keeps_arg5 : after (ops0 (F := Ideal)) V (Proc.devRef .tc main_arg5) = V (Proc.devRef .tc main_arg5) :=
  after_of_forall_not_mem (b := (Proc.devRef .tc main_arg5)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg6`. -/
theorem ops0_keeps_arg6 : after (ops0 (F := Ideal)) V (Proc.devRef .tc main_arg6) = V (Proc.devRef .tc main_arg6) :=
  after_of_forall_not_mem (b := (Proc.devRef .tc main_arg6)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg7`. -/
theorem ops0_keeps_arg7 : after (ops0 (F := Ideal)) V (Proc.devRef .tc main_arg7) = V (Proc.devRef .tc main_arg7) :=
  after_of_forall_not_mem (b := (Proc.devRef .tc main_arg7)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg8`. -/
theorem ops0_keeps_arg8 : after (ops0 (F := Ideal)) V (Proc.devRef .tc main_arg8) = V (Proc.devRef .tc main_arg8) :=
  after_of_forall_not_mem (b := (Proc.devRef .tc main_arg8)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg9`. -/
theorem ops0_keeps_arg9 : after (ops0 (F := Ideal)) V (Proc.devRef .tc main_arg9) = V (Proc.devRef .tc main_arg9) :=
  after_of_forall_not_mem (b := (Proc.devRef .tc main_arg9)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg10`. -/
theorem ops0_keeps_arg10 : after (ops0 (F := Ideal)) V (Proc.devRef .tc main_arg10) = V (Proc.devRef .tc main_arg10) :=
  after_of_forall_not_mem (b := (Proc.devRef .tc main_arg10)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg11`. -/
theorem ops0_keeps_arg11 : after (ops0 (F := Ideal)) V (Proc.devRef .tc main_arg11) = V (Proc.devRef .tc main_arg11) :=
  after_of_forall_not_mem (b := (Proc.devRef .tc main_arg11)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg12`. -/
theorem ops0_keeps_arg12 : after (ops0 (F := Ideal)) V (Proc.devRef .tc main_arg12) = V (Proc.devRef .tc main_arg12) :=
  after_of_forall_not_mem (b := (Proc.devRef .tc main_arg12)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
/-- No operation of `ops0` writes `main_arg13`. -/
theorem ops0_keeps_arg13 : after (ops0 (F := Ideal)) V (Proc.devRef .tc main_arg13) = V (Proc.devRef .tc main_arg13) :=
  after_of_forall_not_mem (b := (Proc.devRef .tc main_arg13)) _ _ (List.forall_iff_forall_mem.mp (by
    simp only [ops0, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RefS1.lean ====
/-
  Operations of the reference, one layer of graph 1: from the product `main_v4` of the previous table with the layer's
  weight, over the graph's edge lists, through the rectifier, to the next layer's product with its weight.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- The next product is the dense product of the rectified layer of the incoming one. -/
theorem ops1_v48 : after (ops1 (F := Ideal)) V (Proc.devRef .tc main_v48)
    = dense (relu (layer (V (Proc.devRef .tc main_v4)) (V (Proc.devRef .tc main_v1)) (V (Proc.devRef .tc main_v3)) (V (Proc.devRef .tc main_arg7)))) (V (Proc.devRef .tc main_arg5)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl

/-- No operation of `ops1` writes `main_v1`. -/
theorem ops1_keeps_v1 : after (ops1 (F := Ideal)) V (Proc.devRef .tc main_v1) = V (Proc.devRef .tc main_v1) :=
  after_of_forall_not_mem (b := (Proc.devRef .tc main_v1)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_v3`. -/
theorem ops1_keeps_v3 : after (ops1 (F := Ideal)) V (Proc.devRef .tc main_v3) = V (Proc.devRef .tc main_v3) :=
  after_of_forall_not_mem (b := (Proc.devRef .tc main_v3)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg0`. -/
theorem ops1_keeps_arg0 : after (ops1 (F := Ideal)) V (Proc.devRef .tc main_arg0) = V (Proc.devRef .tc main_arg0) :=
  after_of_forall_not_mem (b := (Proc.devRef .tc main_arg0)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg1`. -/
theorem ops1_keeps_arg1 : after (ops1 (F := Ideal)) V (Proc.devRef .tc main_arg1) = V (Proc.devRef .tc main_arg1) :=
  after_of_forall_not_mem (b := (Proc.devRef .tc main_arg1)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg2`. -/
theorem ops1_keeps_arg2 : after (ops1 (F := Ideal)) V (Proc.devRef .tc main_arg2) = V (Proc.devRef .tc main_arg2) :=
  after_of_forall_not_mem (b := (Proc.devRef .tc main_arg2)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg3`. -/
theorem ops1_keeps_arg3 : after (ops1 (F := Ideal)) V (Proc.devRef .tc main_arg3) = V (Proc.devRef .tc main_arg3) :=
  after_of_forall_not_mem (b := (Proc.devRef .tc main_arg3)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg4`. -/
theorem ops1_keeps_arg4 : after (ops1 (F := Ideal)) V (Proc.devRef .tc main_arg4) = V (Proc.devRef .tc main_arg4) :=
  after_of_forall_not_mem (b := (Proc.devRef .tc main_arg4)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg5`. -/
theorem ops1_keeps_arg5 : after (ops1 (F := Ideal)) V (Proc.devRef .tc main_arg5) = V (Proc.devRef .tc main_arg5) :=
  after_of_forall_not_mem (b := (Proc.devRef .tc main_arg5)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg6`. -/
theorem ops1_keeps_arg6 : after (ops1 (F := Ideal)) V (Proc.devRef .tc main_arg6) = V (Proc.devRef .tc main_arg6) :=
  after_of_forall_not_mem (b := (Proc.devRef .tc main_arg6)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg7`. -/
theorem ops1_keeps_arg7 : after (ops1 (F := Ideal)) V (Proc.devRef .tc main_arg7) = V (Proc.devRef .tc main_arg7) :=
  after_of_forall_not_mem (b := (Proc.devRef .tc main_arg7)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg8`. -/
theorem ops1_keeps_arg8 : after (ops1 (F := Ideal)) V (Proc.devRef .tc main_arg8) = V (Proc.devRef .tc main_arg8) :=
  after_of_forall_not_mem (b := (Proc.devRef .tc main_arg8)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg9`. -/
theorem ops1_keeps_arg9 : after (ops1 (F := Ideal)) V (Proc.devRef .tc main_arg9) = V (Proc.devRef .tc main_arg9) :=
  after_of_forall_not_mem (b := (Proc.devRef .tc main_arg9)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg10`. -/
theorem ops1_keeps_arg10 : after (ops1 (F := Ideal)) V (Proc.devRef .tc main_arg10) = V (Proc.devRef .tc main_arg10) :=
  after_of_forall_not_mem (b := (Proc.devRef .tc main_arg10)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg11`. -/
theorem ops1_keeps_arg11 : after (ops1 (F := Ideal)) V (Proc.devRef .tc main_arg11) = V (Proc.devRef .tc main_arg11) :=
  after_of_forall_not_mem (b := (Proc.devRef .tc main_arg11)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg12`. -/
theorem ops1_keeps_arg12 : after (ops1 (F := Ideal)) V (Proc.devRef .tc main_arg12) = V (Proc.devRef .tc main_arg12) :=
  after_of_forall_not_mem (b := (Proc.devRef .tc main_arg12)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
/-- No operation of `ops1` writes `main_arg13`. -/
theorem ops1_keeps_arg13 : after (ops1 (F := Ideal)) V (Proc.devRef .tc main_arg13) = V (Proc.devRef .tc main_arg13) :=
  after_of_forall_not_mem (b := (Proc.devRef .tc main_arg13)) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RefS2.lean ====
/-
  Operations of the reference, one layer of graph 1: from the product `main_v48` of the previous table with the layer's
  weight, over the graph's edge lists, through the rectifier, to the next layer's product with its weight.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- The next product is the dense product of the rectified layer of the incoming one. -/
theorem ops2_v92 : after (ops2 (F := Ideal)) V (Proc.devRef .tc main_v92)
    = dense (relu (layer (V (Proc.devRef .tc main_v48)) (V (Proc.devRef .tc main_v1)) (V (Proc.devRef .tc main_v3)) (V (Proc.devRef .tc main_arg8)))) (V (Proc.devRef .tc main_arg6)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl

/-- No operation of `ops2` writes `main_v1`. -/
theorem ops2_keeps_v1 : after (ops2 (F := Ideal)) V (Proc.devRef .tc main_v1) = V (Proc.devRef .tc main_v1) :=
  after_of_forall_not_mem (b := (Proc.devRef .tc main_v1)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_v3`. -/
theorem ops2_keeps_v3 : after (ops2 (F := Ideal)) V (Proc.devRef .tc main_v3) = V (Proc.devRef .tc main_v3) :=
  after_of_forall_not_mem (b := (Proc.devRef .tc main_v3)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg0`. -/
theorem ops2_keeps_arg0 : after (ops2 (F := Ideal)) V (Proc.devRef .tc main_arg0) = V (Proc.devRef .tc main_arg0) :=
  after_of_forall_not_mem (b := (Proc.devRef .tc main_arg0)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg1`. -/
theorem ops2_keeps_arg1 : after (ops2 (F := Ideal)) V (Proc.devRef .tc main_arg1) = V (Proc.devRef .tc main_arg1) :=
  after_of_forall_not_mem (b := (Proc.devRef .tc main_arg1)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg2`. -/
theorem ops2_keeps_arg2 : after (ops2 (F := Ideal)) V (Proc.devRef .tc main_arg2) = V (Proc.devRef .tc main_arg2) :=
  after_of_forall_not_mem (b := (Proc.devRef .tc main_arg2)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg3`. -/
theorem ops2_keeps_arg3 : after (ops2 (F := Ideal)) V (Proc.devRef .tc main_arg3) = V (Proc.devRef .tc main_arg3) :=
  after_of_forall_not_mem (b := (Proc.devRef .tc main_arg3)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg4`. -/
theorem ops2_keeps_arg4 : after (ops2 (F := Ideal)) V (Proc.devRef .tc main_arg4) = V (Proc.devRef .tc main_arg4) :=
  after_of_forall_not_mem (b := (Proc.devRef .tc main_arg4)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg5`. -/
theorem ops2_keeps_arg5 : after (ops2 (F := Ideal)) V (Proc.devRef .tc main_arg5) = V (Proc.devRef .tc main_arg5) :=
  after_of_forall_not_mem (b := (Proc.devRef .tc main_arg5)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg6`. -/
theorem ops2_keeps_arg6 : after (ops2 (F := Ideal)) V (Proc.devRef .tc main_arg6) = V (Proc.devRef .tc main_arg6) :=
  after_of_forall_not_mem (b := (Proc.devRef .tc main_arg6)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg7`. -/
theorem ops2_keeps_arg7 : after (ops2 (F := Ideal)) V (Proc.devRef .tc main_arg7) = V (Proc.devRef .tc main_arg7) :=
  after_of_forall_not_mem (b := (Proc.devRef .tc main_arg7)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg8`. -/
theorem ops2_keeps_arg8 : after (ops2 (F := Ideal)) V (Proc.devRef .tc main_arg8) = V (Proc.devRef .tc main_arg8) :=
  after_of_forall_not_mem (b := (Proc.devRef .tc main_arg8)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg9`. -/
theorem ops2_keeps_arg9 : after (ops2 (F := Ideal)) V (Proc.devRef .tc main_arg9) = V (Proc.devRef .tc main_arg9) :=
  after_of_forall_not_mem (b := (Proc.devRef .tc main_arg9)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg10`. -/
theorem ops2_keeps_arg10 : after (ops2 (F := Ideal)) V (Proc.devRef .tc main_arg10) = V (Proc.devRef .tc main_arg10) :=
  after_of_forall_not_mem (b := (Proc.devRef .tc main_arg10)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg11`. -/
theorem ops2_keeps_arg11 : after (ops2 (F := Ideal)) V (Proc.devRef .tc main_arg11) = V (Proc.devRef .tc main_arg11) :=
  after_of_forall_not_mem (b := (Proc.devRef .tc main_arg11)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg12`. -/
theorem ops2_keeps_arg12 : after (ops2 (F := Ideal)) V (Proc.devRef .tc main_arg12) = V (Proc.devRef .tc main_arg12) :=
  after_of_forall_not_mem (b := (Proc.devRef .tc main_arg12)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
/-- No operation of `ops2` writes `main_arg13`. -/
theorem ops2_keeps_arg13 : after (ops2 (F := Ideal)) V (Proc.devRef .tc main_arg13) = V (Proc.devRef .tc main_arg13) :=
  after_of_forall_not_mem (b := (Proc.devRef .tc main_arg13)) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RefS3.lean ====
/-
  Operations of the reference, graph 1's last layer and its average over the nodes.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- Graph 1's averaged row. -/
theorem ops3_v138 : after (ops3 (F := Ideal)) V (Proc.devRef .tc main_v138)
    = meanRow (layer (V (Proc.devRef .tc main_v92)) (V (Proc.devRef .tc main_v1)) (V (Proc.devRef .tc main_v3)) (V (Proc.devRef .tc main_arg9))) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
/-- No operation of `ops3` writes `main_arg0`. -/
theorem ops3_keeps_arg0 : after (ops3 (F := Ideal)) V (Proc.devRef .tc main_arg0) = V (Proc.devRef .tc main_arg0) :=
  after_of_forall_not_mem (b := (Proc.devRef .tc main_arg0)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg1`. -/
theorem ops3_keeps_arg1 : after (ops3 (F := Ideal)) V (Proc.devRef .tc main_arg1) = V (Proc.devRef .tc main_arg1) :=
  after_of_forall_not_mem (b := (Proc.devRef .tc main_arg1)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg2`. -/
theorem ops3_keeps_arg2 : after (ops3 (F := Ideal)) V (Proc.devRef .tc main_arg2) = V (Proc.devRef .tc main_arg2) :=
  after_of_forall_not_mem (b := (Proc.devRef .tc main_arg2)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg3`. -/
theorem ops3_keeps_arg3 : after (ops3 (F := Ideal)) V (Proc.devRef .tc main_arg3) = V (Proc.devRef .tc main_arg3) :=
  after_of_forall_not_mem (b := (Proc.devRef .tc main_arg3)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg4`. -/
theorem ops3_keeps_arg4 : after (ops3 (F := Ideal)) V (Proc.devRef .tc main_arg4) = V (Proc.devRef .tc main_arg4) :=
  after_of_forall_not_mem (b := (Proc.devRef .tc main_arg4)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg5`. -/
theorem ops3_keeps_arg5 : after (ops3 (F := Ideal)) V (Proc.devRef .tc main_arg5) = V (Proc.devRef .tc main_arg5) :=
  after_of_forall_not_mem (b := (Proc.devRef .tc main_arg5)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg6`. -/
theorem ops3_keeps_arg6 : after (ops3 (F := Ideal)) V (Proc.devRef .tc main_arg6) = V (Proc.devRef .tc main_arg6) :=
  after_of_forall_not_mem (b := (Proc.devRef .tc main_arg6)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg7`. -/
theorem ops3_keeps_arg7 : after (ops3 (F := Ideal)) V (Proc.devRef .tc main_arg7) = V (Proc.devRef .tc main_arg7) :=
  after_of_forall_not_mem (b := (Proc.devRef .tc main_arg7)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg8`. -/
theorem ops3_keeps_arg8 : after (ops3 (F := Ideal)) V (Proc.devRef .tc main_arg8) = V (Proc.devRef .tc main_arg8) :=
  after_of_forall_not_mem (b := (Proc.devRef .tc main_arg8)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg9`. -/
theorem ops3_keeps_arg9 : after (ops3 (F := Ideal)) V (Proc.devRef .tc main_arg9) = V (Proc.devRef .tc main_arg9) :=
  after_of_forall_not_mem (b := (Proc.devRef .tc main_arg9)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg10`. -/
theorem ops3_keeps_arg10 : after (ops3 (F := Ideal)) V (Proc.devRef .tc main_arg10) = V (Proc.devRef .tc main_arg10) :=
  after_of_forall_not_mem (b := (Proc.devRef .tc main_arg10)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg11`. -/
theorem ops3_keeps_arg11 : after (ops3 (F := Ideal)) V (Proc.devRef .tc main_arg11) = V (Proc.devRef .tc main_arg11) :=
  after_of_forall_not_mem (b := (Proc.devRef .tc main_arg11)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg12`. -/
theorem ops3_keeps_arg12 : after (ops3 (F := Ideal)) V (Proc.devRef .tc main_arg12) = V (Proc.devRef .tc main_arg12) :=
  after_of_forall_not_mem (b := (Proc.devRef .tc main_arg12)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
/-- No operation of `ops3` writes `main_arg13`. -/
theorem ops3_keeps_arg13 : after (ops3 (F := Ideal)) V (Proc.devRef .tc main_arg13) = V (Proc.devRef .tc main_arg13) :=
  after_of_forall_not_mem (b := (Proc.devRef .tc main_arg13)) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RefS4.lean ====
/-
  Graph 2's edge lists and its first product.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- The sources of graph 2. -/
theorem ops4_v140 : after (ops4 (F := Ideal)) V (Proc.devRef .tc main_v140)
    = srcs (V (Proc.devRef .tc main_arg3)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
set_option maxHeartbeats 4000000 in
/-- The targets of graph 2. -/
theorem ops4_v142 : after (ops4 (F := Ideal)) V (Proc.devRef .tc main_v142)
    = dsts (V (Proc.devRef .tc main_arg3)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
set_option maxHeartbeats 4000000 in
/-- Graph 2's first product. -/
theorem ops4_v143 : after (ops4 (F := Ideal)) V (Proc.devRef .tc main_v143)
    = dense (V (Proc.devRef .tc main_arg1)) (V (Proc.devRef .tc main_arg4)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
/-- No operation of `ops4` writes `main_v138`. -/
theorem ops4_keeps_v138 : after (ops4 (F := Ideal)) V (Proc.devRef .tc main_v138) = V (Proc.devRef .tc main_v138) :=
  after_of_forall_not_mem (b := (Proc.devRef .tc main_v138)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg0`. -/
theorem ops4_keeps_arg0 : after (ops4 (F := Ideal)) V (Proc.devRef .tc main_arg0) = V (Proc.devRef .tc main_arg0) :=
  after_of_forall_not_mem (b := (Proc.devRef .tc main_arg0)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg1`. -/
theorem ops4_keeps_arg1 : after (ops4 (F := Ideal)) V (Proc.devRef .tc main_arg1) = V (Proc.devRef .tc main_arg1) :=
  after_of_forall_not_mem (b := (Proc.devRef .tc main_arg1)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg2`. -/
theorem ops4_keeps_arg2 : after (ops4 (F := Ideal)) V (Proc.devRef .tc main_arg2) = V (Proc.devRef .tc main_arg2) :=
  after_of_forall_not_mem (b := (Proc.devRef .tc main_arg2)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg3`. -/
theorem ops4_keeps_arg3 : after (ops4 (F := Ideal)) V (Proc.devRef .tc main_arg3) = V (Proc.devRef .tc main_arg3) :=
  after_of_forall_not_mem (b := (Proc.devRef .tc main_arg3)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg4`. -/
theorem ops4_keeps_arg4 : after (ops4 (F := Ideal)) V (Proc.devRef .tc main_arg4) = V (Proc.devRef .tc main_arg4) :=
  after_of_forall_not_mem (b := (Proc.devRef .tc main_arg4)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg5`. -/
theorem ops4_keeps_arg5 : after (ops4 (F := Ideal)) V (Proc.devRef .tc main_arg5) = V (Proc.devRef .tc main_arg5) :=
  after_of_forall_not_mem (b := (Proc.devRef .tc main_arg5)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg6`. -/
theorem ops4_keeps_arg6 : after (ops4 (F := Ideal)) V (Proc.devRef .tc main_arg6) = V (Proc.devRef .tc main_arg6) :=
  after_of_forall_not_mem (b := (Proc.devRef .tc main_arg6)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg7`. -/
theorem ops4_keeps_arg7 : after (ops4 (F := Ideal)) V (Proc.devRef .tc main_arg7) = V (Proc.devRef .tc main_arg7) :=
  after_of_forall_not_mem (b := (Proc.devRef .tc main_arg7)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg8`. -/
theorem ops4_keeps_arg8 : after (ops4 (F := Ideal)) V (Proc.devRef .tc main_arg8) = V (Proc.devRef .tc main_arg8) :=
  after_of_forall_not_mem (b := (Proc.devRef .tc main_arg8)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg9`. -/
theorem ops4_keeps_arg9 : after (ops4 (F := Ideal)) V (Proc.devRef .tc main_arg9) = V (Proc.devRef .tc main_arg9) :=
  after_of_forall_not_mem (b := (Proc.devRef .tc main_arg9)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg10`. -/
theorem ops4_keeps_arg10 : after (ops4 (F := Ideal)) V (Proc.devRef .tc main_arg10) = V (Proc.devRef .tc main_arg10) :=
  after_of_forall_not_mem (b := (Proc.devRef .tc main_arg10)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg11`. -/
theorem ops4_keeps_arg11 : after (ops4 (F := Ideal)) V (Proc.devRef .tc main_arg11) = V (Proc.devRef .tc main_arg11) :=
  after_of_forall_not_mem (b := (Proc.devRef .tc main_arg11)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg12`. -/
theorem ops4_keeps_arg12 : after (ops4 (F := Ideal)) V (Proc.devRef .tc main_arg12) = V (Proc.devRef .tc main_arg12) :=
  after_of_forall_not_mem (b := (Proc.devRef .tc main_arg12)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
/-- No operation of `ops4` writes `main_arg13`. -/
theorem ops4_keeps_arg13 : after (ops4 (F := Ideal)) V (Proc.devRef .tc main_arg13) = V (Proc.devRef .tc main_arg13) :=
  after_of_forall_not_mem (b := (Proc.devRef .tc main_arg13)) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RefS5.lean ====
/-
  Operations of the reference, one layer of graph 2: from the product `main_v143` of the previous table with the layer's
  weight, over the graph's edge lists, through the rectifier, to the next layer's product with its weight.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- The next product is the dense product of the rectified layer of the incoming one. -/
theorem ops5_v187 : after (ops5 (F := Ideal)) V (Proc.devRef .tc main_v187)
    = dense (relu (layer (V (Proc.devRef .tc main_v143)) (V (Proc.devRef .tc main_v140)) (V (Proc.devRef .tc main_v142)) (V (Proc.devRef .tc main_arg7)))) (V (Proc.devRef .tc main_arg5)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl

/-- No operation of `ops5` writes `main_v138`. -/
theorem ops5_keeps_v138 : after (ops5 (F := Ideal)) V (Proc.devRef .tc main_v138) = V (Proc.devRef .tc main_v138) :=
  after_of_forall_not_mem (b := (Proc.devRef .tc main_v138)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_v140`. -/
theorem ops5_keeps_v140 : after (ops5 (F := Ideal)) V (Proc.devRef .tc main_v140) = V (Proc.devRef .tc main_v140) :=
  after_of_forall_not_mem (b := (Proc.devRef .tc main_v140)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_v142`. -/
theorem ops5_keeps_v142 : after (ops5 (F := Ideal)) V (Proc.devRef .tc main_v142) = V (Proc.devRef .tc main_v142) :=
  after_of_forall_not_mem (b := (Proc.devRef .tc main_v142)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg0`. -/
theorem ops5_keeps_arg0 : after (ops5 (F := Ideal)) V (Proc.devRef .tc main_arg0) = V (Proc.devRef .tc main_arg0) :=
  after_of_forall_not_mem (b := (Proc.devRef .tc main_arg0)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg1`. -/
theorem ops5_keeps_arg1 : after (ops5 (F := Ideal)) V (Proc.devRef .tc main_arg1) = V (Proc.devRef .tc main_arg1) :=
  after_of_forall_not_mem (b := (Proc.devRef .tc main_arg1)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg2`. -/
theorem ops5_keeps_arg2 : after (ops5 (F := Ideal)) V (Proc.devRef .tc main_arg2) = V (Proc.devRef .tc main_arg2) :=
  after_of_forall_not_mem (b := (Proc.devRef .tc main_arg2)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg3`. -/
theorem ops5_keeps_arg3 : after (ops5 (F := Ideal)) V (Proc.devRef .tc main_arg3) = V (Proc.devRef .tc main_arg3) :=
  after_of_forall_not_mem (b := (Proc.devRef .tc main_arg3)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg4`. -/
theorem ops5_keeps_arg4 : after (ops5 (F := Ideal)) V (Proc.devRef .tc main_arg4) = V (Proc.devRef .tc main_arg4) :=
  after_of_forall_not_mem (b := (Proc.devRef .tc main_arg4)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg5`. -/
theorem ops5_keeps_arg5 : after (ops5 (F := Ideal)) V (Proc.devRef .tc main_arg5) = V (Proc.devRef .tc main_arg5) :=
  after_of_forall_not_mem (b := (Proc.devRef .tc main_arg5)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg6`. -/
theorem ops5_keeps_arg6 : after (ops5 (F := Ideal)) V (Proc.devRef .tc main_arg6) = V (Proc.devRef .tc main_arg6) :=
  after_of_forall_not_mem (b := (Proc.devRef .tc main_arg6)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg7`. -/
theorem ops5_keeps_arg7 : after (ops5 (F := Ideal)) V (Proc.devRef .tc main_arg7) = V (Proc.devRef .tc main_arg7) :=
  after_of_forall_not_mem (b := (Proc.devRef .tc main_arg7)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg8`. -/
theorem ops5_keeps_arg8 : after (ops5 (F := Ideal)) V (Proc.devRef .tc main_arg8) = V (Proc.devRef .tc main_arg8) :=
  after_of_forall_not_mem (b := (Proc.devRef .tc main_arg8)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg9`. -/
theorem ops5_keeps_arg9 : after (ops5 (F := Ideal)) V (Proc.devRef .tc main_arg9) = V (Proc.devRef .tc main_arg9) :=
  after_of_forall_not_mem (b := (Proc.devRef .tc main_arg9)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg10`. -/
theorem ops5_keeps_arg10 : after (ops5 (F := Ideal)) V (Proc.devRef .tc main_arg10) = V (Proc.devRef .tc main_arg10) :=
  after_of_forall_not_mem (b := (Proc.devRef .tc main_arg10)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg11`. -/
theorem ops5_keeps_arg11 : after (ops5 (F := Ideal)) V (Proc.devRef .tc main_arg11) = V (Proc.devRef .tc main_arg11) :=
  after_of_forall_not_mem (b := (Proc.devRef .tc main_arg11)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg12`. -/
theorem ops5_keeps_arg12 : after (ops5 (F := Ideal)) V (Proc.devRef .tc main_arg12) = V (Proc.devRef .tc main_arg12) :=
  after_of_forall_not_mem (b := (Proc.devRef .tc main_arg12)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
/-- No operation of `ops5` writes `main_arg13`. -/
theorem ops5_keeps_arg13 : after (ops5 (F := Ideal)) V (Proc.devRef .tc main_arg13) = V (Proc.devRef .tc main_arg13) :=
  after_of_forall_not_mem (b := (Proc.devRef .tc main_arg13)) _ _ (List.forall_iff_forall_mem.mp (by
    simp only [ops5, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RefS6.lean ====
/-
  Operations of the reference, one layer of graph 2: from the product `main_v187` of the previous table with the layer's
  weight, over the graph's edge lists, through the rectifier, to the next layer's product with its weight.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- The next product is the dense product of the rectified layer of the incoming one. -/
theorem ops6_v231 : after (ops6 (F := Ideal)) V (Proc.devRef .tc main_v231)
    = dense (relu (layer (V (Proc.devRef .tc main_v187)) (V (Proc.devRef .tc main_v140)) (V (Proc.devRef .tc main_v142)) (V (Proc.devRef .tc main_arg8)))) (V (Proc.devRef .tc main_arg6)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl

/-- No operation of `ops6` writes `main_v138`. -/
theorem ops6_keeps_v138 : after (ops6 (F := Ideal)) V (Proc.devRef .tc main_v138) = V (Proc.devRef .tc main_v138) :=
  after_of_forall_not_mem (b := (Proc.devRef .tc main_v138)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_v140`. -/
theorem ops6_keeps_v140 : after (ops6 (F := Ideal)) V (Proc.devRef .tc main_v140) = V (Proc.devRef .tc main_v140) :=
  after_of_forall_not_mem (b := (Proc.devRef .tc main_v140)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_v142`. -/
theorem ops6_keeps_v142 : after (ops6 (F := Ideal)) V (Proc.devRef .tc main_v142) = V (Proc.devRef .tc main_v142) :=
  after_of_forall_not_mem (b := (Proc.devRef .tc main_v142)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg0`. -/
theorem ops6_keeps_arg0 : after (ops6 (F := Ideal)) V (Proc.devRef .tc main_arg0) = V (Proc.devRef .tc main_arg0) :=
  after_of_forall_not_mem (b := (Proc.devRef .tc main_arg0)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg1`. -/
theorem ops6_keeps_arg1 : after (ops6 (F := Ideal)) V (Proc.devRef .tc main_arg1) = V (Proc.devRef .tc main_arg1) :=
  after_of_forall_not_mem (b := (Proc.devRef .tc main_arg1)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg2`. -/
theorem ops6_keeps_arg2 : after (ops6 (F := Ideal)) V (Proc.devRef .tc main_arg2) = V (Proc.devRef .tc main_arg2) :=
  after_of_forall_not_mem (b := (Proc.devRef .tc main_arg2)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg3`. -/
theorem ops6_keeps_arg3 : after (ops6 (F := Ideal)) V (Proc.devRef .tc main_arg3) = V (Proc.devRef .tc main_arg3) :=
  after_of_forall_not_mem (b := (Proc.devRef .tc main_arg3)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg4`. -/
theorem ops6_keeps_arg4 : after (ops6 (F := Ideal)) V (Proc.devRef .tc main_arg4) = V (Proc.devRef .tc main_arg4) :=
  after_of_forall_not_mem (b := (Proc.devRef .tc main_arg4)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg5`. -/
theorem ops6_keeps_arg5 : after (ops6 (F := Ideal)) V (Proc.devRef .tc main_arg5) = V (Proc.devRef .tc main_arg5) :=
  after_of_forall_not_mem (b := (Proc.devRef .tc main_arg5)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg6`. -/
theorem ops6_keeps_arg6 : after (ops6 (F := Ideal)) V (Proc.devRef .tc main_arg6) = V (Proc.devRef .tc main_arg6) :=
  after_of_forall_not_mem (b := (Proc.devRef .tc main_arg6)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg7`. -/
theorem ops6_keeps_arg7 : after (ops6 (F := Ideal)) V (Proc.devRef .tc main_arg7) = V (Proc.devRef .tc main_arg7) :=
  after_of_forall_not_mem (b := (Proc.devRef .tc main_arg7)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg8`. -/
theorem ops6_keeps_arg8 : after (ops6 (F := Ideal)) V (Proc.devRef .tc main_arg8) = V (Proc.devRef .tc main_arg8) :=
  after_of_forall_not_mem (b := (Proc.devRef .tc main_arg8)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg9`. -/
theorem ops6_keeps_arg9 : after (ops6 (F := Ideal)) V (Proc.devRef .tc main_arg9) = V (Proc.devRef .tc main_arg9) :=
  after_of_forall_not_mem (b := (Proc.devRef .tc main_arg9)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg10`. -/
theorem ops6_keeps_arg10 : after (ops6 (F := Ideal)) V (Proc.devRef .tc main_arg10) = V (Proc.devRef .tc main_arg10) :=
  after_of_forall_not_mem (b := (Proc.devRef .tc main_arg10)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg11`. -/
theorem ops6_keeps_arg11 : after (ops6 (F := Ideal)) V (Proc.devRef .tc main_arg11) = V (Proc.devRef .tc main_arg11) :=
  after_of_forall_not_mem (b := (Proc.devRef .tc main_arg11)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg12`. -/
theorem ops6_keeps_arg12 : after (ops6 (F := Ideal)) V (Proc.devRef .tc main_arg12) = V (Proc.devRef .tc main_arg12) :=
  after_of_forall_not_mem (b := (Proc.devRef .tc main_arg12)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
/-- No operation of `ops6` writes `main_arg13`. -/
theorem ops6_keeps_arg13 : after (ops6 (F := Ideal)) V (Proc.devRef .tc main_arg13) = V (Proc.devRef .tc main_arg13) :=
  after_of_forall_not_mem (b := (Proc.devRef .tc main_arg13)) _ _ (List.forall_iff_forall_mem.mp (by
    simp only [ops6, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RefS7.lean ====
/-
  Operations of the reference, graph 2's last layer and its average over the nodes.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- Graph 2's averaged row. -/
theorem ops7_v277 : after (ops7 (F := Ideal)) V (Proc.devRef .tc main_v277)
    = meanRow (layer (V (Proc.devRef .tc main_v231)) (V (Proc.devRef .tc main_v140)) (V (Proc.devRef .tc main_v142)) (V (Proc.devRef .tc main_arg9))) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
/-- No operation of `ops7` writes `main_v138`. -/
theorem ops7_keeps_v138 : after (ops7 (F := Ideal)) V (Proc.devRef .tc main_v138) = V (Proc.devRef .tc main_v138) :=
  after_of_forall_not_mem (b := (Proc.devRef .tc main_v138)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg0`. -/
theorem ops7_keeps_arg0 : after (ops7 (F := Ideal)) V (Proc.devRef .tc main_arg0) = V (Proc.devRef .tc main_arg0) :=
  after_of_forall_not_mem (b := (Proc.devRef .tc main_arg0)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg1`. -/
theorem ops7_keeps_arg1 : after (ops7 (F := Ideal)) V (Proc.devRef .tc main_arg1) = V (Proc.devRef .tc main_arg1) :=
  after_of_forall_not_mem (b := (Proc.devRef .tc main_arg1)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg2`. -/
theorem ops7_keeps_arg2 : after (ops7 (F := Ideal)) V (Proc.devRef .tc main_arg2) = V (Proc.devRef .tc main_arg2) :=
  after_of_forall_not_mem (b := (Proc.devRef .tc main_arg2)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg3`. -/
theorem ops7_keeps_arg3 : after (ops7 (F := Ideal)) V (Proc.devRef .tc main_arg3) = V (Proc.devRef .tc main_arg3) :=
  after_of_forall_not_mem (b := (Proc.devRef .tc main_arg3)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg4`. -/
theorem ops7_keeps_arg4 : after (ops7 (F := Ideal)) V (Proc.devRef .tc main_arg4) = V (Proc.devRef .tc main_arg4) :=
  after_of_forall_not_mem (b := (Proc.devRef .tc main_arg4)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg5`. -/
theorem ops7_keeps_arg5 : after (ops7 (F := Ideal)) V (Proc.devRef .tc main_arg5) = V (Proc.devRef .tc main_arg5) :=
  after_of_forall_not_mem (b := (Proc.devRef .tc main_arg5)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg6`. -/
theorem ops7_keeps_arg6 : after (ops7 (F := Ideal)) V (Proc.devRef .tc main_arg6) = V (Proc.devRef .tc main_arg6) :=
  after_of_forall_not_mem (b := (Proc.devRef .tc main_arg6)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg7`. -/
theorem ops7_keeps_arg7 : after (ops7 (F := Ideal)) V (Proc.devRef .tc main_arg7) = V (Proc.devRef .tc main_arg7) :=
  after_of_forall_not_mem (b := (Proc.devRef .tc main_arg7)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg8`. -/
theorem ops7_keeps_arg8 : after (ops7 (F := Ideal)) V (Proc.devRef .tc main_arg8) = V (Proc.devRef .tc main_arg8) :=
  after_of_forall_not_mem (b := (Proc.devRef .tc main_arg8)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg9`. -/
theorem ops7_keeps_arg9 : after (ops7 (F := Ideal)) V (Proc.devRef .tc main_arg9) = V (Proc.devRef .tc main_arg9) :=
  after_of_forall_not_mem (b := (Proc.devRef .tc main_arg9)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg10`. -/
theorem ops7_keeps_arg10 : after (ops7 (F := Ideal)) V (Proc.devRef .tc main_arg10) = V (Proc.devRef .tc main_arg10) :=
  after_of_forall_not_mem (b := (Proc.devRef .tc main_arg10)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg11`. -/
theorem ops7_keeps_arg11 : after (ops7 (F := Ideal)) V (Proc.devRef .tc main_arg11) = V (Proc.devRef .tc main_arg11) :=
  after_of_forall_not_mem (b := (Proc.devRef .tc main_arg11)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg12`. -/
theorem ops7_keeps_arg12 : after (ops7 (F := Ideal)) V (Proc.devRef .tc main_arg12) = V (Proc.devRef .tc main_arg12) :=
  after_of_forall_not_mem (b := (Proc.devRef .tc main_arg12)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
/-- No operation of `ops7` writes `main_arg13`. -/
theorem ops7_keeps_arg13 : after (ops7 (F := Ideal)) V (Proc.devRef .tc main_arg13) = V (Proc.devRef .tc main_arg13) :=
  after_of_forall_not_mem (b := (Proc.devRef .tc main_arg13)) _ _ (List.forall_iff_forall_mem.mp (by
    simp only [ops7, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RefS8.lean ====
/-
  The reference's comparison head.
-/
import proofs.«130762_j21105469293031_1_alg».proof.Proof.RefOps
import proofs.«130762_j21105469293031_1_alg».proof.Proof.Spec
import Idealize.ShloMosaic.Lib.Tactic

set_option maxRecDepth 16384

noncomputable section

namespace Cert.ReferenceIdeal.RefStage

open Cert.ReferenceIdeal Cert.ReferenceIdeal.Gen Cert.ReferenceIdeal.RefOps Cert.Spec
open Idealize.ShloMosaic Idealize.ShloMosaic.TcCoe Idealize.ShloMosaic.StableHlo Idealize.ShloMosaic.Tactic

variable (V : Valuation τ sig (Elt Ideal))

set_option maxHeartbeats 4000000 in
/-- The score. -/
theorem ops8_v291 : after (ops8 (F := Ideal)) V (Proc.devRef .tc main_v291)
    = head (V (Proc.devRef .tc main_v138)) (V (Proc.devRef .tc main_v277)) (V (Proc.devRef .tc main_arg10)) (V (Proc.devRef .tc main_arg11)) (V (Proc.devRef .tc main_arg12)) (V (Proc.devRef .tc main_arg13)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catIdx_fold, catRows_fold]
  sl_kernel_rfl
/-- No operation of `ops8` writes `main_arg0`. -/
theorem ops8_keeps_arg0 : after (ops8 (F := Ideal)) V (Proc.devRef .tc main_arg0) = V (Proc.devRef .tc main_arg0) :=
  after_of_forall_not_mem (b := (Proc.devRef .tc main_arg0)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg1`. -/
theorem ops8_keeps_arg1 : after (ops8 (F := Ideal)) V (Proc.devRef .tc main_arg1) = V (Proc.devRef .tc main_arg1) :=
  after_of_forall_not_mem (b := (Proc.devRef .tc main_arg1)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg2`. -/
theorem ops8_keeps_arg2 : after (ops8 (F := Ideal)) V (Proc.devRef .tc main_arg2) = V (Proc.devRef .tc main_arg2) :=
  after_of_forall_not_mem (b := (Proc.devRef .tc main_arg2)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg3`. -/
theorem ops8_keeps_arg3 : after (ops8 (F := Ideal)) V (Proc.devRef .tc main_arg3) = V (Proc.devRef .tc main_arg3) :=
  after_of_forall_not_mem (b := (Proc.devRef .tc main_arg3)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg4`. -/
theorem ops8_keeps_arg4 : after (ops8 (F := Ideal)) V (Proc.devRef .tc main_arg4) = V (Proc.devRef .tc main_arg4) :=
  after_of_forall_not_mem (b := (Proc.devRef .tc main_arg4)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg5`. -/
theorem ops8_keeps_arg5 : after (ops8 (F := Ideal)) V (Proc.devRef .tc main_arg5) = V (Proc.devRef .tc main_arg5) :=
  after_of_forall_not_mem (b := (Proc.devRef .tc main_arg5)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg6`. -/
theorem ops8_keeps_arg6 : after (ops8 (F := Ideal)) V (Proc.devRef .tc main_arg6) = V (Proc.devRef .tc main_arg6) :=
  after_of_forall_not_mem (b := (Proc.devRef .tc main_arg6)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg7`. -/
theorem ops8_keeps_arg7 : after (ops8 (F := Ideal)) V (Proc.devRef .tc main_arg7) = V (Proc.devRef .tc main_arg7) :=
  after_of_forall_not_mem (b := (Proc.devRef .tc main_arg7)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg8`. -/
theorem ops8_keeps_arg8 : after (ops8 (F := Ideal)) V (Proc.devRef .tc main_arg8) = V (Proc.devRef .tc main_arg8) :=
  after_of_forall_not_mem (b := (Proc.devRef .tc main_arg8)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg9`. -/
theorem ops8_keeps_arg9 : after (ops8 (F := Ideal)) V (Proc.devRef .tc main_arg9) = V (Proc.devRef .tc main_arg9) :=
  after_of_forall_not_mem (b := (Proc.devRef .tc main_arg9)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg10`. -/
theorem ops8_keeps_arg10 : after (ops8 (F := Ideal)) V (Proc.devRef .tc main_arg10) = V (Proc.devRef .tc main_arg10) :=
  after_of_forall_not_mem (b := (Proc.devRef .tc main_arg10)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg11`. -/
theorem ops8_keeps_arg11 : after (ops8 (F := Ideal)) V (Proc.devRef .tc main_arg11) = V (Proc.devRef .tc main_arg11) :=
  after_of_forall_not_mem (b := (Proc.devRef .tc main_arg11)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg12`. -/
theorem ops8_keeps_arg12 : after (ops8 (F := Ideal)) V (Proc.devRef .tc main_arg12) = V (Proc.devRef .tc main_arg12) :=
  after_of_forall_not_mem (b := (Proc.devRef .tc main_arg12)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
/-- No operation of `ops8` writes `main_arg13`. -/
theorem ops8_keeps_arg13 : after (ops8 (F := Ideal)) V (Proc.devRef .tc main_arg13) = V (Proc.devRef .tc main_arg13) :=
  after_of_forall_not_mem (b := (Proc.devRef .tc main_arg13)) _ _ (List.forall_iff_forall_mem.mp (by
    simp only [ops8, List.Forall, nullary_writes, unary_writes, binary_writes, ternary_writes, quaternary_writes, reshape_writes, binaryIndexed_writes, Finset.mem_singleton]
    repeat' apply And.intro
    all_goals exact devRef_ne_of_ne (by decide)))
end Cert.ReferenceIdeal.RefStage

end
-- ==== Proof.RValue.lean ====
/-
  The reference's result as a function of its arguments.

  The fold over the reference's operations, piece by piece from the last: the head of the two averaged rows; each
  graph's averaged row is the average of its last layer; each layer's incoming product is the host's product of the
  rectified previous layer with the layer's weight; the first product is of the input table. What a piece does not
  write it leaves as the earlier pieces left it.
-/
import proofs.«130762_j21105469293031_1_alg».proof.Proof.RefRun
import proofs.«130762_j21105469293031_1_alg».proof.Proof.RefS0
import proofs.«130762_j21105469293031_1_alg».proof.Proof.RefS1
import proofs.«130762_j21105469293031_1_alg».proof.Proof.RefS2
import proofs.«130762_j21105469293031_1_alg».proof.Proof.RefS3
import proofs.«130762_j21105469293031_1_alg».proof.Proof.RefS4
import proofs.«130762_j21105469293031_1_alg».proof.Proof.RefS5
import proofs.«130762_j21105469293031_1_alg».proof.Proof.RefS6
import proofs.«130762_j21105469293031_1_alg».proof.Proof.RefS7
import proofs.«130762_j21105469293031_1_alg».proof.Proof.RefS8

set_option maxRecDepth 16384

noncomputable section

namespace Cert.ReferenceIdeal.RValue

open Cert.ReferenceIdeal Cert.ReferenceIdeal.Gen Cert.ReferenceIdeal.RefOps Cert.ReferenceIdeal.RefRun Cert.ReferenceIdeal.RefStage Cert.Spec
open Idealize.ShloMosaic Idealize.ShloMosaic.TcCoe Idealize.ShloMosaic.StableHlo

/-- The reference's result: the head of the two graphs' averaged embeddings of its arguments. -/
theorem result (L : Valuation τ sig (Elt Ideal)) : after (ops (F := Ideal)) L (Proc.devRef .tc main_v291)
    = head (meanRow (embed (L (Proc.devRef .tc main_arg0)) (L (Proc.devRef .tc main_arg2)) (L (Proc.devRef .tc main_arg4)) (L (Proc.devRef .tc main_arg5)) (L (Proc.devRef .tc main_arg6)) (L (Proc.devRef .tc main_arg7)) (L (Proc.devRef .tc main_arg8)) (L (Proc.devRef .tc main_arg9))))
        (meanRow (embed (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9))))
        (L (Proc.devRef .tc main_arg10)) (L (Proc.devRef .tc main_arg11)) (L (Proc.devRef .tc main_arg12)) (L (Proc.devRef .tc main_arg13)) := by
  rw [after_ops]
  rw [ops8_v291]
  rw [ops7_v277, ops7_keeps_v138, ops7_keeps_arg10, ops7_keeps_arg11, ops7_keeps_arg12, ops7_keeps_arg13]
  rw [ops6_v231, ops6_keeps_v138, ops6_keeps_v140, ops6_keeps_v142, ops6_keeps_arg9, ops6_keeps_arg10, ops6_keeps_arg11, ops6_keeps_arg12, ops6_keeps_arg13]
  rw [ops5_v187, ops5_keeps_v138, ops5_keeps_v140, ops5_keeps_v142, ops5_keeps_arg6, ops5_keeps_arg8, ops5_keeps_arg9, ops5_keeps_arg10, ops5_keeps_arg11, ops5_keeps_arg12, ops5_keeps_arg13]
  rw [ops4_v143, ops4_v140, ops4_v142, ops4_keeps_v138, ops4_keeps_arg5, ops4_keeps_arg6, ops4_keeps_arg7, ops4_keeps_arg8, ops4_keeps_arg9, ops4_keeps_arg10, ops4_keeps_arg11, ops4_keeps_arg12, ops4_keeps_arg13]
  rw [ops3_v138, ops3_keeps_arg1, ops3_keeps_arg3, ops3_keeps_arg4, ops3_keeps_arg5, ops3_keeps_arg6, ops3_keeps_arg7, ops3_keeps_arg8, ops3_keeps_arg9, ops3_keeps_arg10, ops3_keeps_arg11, ops3_keeps_arg12, ops3_keeps_arg13]
  rw [ops2_v92, ops2_keeps_v1, ops2_keeps_v3, ops2_keeps_arg1, ops2_keeps_arg3, ops2_keeps_arg4, ops2_keeps_arg5, ops2_keeps_arg7, ops2_keeps_arg9, ops2_keeps_arg10, ops2_keeps_arg11, ops2_keeps_arg12, ops2_keeps_arg13, ops2_keeps_arg6, ops2_keeps_arg8]
  rw [ops1_v48, ops1_keeps_v1, ops1_keeps_v3, ops1_keeps_arg1, ops1_keeps_arg3, ops1_keeps_arg4, ops1_keeps_arg6, ops1_keeps_arg8, ops1_keeps_arg9, ops1_keeps_arg10, ops1_keeps_arg11, ops1_keeps_arg12, ops1_keeps_arg13, ops1_keeps_arg5, ops1_keeps_arg7]
  rw [ops0_v4, ops0_v1, ops0_v3, ops0_keeps_arg1, ops0_keeps_arg3, ops0_keeps_arg4, ops0_keeps_arg5, ops0_keeps_arg6, ops0_keeps_arg7, ops0_keeps_arg8, ops0_keeps_arg9, ops0_keeps_arg10, ops0_keeps_arg11, ops0_keeps_arg12, ops0_keeps_arg13]
  rfl

/-- No operation of the reference writes argument 0. -/
theorem kept_arg0 (L : Valuation τ sig (Elt Ideal)) : after (ops (F := Ideal)) L (Proc.devRef .tc main_arg0) = L (Proc.devRef .tc main_arg0) := by
  rw [after_ops, ops8_keeps_arg0, ops7_keeps_arg0, ops6_keeps_arg0, ops5_keeps_arg0, ops4_keeps_arg0, ops3_keeps_arg0, ops2_keeps_arg0, ops1_keeps_arg0, ops0_keeps_arg0]
/-- No operation of the reference writes argument 1. -/
theorem kept_arg1 (L : Valuation τ sig (Elt Ideal)) : after (ops (F := Ideal)) L (Proc.devRef .tc main_arg1) = L (Proc.devRef .tc main_arg1) := by
  rw [after_ops, ops8_keeps_arg1, ops7_keeps_arg1, ops6_keeps_arg1, ops5_keeps_arg1, ops4_keeps_arg1, ops3_keeps_arg1, ops2_keeps_arg1, ops1_keeps_arg1, ops0_keeps_arg1]
/-- No operation of the reference writes argument 2. -/
theorem kept_arg2 (L : Valuation τ sig (Elt Ideal)) : after (ops (F := Ideal)) L (Proc.devRef .tc main_arg2) = L (Proc.devRef .tc main_arg2) := by
  rw [after_ops, ops8_keeps_arg2, ops7_keeps_arg2, ops6_keeps_arg2, ops5_keeps_arg2, ops4_keeps_arg2, ops3_keeps_arg2, ops2_keeps_arg2, ops1_keeps_arg2, ops0_keeps_arg2]
/-- No operation of the reference writes argument 3. -/
theorem kept_arg3 (L : Valuation τ sig (Elt Ideal)) : after (ops (F := Ideal)) L (Proc.devRef .tc main_arg3) = L (Proc.devRef .tc main_arg3) := by
  rw [after_ops, ops8_keeps_arg3, ops7_keeps_arg3, ops6_keeps_arg3, ops5_keeps_arg3, ops4_keeps_arg3, ops3_keeps_arg3, ops2_keeps_arg3, ops1_keeps_arg3, ops0_keeps_arg3]
/-- No operation of the reference writes argument 4. -/
theorem kept_arg4 (L : Valuation τ sig (Elt Ideal)) : after (ops (F := Ideal)) L (Proc.devRef .tc main_arg4) = L (Proc.devRef .tc main_arg4) := by
  rw [after_ops, ops8_keeps_arg4, ops7_keeps_arg4, ops6_keeps_arg4, ops5_keeps_arg4, ops4_keeps_arg4, ops3_keeps_arg4, ops2_keeps_arg4, ops1_keeps_arg4, ops0_keeps_arg4]
/-- No operation of the reference writes argument 5. -/
theorem kept_arg5 (L : Valuation τ sig (Elt Ideal)) : after (ops (F := Ideal)) L (Proc.devRef .tc main_arg5) = L (Proc.devRef .tc main_arg5) := by
  rw [after_ops, ops8_keeps_arg5, ops7_keeps_arg5, ops6_keeps_arg5, ops5_keeps_arg5, ops4_keeps_arg5, ops3_keeps_arg5, ops2_keeps_arg5, ops1_keeps_arg5, ops0_keeps_arg5]
/-- No operation of the reference writes argument 6. -/
theorem kept_arg6 (L : Valuation τ sig (Elt Ideal)) : after (ops (F := Ideal)) L (Proc.devRef .tc main_arg6) = L (Proc.devRef .tc main_arg6) := by
  rw [after_ops, ops8_keeps_arg6, ops7_keeps_arg6, ops6_keeps_arg6, ops5_keeps_arg6, ops4_keeps_arg6, ops3_keeps_arg6, ops2_keeps_arg6, ops1_keeps_arg6, ops0_keeps_arg6]
/-- No operation of the reference writes argument 7. -/
theorem kept_arg7 (L : Valuation τ sig (Elt Ideal)) : after (ops (F := Ideal)) L (Proc.devRef .tc main_arg7) = L (Proc.devRef .tc main_arg7) := by
  rw [after_ops, ops8_keeps_arg7, ops7_keeps_arg7, ops6_keeps_arg7, ops5_keeps_arg7, ops4_keeps_arg7, ops3_keeps_arg7, ops2_keeps_arg7, ops1_keeps_arg7, ops0_keeps_arg7]
/-- No operation of the reference writes argument 8. -/
theorem kept_arg8 (L : Valuation τ sig (Elt Ideal)) : after (ops (F := Ideal)) L (Proc.devRef .tc main_arg8) = L (Proc.devRef .tc main_arg8) := by
  rw [after_ops, ops8_keeps_arg8, ops7_keeps_arg8, ops6_keeps_arg8, ops5_keeps_arg8, ops4_keeps_arg8, ops3_keeps_arg8, ops2_keeps_arg8, ops1_keeps_arg8, ops0_keeps_arg8]
/-- No operation of the reference writes argument 9. -/
theorem kept_arg9 (L : Valuation τ sig (Elt Ideal)) : after (ops (F := Ideal)) L (Proc.devRef .tc main_arg9) = L (Proc.devRef .tc main_arg9) := by
  rw [after_ops, ops8_keeps_arg9, ops7_keeps_arg9, ops6_keeps_arg9, ops5_keeps_arg9, ops4_keeps_arg9, ops3_keeps_arg9, ops2_keeps_arg9, ops1_keeps_arg9, ops0_keeps_arg9]
/-- No operation of the reference writes argument 10. -/
theorem kept_arg10 (L : Valuation τ sig (Elt Ideal)) : after (ops (F := Ideal)) L (Proc.devRef .tc main_arg10) = L (Proc.devRef .tc main_arg10) := by
  rw [after_ops, ops8_keeps_arg10, ops7_keeps_arg10, ops6_keeps_arg10, ops5_keeps_arg10, ops4_keeps_arg10, ops3_keeps_arg10, ops2_keeps_arg10, ops1_keeps_arg10, ops0_keeps_arg10]
/-- No operation of the reference writes argument 11. -/
theorem kept_arg11 (L : Valuation τ sig (Elt Ideal)) : after (ops (F := Ideal)) L (Proc.devRef .tc main_arg11) = L (Proc.devRef .tc main_arg11) := by
  rw [after_ops, ops8_keeps_arg11, ops7_keeps_arg11, ops6_keeps_arg11, ops5_keeps_arg11, ops4_keeps_arg11, ops3_keeps_arg11, ops2_keeps_arg11, ops1_keeps_arg11, ops0_keeps_arg11]
/-- No operation of the reference writes argument 12. -/
theorem kept_arg12 (L : Valuation τ sig (Elt Ideal)) : after (ops (F := Ideal)) L (Proc.devRef .tc main_arg12) = L (Proc.devRef .tc main_arg12) := by
  rw [after_ops, ops8_keeps_arg12, ops7_keeps_arg12, ops6_keeps_arg12, ops5_keeps_arg12, ops4_keeps_arg12, ops3_keeps_arg12, ops2_keeps_arg12, ops1_keeps_arg12, ops0_keeps_arg12]
/-- No operation of the reference writes argument 13. -/
theorem kept_arg13 (L : Valuation τ sig (Elt Ideal)) : after (ops (F := Ideal)) L (Proc.devRef .tc main_arg13) = L (Proc.devRef .tc main_arg13) := by
  rw [after_ops, ops8_keeps_arg13, ops7_keeps_arg13, ops6_keeps_arg13, ops5_keeps_arg13, ops4_keeps_arg13, ops3_keeps_arg13, ops2_keeps_arg13, ops1_keeps_arg13, ops0_keeps_arg13]

end Cert.ReferenceIdeal.RValue

end
-- ==== Proof.lean ====
/-
  The certificate's claims.

  The three frames: the kernel's two programs by their generated frame certificates; the reference by its run, a straight
  line of host operations none of which writes an argument. The idealization rewrote nothing, so there is nothing to
  preserve. At the ideal instance both programs end at the comparison head of the two graphs' averaged three-layer
  embeddings of the same arguments: the kernel's program forms each layer's product with its weight on the matrix unit
  for both graphs at once, over the two tables stacked, and the reference forms it per graph on the host; the top and
  bottom halves of the stacked product are the two per-graph products, sum for sum, so no property of the extended reals
  beyond the definitions is used and the precondition is never opened.
-/
import proofs.«130762_j21105469293031_1_alg».proof.Defs
import proofs.«130762_j21105469293031_1_alg».proof.Proof.Gen.Kernel
import proofs.«130762_j21105469293031_1_alg».proof.Proof.Gen.Kernel.Frame
import proofs.«130762_j21105469293031_1_alg».proof.Proof.Gen.KernelIdeal
import proofs.«130762_j21105469293031_1_alg».proof.Proof.Gen.KernelIdeal.Frame
import proofs.«130762_j21105469293031_1_alg».proof.Proof.Gen.ReferenceIdeal
import proofs.«130762_j21105469293031_1_alg».proof.Proof.Gen.Pre_finite_inputs
import proofs.«130762_j21105469293031_1_alg».proof.Proof.KRun
import proofs.«130762_j21105469293031_1_alg».proof.Proof.KValue
import proofs.«130762_j21105469293031_1_alg».proof.Proof.RefRun
import proofs.«130762_j21105469293031_1_alg».proof.Proof.RValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RValue.kept_arg0 (launchContents m c)),
     (h c Cert.ReferenceIdeal.main_arg1).trans (Cert.ReferenceIdeal.RValue.kept_arg1 (launchContents m c)),
     (h c Cert.ReferenceIdeal.main_arg2).trans (Cert.ReferenceIdeal.RValue.kept_arg2 (launchContents m c)),
     (h c Cert.ReferenceIdeal.main_arg3).trans (Cert.ReferenceIdeal.RValue.kept_arg3 (launchContents m c)),
     (h c Cert.ReferenceIdeal.main_arg4).trans (Cert.ReferenceIdeal.RValue.kept_arg4 (launchContents m c)),
     (h c Cert.ReferenceIdeal.main_arg5).trans (Cert.ReferenceIdeal.RValue.kept_arg5 (launchContents m c)),
     (h c Cert.ReferenceIdeal.main_arg6).trans (Cert.ReferenceIdeal.RValue.kept_arg6 (launchContents m c)),
     (h c Cert.ReferenceIdeal.main_arg7).trans (Cert.ReferenceIdeal.RValue.kept_arg7 (launchContents m c)),
     (h c Cert.ReferenceIdeal.main_arg8).trans (Cert.ReferenceIdeal.RValue.kept_arg8 (launchContents m c)),
     (h c Cert.ReferenceIdeal.main_arg9).trans (Cert.ReferenceIdeal.RValue.kept_arg9 (launchContents m c)),
     (h c Cert.ReferenceIdeal.main_arg10).trans (Cert.ReferenceIdeal.RValue.kept_arg10 (launchContents m c)),
     (h c Cert.ReferenceIdeal.main_arg11).trans (Cert.ReferenceIdeal.RValue.kept_arg11 (launchContents m c)),
     (h c Cert.ReferenceIdeal.main_arg12).trans (Cert.ReferenceIdeal.RValue.kept_arg12 (launchContents m c)),
     (h c Cert.ReferenceIdeal.main_arg13).trans (Cert.ReferenceIdeal.RValue.kept_arg13 (launchContents m c))⟩)
    (Cert.ReferenceIdeal.RefRun.run (F := Ideal) m ρ)

theorem preserves : Cert.preserves_Kernel_KernelIdeal := trivial

/-- Both programs end at the head of the two graphs' averaged embeddings of the arguments, which agree. -/
theorem algebraic : Cert.algebraic_KernelIdeal_ReferenceIdeal := by
  intro m g m' g' _ hagree
  refine ⟨fun c => Cert.KernelIdeal.Gen.W27 m g c (Proc.devRef .tc Cert.KernelIdeal.main_v297), Cert.KernelIdeal.KRun.run_result m g, ?_⟩
  refine (θ_run Cert.ReferenceIdeal.defs _ _).mono (fun r h c =>
    ⟨?_, (h c Cert.ReferenceIdeal.main_arg0).trans (Cert.ReferenceIdeal.RValue.kept_arg0 (launchContents m' c)),
     (h c Cert.ReferenceIdeal.main_arg1).trans (Cert.ReferenceIdeal.RValue.kept_arg1 (launchContents m' c)),
     (h c Cert.ReferenceIdeal.main_arg2).trans (Cert.ReferenceIdeal.RValue.kept_arg2 (launchContents m' c)),
     (h c Cert.ReferenceIdeal.main_arg3).trans (Cert.ReferenceIdeal.RValue.kept_arg3 (launchContents m' c)),
     (h c Cert.ReferenceIdeal.main_arg4).trans (Cert.ReferenceIdeal.RValue.kept_arg4 (launchContents m' c)),
     (h c Cert.ReferenceIdeal.main_arg5).trans (Cert.ReferenceIdeal.RValue.kept_arg5 (launchContents m' c)),
     (h c Cert.ReferenceIdeal.main_arg6).trans (Cert.ReferenceIdeal.RValue.kept_arg6 (launchContents m' c)),
     (h c Cert.ReferenceIdeal.main_arg7).trans (Cert.ReferenceIdeal.RValue.kept_arg7 (launchContents m' c)),
     (h c Cert.ReferenceIdeal.main_arg8).trans (Cert.ReferenceIdeal.RValue.kept_arg8 (launchContents m' c)),
     (h c Cert.ReferenceIdeal.main_arg9).trans (Cert.ReferenceIdeal.RValue.kept_arg9 (launchContents m' c)),
     (h c Cert.ReferenceIdeal.main_arg10).trans (Cert.ReferenceIdeal.RValue.kept_arg10 (launchContents m' c)),
     (h c Cert.ReferenceIdeal.main_arg11).trans (Cert.ReferenceIdeal.RValue.kept_arg11 (launchContents m' c)),
     (h c Cert.ReferenceIdeal.main_arg12).trans (Cert.ReferenceIdeal.RValue.kept_arg12 (launchContents m' c)),
     (h c Cert.ReferenceIdeal.main_arg13).trans (Cert.ReferenceIdeal.RValue.kept_arg13 (launchContents m' c))⟩)
    (Cert.ReferenceIdeal.RefRun.run (F := Ideal) m' g')
  refine (h c Cert.ReferenceIdeal.main_v291).trans ?_
  refine (Cert.ReferenceIdeal.RValue.result (launchContents m' c)).trans ?_
  refine Eq.trans ?_ (Cert.KernelIdeal.KValue.result m g c).symm
  have e0 : launchContents m' c (Proc.devRef .tc Cert.ReferenceIdeal.main_arg0) = Cert.KernelIdeal.Gen.W0 m g c (Proc.devRef .tc Cert.KernelIdeal.main_arg0) := (hagree c).1
  have e1 : launchContents m' c (Proc.devRef .tc Cert.ReferenceIdeal.main_arg1) = Cert.KernelIdeal.Gen.W0 m g c (Proc.devRef .tc Cert.KernelIdeal.main_arg1) := (hagree c).2.1
  have e2 : launchContents m' c (Proc.devRef .tc Cert.ReferenceIdeal.main_arg2) = Cert.KernelIdeal.Gen.W0 m g c (Proc.devRef .tc Cert.KernelIdeal.main_arg2) := (hagree c).2.2.1
  have e3 : launchContents m' c (Proc.devRef .tc Cert.ReferenceIdeal.main_arg3) = Cert.KernelIdeal.Gen.W0 m g c (Proc.devRef .tc Cert.KernelIdeal.main_arg3) := (hagree c).2.2.2.1
  have e4 : launchContents m' c (Proc.devRef .tc Cert.ReferenceIdeal.main_arg4) = Cert.KernelIdeal.Gen.W0 m g c (Proc.devRef .tc Cert.KernelIdeal.main_arg4) := (hagree c).2.2.2.2.1
  have e5 : launchContents m' c (Proc.devRef .tc Cert.ReferenceIdeal.main_arg5) = Cert.KernelIdeal.Gen.W0 m g c (Proc.devRef .tc Cert.KernelIdeal.main_arg5) := (hagree c).2.2.2.2.2.1
  have e6 : launchContents m' c (Proc.devRef .tc Cert.ReferenceIdeal.main_arg6) = Cert.KernelIdeal.Gen.W0 m g c (Proc.devRef .tc Cert.KernelIdeal.main_arg6) := (hagree c).2.2.2.2.2.2.1
  have e7 : launchContents m' c (Proc.devRef .tc Cert.ReferenceIdeal.main_arg7) = Cert.KernelIdeal.Gen.W0 m g c (Proc.devRef .tc Cert.KernelIdeal.main_arg7) := (hagree c).2.2.2.2.2.2.2.1
  have e8 : launchContents m' c (Proc.devRef .tc Cert.ReferenceIdeal.main_arg8) = Cert.KernelIdeal.Gen.W0 m g c (Proc.devRef .tc Cert.KernelIdeal.main_arg8) := (hagree c).2.2.2.2.2.2.2.2.1
  have e9 : launchContents m' c (Proc.devRef .tc Cert.ReferenceIdeal.main_arg9) = Cert.KernelIdeal.Gen.W0 m g c (Proc.devRef .tc Cert.KernelIdeal.main_arg9) := (hagree c).2.2.2.2.2.2.2.2.2.1
  have e10 : launchContents m' c (Proc.devRef .tc Cert.ReferenceIdeal.main_arg10) = Cert.KernelIdeal.Gen.W0 m g c (Proc.devRef .tc Cert.KernelIdeal.main_arg10) := (hagree c).2.2.2.2.2.2.2.2.2.2.1
  have e11 : launchContents m' c (Proc.devRef .tc Cert.ReferenceIdeal.main_arg11) = Cert.KernelIdeal.Gen.W0 m g c (Proc.devRef .tc Cert.KernelIdeal.main_arg11) := (hagree c).2.2.2.2.2.2.2.2.2.2.2.1
  have e12 : launchContents m' c (Proc.devRef .tc Cert.ReferenceIdeal.main_arg12) = Cert.KernelIdeal.Gen.W0 m g c (Proc.devRef .tc Cert.KernelIdeal.main_arg12) := (hagree c).2.2.2.2.2.2.2.2.2.2.2.2.1
  have e13 : launchContents m' c (Proc.devRef .tc Cert.ReferenceIdeal.main_arg13) = Cert.KernelIdeal.Gen.W0 m g c (Proc.devRef .tc Cert.KernelIdeal.main_arg13) := (hagree c).2.2.2.2.2.2.2.2.2.2.2.2.2
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
